-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x2000 : Shape := ⟨2, ![10000, 2000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x2000 : S_.BroadcastsInDim S10000x2000 (![] : Fin 0 → Fin S10000x2000.rank)
  reducesTo_S10000x2000_S_d0_1 : S10000x2000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg1 : FVec F S10000x2000 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_cst_6 : FVec F S_ .f32 := constant S_ .f32 0x00000000#32
  let main_v19 : FVec F S10000x2000 .f32 := broadcastInDim S10000x2000 ![] bcast_S_S10000x2000 main_cst_6
  let main_v20 : IVec S10000x2000 1 := cmpf .oge main_arg1 main_v19
  let main_c_7 : IVec S_ 1 := constantI S_ 1 1#1
  let main_v21 : IVec S_ 1 := (fun x v => Host.reduce IntOp.andi x v reducesTo_S10000x2000_S_d0_1 h_S_) main_v20 main_c_7
  let main_v22 : IVec S_ 1 := andi main_v18 main_v21
  main_v22

def fn {F : FTy → Type} [FloatOps F] (main_arg0 : FVec F S10000x128 .f32) (main_arg1 : FVec F S10000x2000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x2000 .f32 := Host.absf main_arg1
  let main_cst_0 : FVec F S_ .f32 := constant S_ .f32 0x7F800000#32
  let main_v5 : FVec F S10000x2000 .f32 := broadcastInDim S10000x2000 ![] bcast_S_S10000x2000 main_cst_0
  let main_v6 : IVec S10000x2000 1 := cmpf .olt main_v4 main_v5
  let main_c_1 : IVec S_ 1 := constantI S_ 1 1#1
  let main_v7 : IVec S_ 1 := (fun x v => Host.reduce IntOp.andi x v reducesTo_S10000x2000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_v13 main_v16
-- ==== Kernel.lean ====
abbrev S10000x128 : Shape := ⟨2, ![10000, 128]⟩
abbrev S10000x2000 : Shape := ⟨2, ![10000, 2000]⟩
abbrev S128x128 : Shape := ⟨2, ![128, 128]⟩
abbrev S2000x128 : Shape := ⟨2, ![2000, 128]⟩
abbrev S1x2000 : Shape := ⟨2, ![1, 2000]⟩
abbrev S2000x2000 : Shape := ⟨2, ![2000, 2000]⟩
abbrev S128x2000 : Shape := ⟨2, ![128, 2000]⟩
abbrev S2000 : Shape := ⟨1, ![2000]⟩
abbrev S10000x1 : Shape := ⟨2, ![10000, 1]⟩
abbrev S2000x1 : Shape := ⟨2, ![2000, 1]⟩

abbrev nBuf : Space → Nat
  | .hbm => 10
  | .vmem => 25
  | .smem => 0
  | _ => 0

abbrev bufTy : (tb : Table) → Fin (tcTables nBuf tb) → BufTy
  | .hbm, ⟨0, _⟩ => ⟨S10000x128, .f32⟩
  | .hbm, ⟨1, _⟩ => ⟨S10000x2000, .f32⟩
  | .hbm, ⟨2, _⟩ => ⟨S128x128, .f32⟩
  | .hbm, ⟨3, _⟩ => ⟨S128x128, .f32⟩
  | .hbm, ⟨4, _⟩ => ⟨S10000x2000, .bf16⟩
  | .hbm, ⟨5, _⟩ => ⟨S2000x128, .bf16⟩
  | .hbm, ⟨6, _⟩ => ⟨S1x2000, .f32⟩
  | .hbm, ⟨7, _⟩ => ⟨S2000x128, .bf16⟩
  | .hbm, ⟨8, _⟩ => ⟨S10000x1, .f32⟩
  | .hbm, ⟨9, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x2000, .bf16⟩
  | .local _ .vmem, ⟨3, _⟩ => ⟨S2000x2000, .bf16⟩
  | .local _ .vmem, ⟨4, _⟩ => ⟨S2000x128, .bf16⟩
  | .local _ .vmem, ⟨5, _⟩ => ⟨S1x2000, .f32⟩
  | .local _ .vmem, ⟨6, _⟩ => ⟨S128x2000, .f32⟩
  | .local _ .vmem, ⟨7, _⟩ => ⟨S1x2000, .f32⟩
  | .local _ .vmem, ⟨8, _⟩ => ⟨S2000x2000, .bf16⟩
  | .local _ .vmem, ⟨9, _⟩ => ⟨S2000x2000, .bf16⟩
  | .local _ .vmem, ⟨10, _⟩ => ⟨S2000x128, .bf16⟩
  | .local _ .vmem, ⟨11, _⟩ => ⟨S128x128, .f32⟩
  | .local _ .vmem, ⟨12, _⟩ => ⟨S1x2000, .f32⟩
  | .local _ .vmem, ⟨13, _⟩ => ⟨S2000x128, .bf16⟩
  | .local _ .vmem, ⟨14, _⟩ => ⟨S2000x1, .f32⟩
  | .local _ .vmem, ⟨15, _⟩ => ⟨S2000x1, .f32⟩
  | .local _ .vmem, ⟨16, _⟩ => ⟨S128x2000, .f32⟩
  | .local _ .vmem, ⟨17, _⟩ => ⟨S2000x2000, .bf16⟩
  | .local _ .vmem, ⟨18, _⟩ => ⟨S2000x2000, .bf16⟩
  | .local _ .vmem, ⟨19, _⟩ => ⟨S2000x128, .bf16⟩
  | .local _ .vmem, ⟨20, _⟩ => ⟨S128x128, .f32⟩
  | .local _ .vmem, ⟨21, _⟩ => ⟨S2000x1, .f32⟩
  | .local _ .vmem, ⟨22, _⟩ => ⟨S2000x1, .f32⟩
  | .local _ .vmem, ⟨23, _⟩ => ⟨S2000x128, .f32⟩
  | .local _ .vmem, ⟨24, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![5], ![false]⟩

def k0_cond3 (i : grid0.Coords) : BitVec 1 :=
  let arg0 : BitVec 32 := BitVec.ofNat 32 (i 0).val
  let c4_i32 : BitVec 32 := 4#32
  let v16 : BitVec 1 := Scalar.cmpi .eq arg0 c4_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x2000 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![5], ![false]⟩

def k1_cond3 (i : grid1.Coords) : BitVec 1 :=
  let arg0 : BitVec 32 := BitVec.ofNat 32 (i 0).val
  let c4_i32 : BitVec 32 := 4#32
  let v28 : BitVec 1 := Scalar.cmpi .eq arg0 c4_i32
  let v29 : BitVec 32 := Scalar.extui v28
  let c0_i32_15 : BitVec 32 := 0#32
  let v30 : BitVec 1 := Scalar.cmpi .ne v29 c0_i32_15
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x2000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2000x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x2000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bitsLt_bf16_f32 : FTy.bits .bf16 < FTy.bits .f32
  inb_S2000x2000_S2000x2000_0_0 : ∀ a, (![0, 0] : Fin 2 → Nat) a + S2000x2000.size a ≤ S2000x2000.size a
  h_S2000x2000 : 0 < S2000x2000.numel
  shapeCasts_S2000x2000_S2000x2000 : S2000x2000.ShapeCasts S2000x2000
  inb_S2000x128_S2000x128_0_0 : ∀ a, (![0, 0] : Fin 2 → Nat) a + S2000x128.size a ≤ S2000x128.size a
  h_S2000x128 : 0 < S2000x128.numel
  transposes_S2000x128_p1_0_S128x2000 : S2000x128.Transposes [1, 0] S128x2000
  reduces_S2000x2000_S2000 : S2000x2000.Reduces [0] S2000
  shapeCasts_S2000_S1x2000 : S2000.ShapeCasts S1x2000
  inb_S128x2000_S128x2000_0_0 : ∀ a, (![0, 0] : Fin 2 → Nat) a + S128x2000.size a ≤ S128x2000.size a
  h_S128x2000 : 0 < S128x2000.numel
  shapeCasts_S128x2000_S128x2000 : S128x2000.ShapeCasts S128x2000
  inb_S1x2000_S1x2000_0_0 : ∀ a, (![0, 0] : Fin 2 → Nat) a + S1x2000.size a ≤ S1x2000.size a
  h_S1x2000 : 0 < S1x2000.numel
  shapeCasts_S1x2000_S1x2000 : S1x2000.ShapeCasts S1x2000
  broadcasts_S1x2000_S128x2000 : S1x2000.Broadcasts S128x2000
  transposes_S128x2000_p1_0_S2000x128 : S128x2000.Transposes [1, 0] S2000x128
  packedbf16_S2000x128_S2000x128_0_0 : (Rect.unit (s := S2000x128) ![0, 0] S2000x128.size inb_S2000x128_S2000x128_0_0).PackedRows (EltTy.packing .bf16)
  shapeCasts_S2000x128_S2000x128 : S2000x128.ShapeCasts S2000x128
  reduces_S2000x2000_S2000_2 : S2000x2000.Reduces [1] S2000
  shapeCasts_S2000_S2000x1 : S2000.ShapeCasts S2000x1
  inb_S2000x1_S2000x1_0_0 : ∀ a, (![0, 0] : Fin 2 → Nat) a + S2000x1.size a ≤ S2000x1.size a
  h_S2000x1 : 0 < S2000x1.numel
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S2000x1_S2000x1 : S2000x1.ShapeCasts S2000x1
  dot_S128x2000_S2000x2000_S128x2000_1_0_0_1_n_n_wf : DotDims.WF S128x2000 S2000x2000 S128x2000 [1] [0] [0] [1] [] []
  dot_S2000x2000_S2000x128_S2000x128_1_0_0_1_n_n_wf : DotDims.WF S2000x2000 S2000x128 S2000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x2000.size a ≤ S10000x2000.size a
  hwx0_1 : ∀ i : grid0.Coords, EltTy.bits .bf16 = 32 ∨ (Rect.block (s := S10000x2000) S2000x2000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S2000x128.size a
  hwx0_2 : ∀ i : grid0.Coords, EltTy.bits .bf16 = 32 ∨ (Rect.block (s := S2000x128) S2000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2000.size a ≤ S1x2000.size a
  hwx0_3 : ∀ i : grid0.Coords, EltTy.bits .f32 = 32 ∨ (Rect.block (s := S1x2000) S1x2000.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x2000.size a ≤ S10000x2000.size a
  hwx1_0 : ∀ i : grid1.Coords, EltTy.bits .bf16 = 32 ∨ (Rect.block (s := S10000x2000) S2000x2000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S2000x128.size a
  hwx1_1 : ∀ i : grid1.Coords, EltTy.bits .bf16 = 32 ∨ (Rect.block (s := S2000x128) S2000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2000.size a ≤ S1x2000.size a
  hwx1_3 : ∀ i : grid1.Coords, EltTy.bits .f32 = 32 ∨ (Rect.block (s := S1x2000) S1x2000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S2000x128.size a
  hwx1_4 : ∀ i : grid1.Coords, EltTy.bits .bf16 = 32 ∨ (Rect.block (s := S2000x128) S2000x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S10000x1.size a
  hwx1_5 : ∀ i : grid1.Coords, EltTy.bits .f32 = 32 ∨ (Rect.block (s := S10000x1) S2000x1.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2000.size a ≤ S10000x2000.size a
  hwx2_0 : ∀ i : grid2.Coords, EltTy.bits .bf16 = 32 ∨ (Rect.block (s := S10000x2000) S2000x2000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S2000x128.size a
  hwx2_1 : ∀ i : grid2.Coords, EltTy.bits .bf16 = 32 ∨ (Rect.block (s := S2000x128) S2000x128.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S10000x1.size a
  hwx2_3 : ∀ i : grid2.Coords, EltTy.bits .f32 = 32 ∨ (Rect.block (s := S10000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S10000x128.size a
  hwx2_4 : ∀ i : grid2.Coords, EltTy.bits .f32 = 32 ∨ (Rect.block (s := S10000x128) S2000x128.size (cc2_transform_4 i) (hinb2_4 i)).WholeWords (EltTy.packing .f32)

variable [Facts₀]

def dot_S128x2000_S2000x2000_S128x2000_1_0_0_1_n_n : DotDims S128x2000 S2000x2000 S128x2000 where
  lhsContracting := [1]
  rhsContracting := [0]
  lhsNonContracting := [0]
  rhsNonContracting := [1]
  lhsBatch := []
  rhsBatch := []
  wf := dot_S128x2000_S2000x2000_S128x2000_1_0_0_1_n_n_wf
def dot_S2000x2000_S2000x128_S2000x128_1_0_0_1_n_n : DotDims S2000x2000 S2000x128 S2000x128 where
  lhsContracting := [1]
  rhsContracting := [0]
  lhsNonContracting := [0]
  rhsNonContracting := [1]
  lhsBatch := []
  rhsBatch := []
  wf := dot_S2000x2000_S2000x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2000x2000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S2000x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x2000.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond3 i == 1#1) | 3 => fun i => !(k0_cond3 i == 1#1) | ⟨_ + 4, h⟩ => absurd h (Nat.not_lt.2 (Nat.le_add_left _ _))

abbrev win1_0 : Pipeline.Window sig grid1 :=
  Pipeline.Window.ofSpec (Memref.whole main_v0) S2000x2000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S2000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1_1) S1x2000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S2000x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S2000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond3 i == 1#1) | 5 => fun _ => false | ⟨_ + 6, h⟩ => absurd h (Nat.not_lt.2 (Nat.le_add_left _ _))

abbrev win2_0 : Pipeline.Window sig grid2 :=
  Pipeline.Window.ofSpec (Memref.whole main_v0) S2000x2000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S2000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x2000 : Shape := ⟨2, ![10000, 2000]⟩
abbrev S128x128 : Shape := ⟨2, ![128, 128]⟩
abbrev S_ : Shape := ⟨0, ![]⟩
abbrev S2000 : Shape := ⟨1, ![2000]⟩
abbrev S2000x10000 : Shape := ⟨2, ![2000, 10000]⟩
abbrev S2000x128 : Shape := ⟨2, ![2000, 128]⟩
abbrev S2000x1 : Shape := ⟨2, ![2000, 1]⟩
abbrev S10000 : Shape := ⟨1, ![10000]⟩
abbrev S10000x1 : Shape := ⟨2, ![10000, 1]⟩

abbrev nBuf : Space → Nat
  | .hbm => 74
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x2000, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S2000, .f32⟩
  | .hbm, ⟨6, _⟩ => ⟨S_, .f32⟩
  | .hbm, ⟨7, _⟩ => ⟨S2000, .f32⟩
  | .hbm, ⟨8, _⟩ => ⟨S2000, .f32⟩
  | .hbm, ⟨9, _⟩ => ⟨S2000x10000, .f32⟩
  | .hbm, ⟨10, _⟩ => ⟨S_, .f32⟩
  | .hbm, ⟨11, _⟩ => ⟨S10000x128, .f32⟩
  | .hbm, ⟨12, _⟩ => ⟨S10000x128, .f32⟩
  | .hbm, ⟨13, _⟩ => ⟨S2000x128, .f32⟩
  | .hbm, ⟨14, _⟩ => ⟨S2000x1, .f32⟩
  | .hbm, ⟨15, _⟩ => ⟨S2000x128, .f32⟩
  | .hbm, ⟨16, _⟩ => ⟨S2000x128, .f32⟩
  | .hbm, ⟨17, _⟩ => ⟨S_, .f32⟩
  | .hbm, ⟨18, _⟩ => ⟨S2000x128, .f32⟩
  | .hbm, ⟨19, _⟩ => ⟨S2000x128, .f32⟩
  | .hbm, ⟨20, _⟩ => ⟨S_, .f32⟩
  | .hbm, ⟨21, _⟩ => ⟨S10000, .f32⟩
  | .hbm, ⟨22, _⟩ => ⟨S_, .f32⟩
  | .hbm, ⟨23, _⟩ => ⟨S10000, .f32⟩
  | .hbm, ⟨24, _⟩ => ⟨S10000, .f32⟩
  | .hbm, ⟨25, _⟩ => ⟨S_, .f32⟩
  | .hbm, ⟨26, _⟩ => ⟨S2000x128, .f32⟩
  | .hbm, ⟨27, _⟩ => ⟨S2000x128, .f32⟩
  | .hbm, ⟨28, _⟩ => ⟨S10000x128, .f32⟩
  | .hbm, ⟨29, _⟩ => ⟨S10000x1, .f32⟩
  | .hbm, ⟨30, _⟩ => ⟨S10000x128, .f32⟩
  | .hbm, ⟨31, _⟩ => ⟨S10000x128, .f32⟩
  | .hbm, ⟨32, _⟩ => ⟨S_, .f32⟩
  | .hbm, ⟨33, _⟩ => ⟨S10000x128, .f32⟩
  | .hbm, ⟨34, _⟩ => ⟨S10000x128, .f32⟩
  | .hbm, ⟨35, _⟩ => ⟨S10000x128, .f32⟩
  | .hbm, ⟨36, _⟩ => ⟨S_, .f32⟩
  | .hbm, ⟨37, _⟩ => ⟨S10000x128, .f32⟩
  | .hbm, ⟨38, _⟩ => ⟨S10000x128, .f32⟩
  | .hbm, ⟨39, _⟩ => ⟨S_, .f32⟩
  | .hbm, ⟨40, _⟩ => ⟨S2000, .f32⟩
  | .hbm, ⟨41, _⟩ => ⟨S_, .f32⟩
  | .hbm, ⟨42, _⟩ => ⟨S2000, .f32⟩
  | .hbm, ⟨43, _⟩ => ⟨S2000, .f32⟩
  | .hbm, ⟨44, _⟩ => ⟨S2000x10000, .f32⟩
  | .hbm, ⟨45, _⟩ => ⟨S_, .f32⟩
  | .hbm, ⟨46, _⟩ => ⟨S10000x128, .f32⟩
  | .hbm, ⟨47, _⟩ => ⟨S10000x128, .f32⟩
  | .hbm, ⟨48, _⟩ => ⟨S2000x128, .f32⟩
  | .hbm, ⟨49, _⟩ => ⟨S2000x1, .f32⟩
  | .hbm, ⟨50, _⟩ => ⟨S2000x128, .f32⟩
  | .hbm, ⟨51, _⟩ => ⟨S2000x128, .f32⟩
  | .hbm, ⟨52, _⟩ => ⟨S_, .f32⟩
  | .hbm, ⟨53, _⟩ => ⟨S2000x128, .f32⟩
  | .hbm, ⟨54, _⟩ => ⟨S2000x128, .f32⟩
  | .hbm, ⟨55, _⟩ => ⟨S_, .f32⟩
  | .hbm, ⟨56, _⟩ => ⟨S10000, .f32⟩
  | .hbm, ⟨57, _⟩ => ⟨S_, .f32⟩
  | .hbm, ⟨58, _⟩ => ⟨S10000, .f32⟩
  | .hbm, ⟨59, _⟩ => ⟨S10000, .f32⟩
  | .hbm, ⟨60, _⟩ => ⟨S_, .f32⟩
  | .hbm, ⟨61, _⟩ => ⟨S2000x128, .f32⟩
  | .hbm, ⟨62, _⟩ => ⟨S2000x128, .f32⟩
  | .hbm, ⟨63, _⟩ => ⟨S10000x128, .f32⟩
  | .hbm, ⟨64, _⟩ => ⟨S10000x1, .f32⟩
  | .hbm, ⟨65, _⟩ => ⟨S10000x128, .f32⟩
  | .hbm, ⟨66, _⟩ => ⟨S10000x128, .f32⟩
  | .hbm, ⟨67, _⟩ => ⟨S_, .f32⟩
  | .hbm, ⟨68, _⟩ => ⟨S10000x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x128, .f32⟩
  | .hbm, ⟨73, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_6 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_cst_12 : Ref sig .tc := ⟨.hbm, 57, rfl⟩
abbrev main_v38 : Ref sig .tc := ⟨.hbm, 58, rfl⟩
abbrev main_v39 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩

abbrev nD : Nat := 1
abbrev τ : Topo := Topo.v7x

variable {F : FTy → Type} [FloatOps F]

class Facts₀ : Prop where
  reducesTo_S10000x2000_S2000_d0 : S10000x2000.ReducesTo [0] S2000
  h_S_ : 0 < S_.numel
  bcast_S_S2000 : S_.BroadcastsInDim S2000 (![] : Fin 0 → Fin S2000.rank)
  transposes_S10000x2000_S2000x10000_1_0 : S10000x2000.Transposes [1, 0] S2000x10000
  bcast_S_S10000x128 : S_.BroadcastsInDim S10000x128 (![] : Fin 0 → Fin S10000x128.rank)
  bcast_S2000_S2000x1_0 : S2000.BroadcastsInDim S2000x1 (![0] : Fin 1 → Fin S2000x1.rank)
  bcast_S2000x1_S2000x128_0_1 : S2000x1.BroadcastsInDim S2000x128 (![0, 1] : Fin 2 → Fin S2000x128.rank)
  bcast_S_S2000x128 : S_.BroadcastsInDim S2000x128 (![] : Fin 0 → Fin S2000x128.rank)
  reducesTo_S10000x2000_S10000_d1 : S10000x2000.ReducesTo [1] S10000
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S2000x10000_S10000x128_S2000x128_1_0_0_1_n_n_wf : DotDims.WF S2000x10000 S10000x128 S2000x128 [1] [0] [0] [1] [] []
  dot_S10000x2000_S2000x128_S10000x128_1_0_0_1_n_n_wf : DotDims.WF S10000x2000 S2000x128 S10000x128 [1] [0] [0] [1] [] []
  dot_S10000x128_S128x128_S10000x128_1_0_0_1_n_n_wf : DotDims.WF S10000x128 S128x128 S10000x128 [1] [0] [0] [1] [] []

variable [Facts₀]

def dot_S2000x10000_S10000x128_S2000x128_1_0_0_1_n_n : DotDims S2000x10000 S10000x128 S2000x128 where
  lhsContracting := [1]
  rhsContracting := [0]
  lhsNonContracting := [0]
  rhsNonContracting := [1]
  lhsBatch := []
  rhsBatch := []
  wf := dot_S2000x10000_S10000x128_S2000x128_1_0_0_1_n_n_wf
def dot_S10000x2000_S2000x128_S10000x128_1_0_0_1_n_n : DotDims S10000x2000 S2000x128 S10000x128 where
  lhsContracting := [1]
  rhsContracting := [0]
  lhsNonContracting := [0]
  rhsNonContracting := [1]
  lhsBatch := []
  rhsBatch := []
  wf := dot_S10000x2000_S2000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.BitsRegion0Runs.lean ====
/-
  The first pallas_call (the first layer's hyperedge aggregation), its body case by case.

  The grid has five points, one per block of 2000 nodes. At every point the body forms, from the block of features and
  the block of incidence rows, the block's contribution to the [128,2000] sum of squared features per hyperedge and to
  the [1,2000] hyperedge sizes. At the first point it stores the two contributions into two scratch buffers; at every
  later point it adds them to what the scratch buffers hold; at the last point it also writes the two outputs from the
  scratch buffers: the sizes floored at one, and the sums divided by them, transposed. So there are three cases of the
  body's three conditionals (first point; a middle point; the last point), decided here over the grid in closed form,
  and the body is run once per case on any staging memrefs: what each buffer ends with is found by the run itself.
-/
import proofs.«114318_g79602923864256_cont_9to1_m_37_17_alg».proof.Proof.Gen.Kernel.Launch
import proofs.«114318_g79602923864256_cont_9to1_m_37_17_alg».proof.Proof.Gen.Kernel.Skeleton
import proofs.«114318_g79602923864256_cont_9to1_m_37_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions over the grid -/

/-- "This is the first point" (the first conditional's scalar chain). -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is a later point" (the second conditional's scalar chain). -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ t.val ≠ 0 :=
  (by decide +kernel : ∀ t : Fin grid0.N, cond0_1 (grid0.coords t) ↔ t.val ≠ 0)
/-- "This is the last point" (the third conditional). -/
abbrev cond0_2 (i : grid0.Coords) : Prop := k0_cond3 i = 1#1
theorem hcond0_2 : ∀ t : Fin cfg0.N, cond0_2 (grid0.coords t) ↔ t.val = 4 :=
  (by decide +kernel : ∀ t : Fin grid0.N, cond0_2 (grid0.coords t) ↔ t.val = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the two outputs are idle and not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
/-- At the last point they are live. -/
theorem liveAt0_2 : ∀ t : Fin cfg0.N, cond0_2 (grid0.coords t) → cfg0.idle 2 (grid0.coords t) = false := by decide +kernel
theorem liveAt0_3 : ∀ t : Fin cfg0.N, cond0_2 (grid0.coords t) → cfg0.idle 3 (grid0.coords t) = false := by decide +kernel

/-! ## The memrefs the pipeline passes the body -/

abbrev VO0_2 : View sig .tc .vmem S2000x128 .bf16 := (Memref.whole cc0_stg2_0 : Memref sig .tc .vmem S2000x128 .bf16).view
abbrev VO0_3 : View sig .tc .vmem S1x2000 .f32 := (Memref.whole cc0_stg3_0 : Memref sig .tc .vmem S1x2000 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x2000 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2000 .f32 := win0_3.stage (cfg0.slots t 3)
abbrev hs0_3 (t : Fin cfg0.N) : (ms0_3 t).IsWhole := hstage0_3 ((cfg0.slots t 3).cast nbuf0_3)
/-- The two scratch buffers, whole. -/
abbrev scM0_0 : Memref sig .tc .vmem S128x2000 .f32 := Memref.whole cc0_scratch0
abbrev scM0_1 : Memref sig .tc .vmem S1x2000 .f32 := Memref.whole cc0_scratch1
abbrev VS0_0 : View sig .tc .vmem S128x2000 .f32 := scM0_0.view
abbrev VS0_1 : View sig .tc .vmem S1x2000 .f32 := scM0_1.view

/-! ## The body, case by case -/

set_option maxHeartbeats 4000000 in
/-- The first point: the two scratch buffers, at anything, end with the stored contributions; the outputs are handed
    back untouched. -/
noncomputable def kernelRun0_A (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i)
    (x0 : Vec F S2000x128 .f32) (x1 : Vec F S2000x2000 .bf16) :
    Σ' (LS0 : List (View.Piece (Elt F) S128x2000 .f32)), { LS1 : List (View.Piece (Elt F) S1x2000 .f32) //
      ∀ (xi2 : Vec F S2000x128 .bf16) (xi3 : Vec F S1x2000 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__intra1_kernel i arg1 harg1 arg2 harg2 arg3 harg3 arg4 harg4 arg5 harg5 arg6 harg6) K } := by
  refine ⟨?_, ?_, fun xi2 xi3 E K => ?run⟩
  case run =>
    simp only [cc0__intra1_kernel_eq_skeleton]; unfold cc0__intra1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- A middle point: the two scratch buffers, at what the point before left, end with the contributions added; the
    outputs are handed back untouched. -/
noncomputable def kernelRun0_B (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i)
    (x0 : Vec F S2000x128 .f32) (x1 : Vec F S2000x2000 .bf16) (xs0 : Vec F S128x2000 .f32) (xs1 : Vec F S1x2000 .f32) :
    Σ' (LS0 : List (View.Piece (Elt F) S128x2000 .f32)), { LS1 : List (View.Piece (Elt F) S1x2000 .f32) //
      ∀ (xi2 : Vec F S2000x128 .bf16) (xi3 : Vec F S1x2000 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__intra1_kernel i arg1 harg1 arg2 harg2 arg3 harg3 arg4 harg4 arg5 harg5 arg6 harg6) K } := by
  refine ⟨?_, ?_, fun xi2 xi3 E K => ?run⟩
  case run =>
    simp only [cc0__intra1_kernel_eq_skeleton]; unfold cc0__intra1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- The last point: the scratch buffers end with the contributions added, and the two outputs, at anything, with what
    the body stores into them from the scratch buffers. -/
noncomputable def kernelRun0_C (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) :
    Σ' (L2 : List (View.Piece (Elt F) S2000x128 .bf16)) (L3 : List (View.Piece (Elt F) S1x2000 .f32)) (LS0 : List (View.Piece (Elt F) S128x2000 .f32)), { LS1 : List (View.Piece (Elt F) S1x2000 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__intra1_kernel i arg1 harg1 arg2 harg2 arg3 harg3 arg4 harg4 arg5 harg5 arg6 harg6) K } := by
  refine ⟨?_, ?_, ?_, ?_, fun E K => ?run⟩
  case run =>
    simp only [cc0__intra1_kernel_eq_skeleton]; unfold cc0__intra1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Hand

end
-- ==== Proof.BitsRegion0.lean ====
/-
  The first pallas_call as proof data, at any entry contents V.

  What the two scratch buffers and the two outputs' staging buffers hold after each grid point, by recursion on the
  point (acc, the running [128,2000] sum of squared features per hyperedge, and dacc, the running [1,2000] hyperedge
  sizes: stored at the first point, added to at every later one; the outputs written at the last point from them); the
  invariant between points, which names the two scratch buffers' contents; the pipeline's proof data; and the body
  obligation at every point, by cases on the point, each case the body's run of that case.
-/
import proofs.«114318_g79602923864256_cont_9to1_m_37_17_alg».proof.Proof.Gen.Kernel.Launch
import proofs.«114318_g79602923864256_cont_9to1_m_37_17_alg».proof.Proof.Gen.Kernel.Skeleton
import proofs.«114318_g79602923864256_cont_9to1_m_37_17_alg».proof.Proof.Gen.Kernel.Points
import proofs.«114318_g79602923864256_cont_9to1_m_37_17_alg».proof.Proof.BitsRegion0Runs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Away from the last point the outputs' buffers are not stored into: a placeholder nothing consults. -/
def outIdle0_2 : Vec F S2000x128 .bf16 := VO0_2.read (Elt F) (VO0_2.writes (Elt F) VO0_2.junk [])
def outIdle0_3 : Vec F S1x2000 .f32 := VO0_3.read (Elt F) (VO0_3.writes (Elt F) VO0_3.junk [])

theorem scover0_A_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i)
    (x0 : Vec F S2000x128 .f32) (x1 : Vec F S2000x2000 .bf16) (y : S128x2000.Idx) :
    ∃ pc ∈ (kernelRun0_A c i arg1 harg1 arg2 harg2 arg3 harg3 arg4 harg4 arg5 harg5 arg6 harg6 hc0 hc1 hc2 x0 x1).1, y ∈ pc.1.set :=
  View.cover_of_tiledL (kernelRun0_A c i arg1 harg1 arg2 harg2 arg3 harg3 arg4 harg4 arg5 harg5 arg6 harg6 hc0 hc1 hc2 x0 x1).1 S128x2000.size (by sl_kernel_rfl) y
theorem scover0_A_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i)
    (x0 : Vec F S2000x128 .f32) (x1 : Vec F S2000x2000 .bf16) (y : S1x2000.Idx) :
    ∃ pc ∈ (kernelRun0_A c i arg1 harg1 arg2 harg2 arg3 harg3 arg4 harg4 arg5 harg5 arg6 harg6 hc0 hc1 hc2 x0 x1).2.1, y ∈ pc.1.set :=
  View.cover_of_tiledL (kernelRun0_A c i arg1 harg1 arg2 harg2 arg3 harg3 arg4 harg4 arg5 harg5 arg6 harg6 hc0 hc1 hc2 x0 x1).2.1 S1x2000.size (by sl_kernel_rfl) y
/-- The first point's scratch contents. -/
def sout0_A_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i)
    (x0 : Vec F S2000x128 .f32) (x1 : Vec F S2000x2000 .bf16) : Vec F S128x2000 .f32 :=
  VS0_0.read (Elt F) (VS0_0.writes (Elt F) VS0_0.junk (kernelRun0_A c i arg1 harg1 arg2 harg2 arg3 harg3 arg4 harg4 arg5 harg5 arg6 harg6 hc0 hc1 hc2 x0 x1).1)
def sout0_A_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i)
    (x0 : Vec F S2000x128 .f32) (x1 : Vec F S2000x2000 .bf16) : Vec F S1x2000 .f32 :=
  VS0_1.read (Elt F) (VS0_1.writes (Elt F) VS0_1.junk (kernelRun0_A c i arg1 harg1 arg2 harg2 arg3 harg3 arg4 harg4 arg5 harg5 arg6 harg6 hc0 hc1 hc2 x0 x1).2.1)

theorem scover0_B_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i)
    (x0 : Vec F S2000x128 .f32) (x1 : Vec F S2000x2000 .bf16) (xs0 : Vec F S128x2000 .f32) (xs1 : Vec F S1x2000 .f32) (y : S128x2000.Idx) :
    ∃ pc ∈ (kernelRun0_B c i arg1 harg1 arg2 harg2 arg3 harg3 arg4 harg4 arg5 harg5 arg6 harg6 hc0 hc1 hc2 x0 x1 xs0 xs1).1, y ∈ pc.1.set :=
  View.cover_of_tiledL (kernelRun0_B c i arg1 harg1 arg2 harg2 arg3 harg3 arg4 harg4 arg5 harg5 arg6 harg6 hc0 hc1 hc2 x0 x1 xs0 xs1).1 S128x2000.size (by sl_kernel_rfl) y
theorem scover0_B_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i)
    (x0 : Vec F S2000x128 .f32) (x1 : Vec F S2000x2000 .bf16) (xs0 : Vec F S128x2000 .f32) (xs1 : Vec F S1x2000 .f32) (y : S1x2000.Idx) :
    ∃ pc ∈ (kernelRun0_B c i arg1 harg1 arg2 harg2 arg3 harg3 arg4 harg4 arg5 harg5 arg6 harg6 hc0 hc1 hc2 x0 x1 xs0 xs1).2.1, y ∈ pc.1.set :=
  View.cover_of_tiledL (kernelRun0_B c i arg1 harg1 arg2 harg2 arg3 harg3 arg4 harg4 arg5 harg5 arg6 harg6 hc0 hc1 hc2 x0 x1 xs0 xs1).2.1 S1x2000.size (by sl_kernel_rfl) y
/-- A middle point's scratch contents, over what the point before left. -/
def sout0_B_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i)
    (x0 : Vec F S2000x128 .f32) (x1 : Vec F S2000x2000 .bf16) (xs0 : Vec F S128x2000 .f32) (xs1 : Vec F S1x2000 .f32) : Vec F S128x2000 .f32 :=
  VS0_0.read (Elt F) (VS0_0.writes (Elt F) VS0_0.junk (kernelRun0_B c i arg1 harg1 arg2 harg2 arg3 harg3 arg4 harg4 arg5 harg5 arg6 harg6 hc0 hc1 hc2 x0 x1 xs0 xs1).1)
def sout0_B_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i)
    (x0 : Vec F S2000x128 .f32) (x1 : Vec F S2000x2000 .bf16) (xs0 : Vec F S128x2000 .f32) (xs1 : Vec F S1x2000 .f32) : Vec F S1x2000 .f32 :=
  VS0_1.read (Elt F) (VS0_1.writes (Elt F) VS0_1.junk (kernelRun0_B c i arg1 harg1 arg2 harg2 arg3 harg3 arg4 harg4 arg5 harg5 arg6 harg6 hc0 hc1 hc2 x0 x1 xs0 xs1).2.1)

theorem cover0_C_2 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) (y : S2000x128.Idx) :
    ∃ pc ∈ (kernelRun0_C c i arg1 harg1 arg2 harg2 arg3 harg3 arg4 harg4 arg5 harg5 arg6 harg6 hc0 hc1 hc2 x0 x1 xs0 xs1).1, y ∈ pc.1.set :=
  View.cover_of_tiledL (kernelRun0_C c i arg1 harg1 arg2 harg2 arg3 harg3 arg4 harg4 arg5 harg5 arg6 harg6 hc0 hc1 hc2 x0 x1 xs0 xs1).1 S2000x128.size (by sl_kernel_rfl) y
theorem cover0_C_3 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) (y : S1x2000.Idx) :
    ∃ pc ∈ (kernelRun0_C c i arg1 harg1 arg2 harg2 arg3 harg3 arg4 harg4 arg5 harg5 arg6 harg6 hc0 hc1 hc2 x0 x1 xs0 xs1).2.1, y ∈ pc.1.set :=
  View.cover_of_tiledL (kernelRun0_C c i arg1 harg1 arg2 harg2 arg3 harg3 arg4 harg4 arg5 harg5 arg6 harg6 hc0 hc1 hc2 x0 x1 xs0 xs1).2.1 S1x2000.size (by sl_kernel_rfl) y
theorem scover0_C_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) (y : S128x2000.Idx) :
    ∃ pc ∈ (kernelRun0_C c i arg1 harg1 arg2 harg2 arg3 harg3 arg4 harg4 arg5 harg5 arg6 harg6 hc0 hc1 hc2 x0 x1 xs0 xs1).2.2.1, y ∈ pc.1.set :=
  View.cover_of_tiledL (kernelRun0_C c i arg1 harg1 arg2 harg2 arg3 harg3 arg4 harg4 arg5 harg5 arg6 harg6 hc0 hc1 hc2 x0 x1 xs0 xs1).2.2.1 S128x2000.size (by sl_kernel_rfl) y
theorem scover0_C_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) (y : S1x2000.Idx) :
    ∃ pc ∈ (kernelRun0_C c i arg1 harg1 arg2 harg2 arg3 harg3 arg4 harg4 arg5 harg5 arg6 harg6 hc0 hc1 hc2 x0 x1 xs0 xs1).2.2.2.1, y ∈ pc.1.set :=
  View.cover_of_tiledL (kernelRun0_C c i arg1 harg1 arg2 harg2 arg3 harg3 arg4 harg4 arg5 harg5 arg6 harg6 hc0 hc1 hc2 x0 x1 xs0 xs1).2.2.2.1 S1x2000.size (by sl_kernel_rfl) y
/-- The last point's outputs and scratch contents, over what the point before left. -/
def out0_C_2 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) : Vec F S2000x128 .bf16 :=
  VO0_2.read (Elt F) (VO0_2.writes (Elt F) VO0_2.junk (kernelRun0_C c i arg1 harg1 arg2 harg2 arg3 harg3 arg4 harg4 arg5 harg5 arg6 harg6 hc0 hc1 hc2 x0 x1 xs0 xs1).1)
def out0_C_3 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) : Vec F S1x2000 .f32 :=
  VO0_3.read (Elt F) (VO0_3.writes (Elt F) VO0_3.junk (kernelRun0_C c i arg1 harg1 arg2 harg2 arg3 harg3 arg4 harg4 arg5 harg5 arg6 harg6 hc0 hc1 hc2 x0 x1 xs0 xs1).2.1)
def sout0_C_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) : Vec F S128x2000 .f32 :=
  VS0_0.read (Elt F) (VS0_0.writes (Elt F) VS0_0.junk (kernelRun0_C c i arg1 harg1 arg2 harg2 arg3 harg3 arg4 harg4 arg5 harg5 arg6 harg6 hc0 hc1 hc2 x0 x1 xs0 xs1).2.2.1)
def sout0_C_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) : Vec F S1x2000 .f32 :=
  VS0_1.read (Elt F) (VS0_1.writes (Elt F) VS0_1.junk (kernelRun0_C c i arg1 harg1 arg2 harg2 arg3 harg3 arg4 harg4 arg5 harg5 arg6 harg6 hc0 hc1 hc2 x0 x1 xs0 xs1).2.2.2.1)

/-! ## What the buffers hold after each point -/

/-- After the body at position n: (output 2's buffer, output 3's buffer, scratch acc, scratch dacc). -/
def outsAt0 (c : Dev nD) : (n : ℕ) → n < cfg0.N → Vec F S2000x128 .bf16 × Vec F S1x2000 .f32 × Vec F S128x2000 .f32 × Vec F S1x2000 .f32
  | 0, hn =>
    (outIdle0_2, outIdle0_3,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => (hcond0_1 ⟨0, hn⟩).mp h rfl) (fun h => (fun h => by (try dsimp only at h); omega) ((hcond0_2 ⟨0, hn⟩).mp h)) (iblk0 V c 0 ⟨0, hn⟩) (iblk0 V c 1 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => (hcond0_1 ⟨0, hn⟩).mp h rfl) (fun h => (fun h => by (try dsimp only at h); omega) ((hcond0_2 ⟨0, hn⟩).mp h)) (iblk0 V c 0 ⟨0, hn⟩) (iblk0 V c 1 ⟨0, hn⟩))
  | n + 1, hn =>
    if h2 : n + 1 = 4 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (outsAt0 c n (Nat.lt_of_succ_lt hn)).2.2.1 (outsAt0 c n (Nat.lt_of_succ_lt hn)).2.2.2,
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (outsAt0 c n (Nat.lt_of_succ_lt hn)).2.2.1 (outsAt0 c n (Nat.lt_of_succ_lt hn)).2.2.2)
    else
      (outIdle0_2, outIdle0_3,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) (fun h => h2 ((hcond0_2 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) (fun h => h2 ((hcond0_2 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- At the first point. -/
theorem outsAt0_A (c : Dev nD) (t : Fin cfg0.N) (h0 : t.val = 0) (hc0 : cond0_0 (grid0.coords t)) (hc1 : ¬cond0_1 (grid0.coords t)) (hc2 : ¬cond0_2 (grid0.coords t)) :
    outsAt0 V c t.val t.isLt = (outIdle0_2, outIdle0_3,
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t)) := by
  obtain ⟨n, hn⟩ := t
  cases n with
  | zero => exact rfl
  | succ n => exact absurd h0 (Nat.succ_ne_zero n)

/-- At a middle point. -/
theorem outsAt0_B (c : Dev nD) (t : Fin cfg0.N) (h0 : t.val ≠ 0) (h2 : t.val ≠ 4) (hc0 : ¬cond0_0 (grid0.coords t)) (hc1 : cond0_1 (grid0.coords t)) (hc2 : ¬cond0_2 (grid0.coords t)) :
    outsAt0 V c t.val t.isLt = (outIdle0_2, outIdle0_3,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h2).trans rfl

/-- At the last point. -/
theorem outsAt0_C (c : Dev nD) (t : Fin cfg0.N) (h2 : t.val = 4) (hc0 : ¬cond0_0 (grid0.coords t)) (hc1 : cond0_1 (grid0.coords t)) (hc2 : cond0_2 (grid0.coords t)) :
    outsAt0 V c t.val t.isLt = (
      out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd h2 (by dsimp only; omega)
  | succ n => exact (dif_pos h2).trans rfl

/-! ## The invariant between points -/

/-- The core's scoped buffers other than this call's staging buffers and its two scratch buffers, each at anything. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The plain invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA; rw [scopedRest0_eq]; simp only [scM0_0, scM0_1, owns_whole]; try rfl

/-- Before position n: the plain invariant before the first point; afterwards the two scratch buffers at what the point
    before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 5 := lt_of_lt_of_eq t.isLt (show cfg0.N = 5 from N_0)
  by_cases h0 : t.val = 0
  · have hc0 : cond0_0 (grid0.coords t) := (hcond0_0 t).mpr h0
    have hc1 : ¬cond0_1 (grid0.coords t) := fun h => (hcond0_1 t).mp h h0
    have hc2 : ¬cond0_2 (grid0.coords t) := fun h => by have := (hcond0_2 t).mp h; omega
    rw [Dat.leavesExact_idle (dat0 V c) 2 t (idleAt0_2 t hc2) (noFlush0_2 t hc2)]
    rw [Dat.leavesExact_idle (dat0 V c) 3 t (idleAt0_3 t hc2) (noFlush0_3 t hc2)]
    rw [outsAt0_A V c t h0 hc0 hc1 hc2]
    unfold sout0_A_0 sout0_A_1; (try dsimp only)
    rw [PhiS_castSucc V c t, PhiS_zero V c _ _ h0, PhiA0_eq]
    iintro ⟨⟨⟨HS0, HS1, Hrest⟩, Hg⟩, Ho, ⟨%d0, H0⟩, ⟨%d1, H1⟩, ⟨%d2, H2⟩, ⟨%d3, H3⟩⟩
    iapply ((kernelRun0_A c (grid0.coords t) _ _ _ _ _ _ _ _ _ _ _ _ hc0 hc1 hc2 (iblk0 V c 0 t) (iblk0 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 c _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _)
        iexact Hrest
      iexact Hg
    isplitl [Ho]; · iexact Ho
    isplitl [H0]; · iexact H0
    isplitl [H1]; · iexact H1
    isplitl [H2]; · iexists _; iexact H2
    iexists _; iexact H3
  · have hc0 : ¬cond0_0 (grid0.coords t) := fun h => h0 ((hcond0_0 t).mp h)
    have hc1 : cond0_1 (grid0.coords t) := (hcond0_1 t).mpr h0
    by_cases h2 : t.val = 4
    · have hc2 : cond0_2 (grid0.coords t) := (hcond0_2 t).mpr h2
      rw [show (dat0 V c).leavesExact 2 t = owns (c : Thread nD τ) (ms0_2 t) fullShare ((dat0 V c).after 2 t) from by
        unfold Dat.leavesExact; rw [liveAt0_2 t hc2], after0_2]
      rw [show (dat0 V c).leavesExact 3 t = owns (c : Thread nD τ) (ms0_3 t) fullShare ((dat0 V c).after 3 t) from by
        unfold Dat.leavesExact; rw [liveAt0_3 t hc2], after0_3]
      rw [outsAt0_C V c t h2 hc0 hc1 hc2]
      unfold out0_C_2 out0_C_3 sout0_C_0 sout0_C_1; (try dsimp only)
      rw [PhiS_castSucc V c t, PhiS_pos V c _ _ h0]
      iintro ⟨⟨⟨HS0, HS1, Hrest⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 hc2 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _ _)
    · have hc2 : ¬cond0_2 (grid0.coords t) := fun h => h2 ((hcond0_2 t).mp h)
      rw [Dat.leavesExact_idle (dat0 V c) 2 t (idleAt0_2 t hc2) (noFlush0_2 t hc2)]
      rw [Dat.leavesExact_idle (dat0 V c) 3 t (idleAt0_3 t hc2) (noFlush0_3 t hc2)]
      rw [outsAt0_B V c t h0 h2 hc0 hc1 hc2]
      unfold sout0_B_0 sout0_B_1; (try dsimp only)
      rw [PhiS_castSucc V c t, PhiS_pos V c _ _ h0]
      iintro ⟨⟨⟨HS0, HS1, Hrest⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 hc2 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : (dat0 V c).Φ 0 = Pipeline.ΦA spec0 c := rfl

/-- After the last point the invariant gives the plain one back: the scratch buffers' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 5 := N_0; omega), PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Region0

end Cert.Kernel.Hand

end
-- ==== Proof.BitsRegion1Runs.lean ====
/-
  The second pallas_call (the first layer's node aggregation fused with the second layer's hyperedge aggregation), its
  body case by case.

  The grid has five points, one per block of 2000 nodes. At every point the body forms, from the block of incidence
  rows, the block's node degrees floored at one, which it stores into the second output's block; and, from the
  incidence block, the first layer's hyperedge means and the weights, the block's contribution to the [128,2000] sum of
  the second layer's squared features per hyperedge. At the first point it stores the contribution into a scratch
  buffer; at every later point it adds it to what the scratch buffer holds; at the last point it also writes the first
  output from the scratch buffer: the sums divided by the hyperedge sizes, transposed. So there are three cases of the
  body's three conditionals (first point; a middle point; the last point), decided here over the grid in closed form,
  and the body is run once per case on any staging memrefs: what each buffer ends with is found by the run itself.
-/
import proofs.«114318_g79602923864256_cont_9to1_m_37_17_alg».proof.Proof.Gen.Kernel.Launch
import proofs.«114318_g79602923864256_cont_9to1_m_37_17_alg».proof.Proof.Gen.Kernel.Skeleton
import proofs.«114318_g79602923864256_cont_9to1_m_37_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions over the grid -/

/-- "This is the first point" (the first conditional's scalar chain). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- "This is a later point" (the second conditional's scalar chain). -/
abbrev cond1_1 (i : grid1.Coords) : Prop := (Scalar.cmpi .ne (Scalar.extui (Scalar.cmpi .sgt (BitVec.ofNat 32 (i 0).val) 0#32)) 0#32) = 1#1
theorem hcond1_1 : ∀ t : Fin cfg1.N, cond1_1 (grid1.coords t) ↔ t.val ≠ 0 :=
  (by decide +kernel : ∀ t : Fin grid1.N, cond1_1 (grid1.coords t) ↔ t.val ≠ 0)
/-- "This is the last point" (the third conditional). -/
abbrev cond1_2 (i : grid1.Coords) : Prop := k1_cond3 i = 1#1
theorem hcond1_2 : ∀ t : Fin cfg1.N, cond1_2 (grid1.coords t) ↔ t.val = 4 :=
  (by decide +kernel : ∀ t : Fin grid1.N, cond1_2 (grid1.coords t) ↔ t.val = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the first output is idle and not written back. -/
theorem idleAt1_4 : ∀ t : Fin cfg1.N, ¬cond1_2 (grid1.coords t) → cfg1.idle 4 (grid1.coords t) = true := by decide +kernel
theorem noFlush1_4 : ∀ t : Fin cfg1.N, ¬cond1_2 (grid1.coords t) → (cfg1.win 4).flush t = false := by decide +kernel
/-- At the last point it is live. -/
theorem liveAt1_4 : ∀ t : Fin cfg1.N, cond1_2 (grid1.coords t) → cfg1.idle 4 (grid1.coords t) = false := by decide +kernel
/-- The second output is live at every point. -/
theorem liveAt1_5 : ∀ t : Fin cfg1.N, cfg1.idle 5 (grid1.coords t) = false := by decide +kernel

/-! ## The memrefs the pipeline passes the body -/

abbrev VO1_4 : View sig .tc .vmem S2000x128 .bf16 := (Memref.whole cc1_stg4_0 : Memref sig .tc .vmem S2000x128 .bf16).view
abbrev VO1_5 : View sig .tc .vmem S2000x1 .f32 := (Memref.whole cc1_stg5_0 : Memref sig .tc .vmem S2000x1 .f32).view
abbrev ms1_0 (t : Fin cfg1.N) : Memref sig .tc .vmem S2000x2000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x1 .f32 := win1_5.stage (cfg1.slots t 5)
abbrev hs1_5 (t : Fin cfg1.N) : (ms1_5 t).IsWhole := hstage1_5 ((cfg1.slots t 5).cast nbuf1_5)
/-- The scratch buffer, whole. -/
abbrev scM1_0 : Memref sig .tc .vmem S128x2000 .f32 := Memref.whole cc1_scratch0
abbrev VS1_0 : View sig .tc .vmem S128x2000 .f32 := scM1_0.view

/-! ## The body, case by case -/

set_option maxHeartbeats 4000000 in
/-- The first point: the second output's buffer, at anything, ends with the stored degrees, and the scratch buffer, at
    anything, with the stored contribution; the first output is handed back untouched. -/
noncomputable def kernelRun1_A (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i)
    (x0 : Vec F S2000x2000 .bf16) (x1 : Vec F S2000x128 .bf16) (x2 : Vec F S128x128 .f32) (x3 : Vec F S1x2000 .f32) :
    Σ' (L5 : List (View.Piece (Elt F) S2000x1 .f32)), { LS0 : List (View.Piece (Elt F) S128x2000 .f32) //
      ∀ (xi4 : Vec F S2000x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg1 harg1 arg2 harg2 arg3 harg3 arg4 harg4 arg5 harg5 arg6 harg6 arg7 harg7) K } := by
  refine ⟨?_, ?_, fun xi4 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 4000000 in
/-- A middle point: the second output's buffer ends with the stored degrees, and the scratch buffer, at what the point
    before left, with the contribution added; the first output is handed back untouched. -/
noncomputable def kernelRun1_B (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i)
    (x0 : Vec F S2000x2000 .bf16) (x1 : Vec F S2000x128 .bf16) (x2 : Vec F S128x128 .f32) (x3 : Vec F S1x2000 .f32) (xs0 : Vec F S128x2000 .f32) :
    Σ' (L5 : List (View.Piece (Elt F) S2000x1 .f32)), { LS0 : List (View.Piece (Elt F) S128x2000 .f32) //
      ∀ (xi4 : Vec F S2000x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg1 harg1 arg2 harg2 arg3 harg3 arg4 harg4 arg5 harg5 arg6 harg6 arg7 harg7) K } := by
  refine ⟨?_, ?_, fun xi4 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 4000000 in
/-- The last point: the second output's buffer ends with the stored degrees, the scratch buffer with the contribution
    added, and the first output's buffer, at anything, with what the body stores into it from the scratch buffer. -/
noncomputable def kernelRun1_C (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) :
    Σ' (L4 : List (View.Piece (Elt F) S2000x128 .bf16)) (L5 : List (View.Piece (Elt F) S2000x1 .f32)), { LS0 : List (View.Piece (Elt F) S128x2000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg1 harg1 arg2 harg2 arg3 harg3 arg4 harg4 arg5 harg5 arg6 harg6 arg7 harg7) K } := by
  refine ⟨?_, ?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3
    obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.Kernel.Hand

end
-- ==== Proof.BitsRegion1.lean ====
/-
  The second pallas_call as proof data, at any entry contents V.

  What the scratch buffer and the two outputs' staging buffers hold after each grid point, by recursion on the point
  (the running [128,2000] sum of the second layer's squared features per hyperedge: stored at the first point, added to
  at every later one; the first output written at the last point from it; the second output's block of node degrees
  stored at every point); the invariant between points, which names the scratch buffer's contents; the pipeline's proof
  data; and the body obligation at every point, by cases on the point, each case the body's run of that case.
-/
import proofs.«114318_g79602923864256_cont_9to1_m_37_17_alg».proof.Proof.Gen.Kernel.Launch
import proofs.«114318_g79602923864256_cont_9to1_m_37_17_alg».proof.Proof.Gen.Kernel.Skeleton
import proofs.«114318_g79602923864256_cont_9to1_m_37_17_alg».proof.Proof.Gen.Kernel.Points
import proofs.«114318_g79602923864256_cont_9to1_m_37_17_alg».proof.Proof.BitsRegion1Runs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Away from the last point the first output's buffer is not stored into: a placeholder nothing consults. -/
def outIdle1_4 : Vec F S2000x128 .bf16 := VO1_4.read (Elt F) (VO1_4.writes (Elt F) VO1_4.junk [])

theorem cover1_A_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i)
    (x0 : Vec F S2000x2000 .bf16) (x1 : Vec F S2000x128 .bf16) (x2 : Vec F S128x128 .f32) (x3 : Vec F S1x2000 .f32) (y : S2000x1.Idx) :
    ∃ pc ∈ (kernelRun1_A c i arg1 harg1 arg2 harg2 arg3 harg3 arg4 harg4 arg5 harg5 arg6 harg6 arg7 harg7 hc0 hc1 hc2 x0 x1 x2 x3).1, y ∈ pc.1.set :=
  View.cover_of_tiledL (kernelRun1_A c i arg1 harg1 arg2 harg2 arg3 harg3 arg4 harg4 arg5 harg5 arg6 harg6 arg7 harg7 hc0 hc1 hc2 x0 x1 x2 x3).1 S2000x1.size (by sl_kernel_rfl) y
theorem scover1_A_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i)
    (x0 : Vec F S2000x2000 .bf16) (x1 : Vec F S2000x128 .bf16) (x2 : Vec F S128x128 .f32) (x3 : Vec F S1x2000 .f32) (y : S128x2000.Idx) :
    ∃ pc ∈ (kernelRun1_A c i arg1 harg1 arg2 harg2 arg3 harg3 arg4 harg4 arg5 harg5 arg6 harg6 arg7 harg7 hc0 hc1 hc2 x0 x1 x2 x3).2.1, y ∈ pc.1.set :=
  View.cover_of_tiledL (kernelRun1_A c i arg1 harg1 arg2 harg2 arg3 harg3 arg4 harg4 arg5 harg5 arg6 harg6 arg7 harg7 hc0 hc1 hc2 x0 x1 x2 x3).2.1 S128x2000.size (by sl_kernel_rfl) y
/-- The first point's degrees block and scratch contents. -/
def out1_A_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i)
    (x0 : Vec F S2000x2000 .bf16) (x1 : Vec F S2000x128 .bf16) (x2 : Vec F S128x128 .f32) (x3 : Vec F S1x2000 .f32) : Vec F S2000x1 .f32 :=
  VO1_5.read (Elt F) (VO1_5.writes (Elt F) VO1_5.junk (kernelRun1_A c i arg1 harg1 arg2 harg2 arg3 harg3 arg4 harg4 arg5 harg5 arg6 harg6 arg7 harg7 hc0 hc1 hc2 x0 x1 x2 x3).1)
def sout1_A_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i)
    (x0 : Vec F S2000x2000 .bf16) (x1 : Vec F S2000x128 .bf16) (x2 : Vec F S128x128 .f32) (x3 : Vec F S1x2000 .f32) : Vec F S128x2000 .f32 :=
  VS1_0.read (Elt F) (VS1_0.writes (Elt F) VS1_0.junk (kernelRun1_A c i arg1 harg1 arg2 harg2 arg3 harg3 arg4 harg4 arg5 harg5 arg6 harg6 arg7 harg7 hc0 hc1 hc2 x0 x1 x2 x3).2.1)

theorem cover1_B_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i)
    (x0 : Vec F S2000x2000 .bf16) (x1 : Vec F S2000x128 .bf16) (x2 : Vec F S128x128 .f32) (x3 : Vec F S1x2000 .f32) (xs0 : Vec F S128x2000 .f32) (y : S2000x1.Idx) :
    ∃ pc ∈ (kernelRun1_B c i arg1 harg1 arg2 harg2 arg3 harg3 arg4 harg4 arg5 harg5 arg6 harg6 arg7 harg7 hc0 hc1 hc2 x0 x1 x2 x3 xs0).1, y ∈ pc.1.set :=
  View.cover_of_tiledL (kernelRun1_B c i arg1 harg1 arg2 harg2 arg3 harg3 arg4 harg4 arg5 harg5 arg6 harg6 arg7 harg7 hc0 hc1 hc2 x0 x1 x2 x3 xs0).1 S2000x1.size (by sl_kernel_rfl) y
theorem scover1_B_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i)
    (x0 : Vec F S2000x2000 .bf16) (x1 : Vec F S2000x128 .bf16) (x2 : Vec F S128x128 .f32) (x3 : Vec F S1x2000 .f32) (xs0 : Vec F S128x2000 .f32) (y : S128x2000.Idx) :
    ∃ pc ∈ (kernelRun1_B c i arg1 harg1 arg2 harg2 arg3 harg3 arg4 harg4 arg5 harg5 arg6 harg6 arg7 harg7 hc0 hc1 hc2 x0 x1 x2 x3 xs0).2.1, y ∈ pc.1.set :=
  View.cover_of_tiledL (kernelRun1_B c i arg1 harg1 arg2 harg2 arg3 harg3 arg4 harg4 arg5 harg5 arg6 harg6 arg7 harg7 hc0 hc1 hc2 x0 x1 x2 x3 xs0).2.1 S128x2000.size (by sl_kernel_rfl) y
/-- A middle point's degrees block and scratch contents, over what the point before left. -/
def out1_B_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i)
    (x0 : Vec F S2000x2000 .bf16) (x1 : Vec F S2000x128 .bf16) (x2 : Vec F S128x128 .f32) (x3 : Vec F S1x2000 .f32) (xs0 : Vec F S128x2000 .f32) : Vec F S2000x1 .f32 :=
  VO1_5.read (Elt F) (VO1_5.writes (Elt F) VO1_5.junk (kernelRun1_B c i arg1 harg1 arg2 harg2 arg3 harg3 arg4 harg4 arg5 harg5 arg6 harg6 arg7 harg7 hc0 hc1 hc2 x0 x1 x2 x3 xs0).1)
def sout1_B_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i)
    (x0 : Vec F S2000x2000 .bf16) (x1 : Vec F S2000x128 .bf16) (x2 : Vec F S128x128 .f32) (x3 : Vec F S1x2000 .f32) (xs0 : Vec F S128x2000 .f32) : Vec F S128x2000 .f32 :=
  VS1_0.read (Elt F) (VS1_0.writes (Elt F) VS1_0.junk (kernelRun1_B c i arg1 harg1 arg2 harg2 arg3 harg3 arg4 harg4 arg5 harg5 arg6 harg6 arg7 harg7 hc0 hc1 hc2 x0 x1 x2 x3 xs0).2.1)

theorem cover1_C_4 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) (y : S2000x128.Idx) :
    ∃ pc ∈ (kernelRun1_C c i arg1 harg1 arg2 harg2 arg3 harg3 arg4 harg4 arg5 harg5 arg6 harg6 arg7 harg7 hc0 hc1 hc2 x0 x1 x2 x3 xs0).1, y ∈ pc.1.set :=
  View.cover_of_tiledL (kernelRun1_C c i arg1 harg1 arg2 harg2 arg3 harg3 arg4 harg4 arg5 harg5 arg6 harg6 arg7 harg7 hc0 hc1 hc2 x0 x1 x2 x3 xs0).1 S2000x128.size (by sl_kernel_rfl) y
theorem cover1_C_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) (y : S2000x1.Idx) :
    ∃ pc ∈ (kernelRun1_C c i arg1 harg1 arg2 harg2 arg3 harg3 arg4 harg4 arg5 harg5 arg6 harg6 arg7 harg7 hc0 hc1 hc2 x0 x1 x2 x3 xs0).2.1, y ∈ pc.1.set :=
  View.cover_of_tiledL (kernelRun1_C c i arg1 harg1 arg2 harg2 arg3 harg3 arg4 harg4 arg5 harg5 arg6 harg6 arg7 harg7 hc0 hc1 hc2 x0 x1 x2 x3 xs0).2.1 S2000x1.size (by sl_kernel_rfl) y
theorem scover1_C_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) (y : S128x2000.Idx) :
    ∃ pc ∈ (kernelRun1_C c i arg1 harg1 arg2 harg2 arg3 harg3 arg4 harg4 arg5 harg5 arg6 harg6 arg7 harg7 hc0 hc1 hc2 x0 x1 x2 x3 xs0).2.2.1, y ∈ pc.1.set :=
  View.cover_of_tiledL (kernelRun1_C c i arg1 harg1 arg2 harg2 arg3 harg3 arg4 harg4 arg5 harg5 arg6 harg6 arg7 harg7 hc0 hc1 hc2 x0 x1 x2 x3 xs0).2.2.1 S128x2000.size (by sl_kernel_rfl) y
/-- The last point's outputs and scratch contents, over what the point before left. -/
def out1_C_4 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) : Vec F S2000x128 .bf16 :=
  VO1_4.read (Elt F) (VO1_4.writes (Elt F) VO1_4.junk (kernelRun1_C c i arg1 harg1 arg2 harg2 arg3 harg3 arg4 harg4 arg5 harg5 arg6 harg6 arg7 harg7 hc0 hc1 hc2 x0 x1 x2 x3 xs0).1)
def out1_C_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) : Vec F S2000x1 .f32 :=
  VO1_5.read (Elt F) (VO1_5.writes (Elt F) VO1_5.junk (kernelRun1_C c i arg1 harg1 arg2 harg2 arg3 harg3 arg4 harg4 arg5 harg5 arg6 harg6 arg7 harg7 hc0 hc1 hc2 x0 x1 x2 x3 xs0).2.1)
def sout1_C_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) : Vec F S128x2000 .f32 :=
  VS1_0.read (Elt F) (VS1_0.writes (Elt F) VS1_0.junk (kernelRun1_C c i arg1 harg1 arg2 harg2 arg3 harg3 arg4 harg4 arg5 harg5 arg6 harg6 arg7 harg7 hc0 hc1 hc2 x0 x1 x2 x3 xs0).2.2.1)

/-! ## What the buffers hold after each point -/

/-- After the body at position n: (output 4's buffer, output 5's buffer, the scratch). -/
def outsAt1 (c : Dev nD) : (n : ℕ) → n < cfg1.N → Vec F S2000x128 .bf16 × Vec F S2000x1 .f32 × Vec F S128x2000 .f32
  | 0, hn =>
    (outIdle1_4,
     out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr rfl) (fun h => (hcond1_1 ⟨0, hn⟩).mp h rfl) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr rfl) (fun h => (hcond1_1 ⟨0, hn⟩).mp h rfl) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h2 : n + 1 = 4 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => Nat.succ_ne_zero n ((hcond1_0 ⟨n + 1, hn⟩).mp h)) ((hcond1_1 ⟨n + 1, hn⟩).mpr (Nat.succ_ne_zero n)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => Nat.succ_ne_zero n ((hcond1_0 ⟨n + 1, hn⟩).mp h)) ((hcond1_1 ⟨n + 1, hn⟩).mpr (Nat.succ_ne_zero n)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => Nat.succ_ne_zero n ((hcond1_0 ⟨n + 1, hn⟩).mp h)) ((hcond1_1 ⟨n + 1, hn⟩).mpr (Nat.succ_ne_zero n)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
    else
      (outIdle1_4,
       out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => Nat.succ_ne_zero n ((hcond1_0 ⟨n + 1, hn⟩).mp h)) ((hcond1_1 ⟨n + 1, hn⟩).mpr (Nat.succ_ne_zero n)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => Nat.succ_ne_zero n ((hcond1_0 ⟨n + 1, hn⟩).mp h)) ((hcond1_1 ⟨n + 1, hn⟩).mpr (Nat.succ_ne_zero n)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

/-- At the first point. -/
theorem outsAt1_A (c : Dev nD) (t : Fin cfg1.N) (h0 : t.val = 0) (hc0 : cond1_0 (grid1.coords t)) (hc1 : ¬cond1_1 (grid1.coords t)) (hc2 : ¬cond1_2 (grid1.coords t)) :
    outsAt1 V c t.val t.isLt = (outIdle1_4,
      out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- At a middle point. -/
theorem outsAt1_B (c : Dev nD) (t : Fin cfg1.N) (h0 : t.val ≠ 0) (h2 : t.val ≠ 4) (hc0 : ¬cond1_0 (grid1.coords t)) (hc1 : cond1_1 (grid1.coords t)) (hc2 : ¬cond1_2 (grid1.coords t)) :
    outsAt1 V c t.val t.isLt = (outIdle1_4,
      out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (outsAt1 V c (t.val - 1) (Nat.lt_of_le_of_lt (Nat.sub_le _ _) t.isLt)).2.2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact absurd rfl h0
  | succ n => exact (dif_neg h2).trans rfl

/-- At the last point. -/
theorem outsAt1_C (c : Dev nD) (t : Fin cfg1.N) (h2 : t.val = 4) (hc0 : ¬cond1_0 (grid1.coords t)) (hc1 : cond1_1 (grid1.coords t)) (hc2 : cond1_2 (grid1.coords t)) :
    outsAt1 V c t.val t.isLt = (
      out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (outsAt1 V c (t.val - 1) (Nat.lt_of_le_of_lt (Nat.sub_le _ _) t.isLt)).2.2,
      out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (outsAt1 V c (t.val - 1) (Nat.lt_of_le_of_lt (Nat.sub_le _ _) t.isLt)).2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact absurd h2 (by dsimp only; omega)
  | succ n => exact (dif_pos h2).trans rfl

/-! ## The invariant between points -/

/-- The core's scoped buffers that follow this call's scratch buffer in the launch's list, each at anything. -/
abbrev restR1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The plain invariant with the scratch buffer as a memref owned at some contents: the eight scoped buffers that
    precede it in the launch's list, the scratch buffer, the ones that follow it, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ restR1 c) ∗ (∃ r, prngReg c r)) := by
  unfold Pipeline.ΦA; rw [scopedRest1_eq]; simp only [scM1_0, owns_whole]; try rfl

/-- Before position n: the plain invariant before the first point; afterwards the scratch buffer at what the point
    before left, the other scoped buffers at anything, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2) ∗ restR1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2) ∗ restR1 c) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.2) ∗ restR1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 5 t = owns (c : Thread nD τ) (ms1_5 t) fullShare ((dat1 V c).after 5 t) from by
    unfold Dat.leavesExact; rw [liveAt1_5 t], after1_5]
  have hN : t.val < 5 := lt_of_lt_of_eq t.isLt (show cfg1.N = 5 from N_1)
  by_cases h0 : t.val = 0
  · have hc0 : cond1_0 (grid1.coords t) := (hcond1_0 t).mpr h0
    have hc1 : ¬cond1_1 (grid1.coords t) := fun h => (hcond1_1 t).mp h h0
    have hc2 : ¬cond1_2 (grid1.coords t) := fun h => by have := (hcond1_2 t).mp h; omega
    rw [Dat.leavesExact_idle (dat1 V c) 4 t (idleAt1_4 t hc2) (noFlush1_4 t hc2)]
    rw [outsAt1_A V c t h0 hc0 hc1 hc2]
    unfold out1_A_5 sout1_A_0; (try dsimp only)
    rw [PhiS1_castSucc V c t, PhiS1_zero V c _ _ h0, PhiA1_eq]
    iintro ⟨⟨⟨Hl1, Hl2, Hl3, Hl4, Hl5, Hl6, Hl7, Hl8, HS0, Hrest⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ hc0 hc1 hc2 (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [Hl1 Hl2 Hl3 Hl4 Hl5 Hl6 Hl7 Hl8 HS0 Hrest Hg]
    · isplitl [Hl1 Hl2 Hl3 Hl4 Hl5 Hl6 Hl7 Hl8 HS0 Hrest]
      · isplitl [Hl1]; · iexact Hl1
        isplitl [Hl2]; · iexact Hl2
        isplitl [Hl3]; · iexact Hl3
        isplitl [Hl4]; · iexact Hl4
        isplitl [Hl5]; · iexact Hl5
        isplitl [Hl6]; · iexact Hl6
        isplitl [Hl7]; · iexact Hl7
        isplitl [Hl8]; · iexact Hl8
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    unfold owns; iexists _; isplitr
    swap; · iexact H5
    ipureintro; exact View.read_writes_of_cover _ _ _ _ _ (cover1_A_5 c _ _ _ _ _ _ _ _ _ _ _ _ _ _ _ _ _ _ _ _ _ _)
  · have hc0 : ¬cond1_0 (grid1.coords t) := fun h => h0 ((hcond1_0 t).mp h)
    have hc1 : cond1_1 (grid1.coords t) := (hcond1_1 t).mpr h0
    by_cases h2 : t.val = 4
    · have hc2 : cond1_2 (grid1.coords t) := (hcond1_2 t).mpr h2
      rw [show (dat1 V c).leavesExact 4 t = owns (c : Thread nD τ) (ms1_4 t) fullShare ((dat1 V c).after 4 t) from by
        unfold Dat.leavesExact; rw [liveAt1_4 t hc2], after1_4]
      rw [outsAt1_C V c t h2 hc0 hc1 hc2]
      unfold out1_C_4 out1_C_5 sout1_C_0; (try dsimp only)
      rw [PhiS1_castSucc V c t, PhiS1_pos V c _ _ h0]
      iintro ⟨⟨⟨Hl1, Hl2, Hl3, Hl4, Hl5, Hl6, Hl7, Hl8, HS0, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ hc0 hc1 hc2 (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [Hl1 Hl2 Hl3 Hl4 Hl5 Hl6 Hl7 Hl8 HS0 Hrest Hg]
      · isplitl [Hl1 Hl2 Hl3 Hl4 Hl5 Hl6 Hl7 Hl8 HS0 Hrest]
        · isplitl [Hl1]; · iexact Hl1
          isplitl [Hl2]; · iexact Hl2
          isplitl [Hl3]; · iexact Hl3
          isplitl [Hl4]; · iexact Hl4
          isplitl [Hl5]; · iexact Hl5
          isplitl [Hl6]; · iexact Hl6
          isplitl [Hl7]; · iexact Hl7
          isplitl [Hl8]; · iexact Hl8
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _)
    · have hc2 : ¬cond1_2 (grid1.coords t) := fun h => h2 ((hcond1_2 t).mp h)
      rw [Dat.leavesExact_idle (dat1 V c) 4 t (idleAt1_4 t hc2) (noFlush1_4 t hc2)]
      rw [outsAt1_B V c t h0 h2 hc0 hc1 hc2]
      unfold out1_B_5 sout1_B_0; (try dsimp only)
      rw [PhiS1_castSucc V c t, PhiS1_pos V c _ _ h0]
      iintro ⟨⟨⟨Hl1, Hl2, Hl3, Hl4, Hl5, Hl6, Hl7, Hl8, HS0, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ hc0 hc1 hc2 (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hl1 Hl2 Hl3 Hl4 Hl5 Hl6 Hl7 Hl8 HS0 Hrest Hg]
      · isplitl [Hl1 Hl2 Hl3 Hl4 Hl5 Hl6 Hl7 Hl8 HS0 Hrest]
        · isplitl [Hl1]; · iexact Hl1
          isplitl [Hl2]; · iexact Hl2
          isplitl [Hl3]; · iexact Hl3
          isplitl [Hl4]; · iexact Hl4
          isplitl [Hl5]; · iexact Hl5
          isplitl [Hl6]; · iexact Hl6
          isplitl [Hl7]; · iexact Hl7
          isplitl [Hl8]; · iexact Hl8
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover1_B_5 c _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : (dat1 V c).Φ 0 = Pipeline.ΦA spec1 c := rfl

/-- After the last point the invariant gives the plain one back: the scratch buffer's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 5 := N_1; omega), PhiA1_eq]
  iintro ⟨⟨Hl1, Hl2, Hl3, Hl4, Hl5, Hl6, Hl7, Hl8, HS0, Hrest⟩, Hg⟩
  isplitl [Hl1 Hl2 Hl3 Hl4 Hl5 Hl6 Hl7 Hl8 HS0 Hrest]
  · isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [HS0]; · iexists _; iexact HS0
    iexact Hrest
  iexact Hg

end Region1

end Cert.Kernel.Hand

end
-- ==== Proof.BitsRegion2.lean ====
/-
  The third pallas_call (the second layer's node aggregation) as proof data, at any entry contents V.

  At grid point t the call stages a block of 2000 rows of the incidence array, the whole [2000,128] edge array, the
  whole [128,128] weight array and the matching 2000 rows of the node-degree column, and writes back 2000 rows of the
  result. The body reads the four staged blocks whole and stores one whole block, so what it leaves in the output's
  staging buffer is one function of the four input blocks (out4), the same at every point; nothing is carried from one
  point to the next. This file states that function, runs the body against it, and packs the per-point statement as the
  pipeline's proof data and body obligation.
-/
import proofs.«114318_g79602923864256_cont_9to1_m_37_17_alg».proof.Proof.Gen.Kernel.Launch
import proofs.«114318_g79602923864256_cont_9to1_m_37_17_alg».proof.Proof.Gen.Kernel.Skeleton
import proofs.«114318_g79602923864256_cont_9to1_m_37_17_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rInc : Rect S2000x2000 := Rect.unit (s := S2000x2000) ![0, 0] S2000x2000.size inb_S2000x2000_S2000x2000_0_0
abbrev rRows : Rect S2000x128 := Rect.unit (s := S2000x128) ![0, 0] S2000x128.size inb_S2000x128_S2000x128_0_0
abbrev rW : Rect S128x128 := Rect.unit (s := S128x128) ![0, 0] S128x128.size inb_S128x128_S128x128_0_0
abbrev rCol : Rect S2000x1 := Rect.unit (s := S2000x1) ![0, 0] S2000x1.size inb_S2000x1_S2000x1_0_0

/-- What the body leaves in the output's staging buffer, from the four input blocks: its one whole store. -/
def out4 (x0 : Vec F S2000x2000 .bf16) (x1 : Vec F S2000x128 .bf16) (x2 : Vec F S128x128 .f32) (x3 : Vec F S2000x1 .f32) : Vec F S2000x128 .f32 :=
  View.canon [⟨rRows, k2_pay1 (View.ld x0 rInc) (View.ld x1 rRows) (View.ld x3 rCol) (View.ld x2 rW)⟩]

/-- The one store covers the buffer. -/
theorem cover4 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

set_option maxHeartbeats 4000000 in
/-- The body on whole staging memrefs, the inputs' at contents x0 … x3 and the output's at anything, runs to the
    continuation holding the inputs' as they were and the output's at out4 of them. -/
theorem sound_kernel2 (c : Dev nD) (E : Set ℕ) (i : grid2.Coords)
    (arg1 : Memref sig .tc .vmem S2000x2000 .bf16) (harg1 : arg1.IsWhole) (arg2 : Memref sig .tc .vmem S2000x128 .bf16) (harg2 : arg2.IsWhole)
    (arg3 : Memref sig .tc .vmem S128x128 .f32) (harg3 : arg3.IsWhole) (arg4 : Memref sig .tc .vmem S2000x1 .f32) (harg4 : arg4.IsWhole)
    (arg5 : Memref sig .tc .vmem S2000x128 .f32) (harg5 : arg5.IsWhole)
    (x0 : Vec F S2000x2000 .bf16) (x1 : Vec F S2000x128 .bf16) (x2 : Vec F S128x128 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc2__inter2_kernel i arg1 harg1 arg2 harg2 arg3 harg3 arg4 harg4 arg5 harg5) K := by
  simp only [cc2__inter2_kernel_eq_skeleton]; unfold cc2__inter2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-- The call's proof data on core c: the arrays as the call finds them; after the body at point t each input's buffer at
    its block and the output's at out4 of the input blocks; the invariant the plain one; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so sound_kernel2 applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.LibCarriedRegion.lean ====
/-
  A pallas_call whose body carries scratch contents from one grid point to the next, as a segment of a program of
  several calls.

  Between segments each core holds every unscoped buffer whole at the contents the program has reached. A call whose
  windows stage whole blocks and whose body needs nothing but those staging buffers and the core's scoped buffers (no
  semaphore of its own, no prefetched table, nothing owed) is such a segment once its proof data is given. Its invariant
  may NAME what the scratch buffers hold after each point: all the segment needs is that before the first point the
  invariant is the plain one (every scoped buffer at some contents, the generator register at some state) and that after
  the last point it ENTAILS the plain one — the names are then forgotten. Entered from the contents `V`, it is left at any
  contents `V'` that has each of the call's arrays at the fold of its write-backs and agrees with `V` elsewhere.
-/
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

noncomputable section

namespace LibCarriedRegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Val : EltTy → Type} [∀ e, Nonempty (Val e)]
variable {U : Type} [URA U] {Λ₀ : Labels} {P : Type} [Fintype P] [DecidableEq P]

local notation "𝕄" => MT nD τ sig Unit Val ℕ U ℕ

/-- What rides beside the buffers through every segment: the core's generator register at some state, and the core
    owing nothing. -/
abbrev beside (c : Dev nD) : sProp 𝕄 :=
  iprop((∃ r, prngReg c r) ∗ ∃ W, owes (c : Thread nD τ) (0 : CellTallies nD τ sig Unit) W)

variable (pcs : P → Pipeline.PCfg sig Λ₀ Val) (a : (p : P) → (pcs p).Adm)
  (pdats : (p : P) → (c : Dev nD) → Dat τ Val Unit ℕ U ℕ (Pipeline.pin pcs a p) c)
  (defs₀ : Defs nD τ sig Val Λ₀) (𝒱₀ : Variants) (L : GSem nD τ sig → Finset Unit) (lv : GSem nD τ sig → Unit → ℕ)

set_option backward.isDefEq.respectTransparency.types false in
/-- The call `p` as a segment: from every unscoped buffer at `V` to every unscoped buffer at `V'`, its invariant free to name
    the scratch contents between points. -/
def carried (p : P)
    (hw : Pipeline.WinFacts (Pipeline.pin pcs a p).spec)
    (hblock : ∀ w : Fin (pcs p).W, 0 < ((pcs p).spec w).block.numel)
    (harr : ∀ w, ((Pipeline.pin pcs a p).spec w).arr.IsWhole)
    (hstage : ∀ (w : Fin (pcs p).W) (s : Fin ((pcs p).spec w).nbuf), (((pcs p).spec w).stage s).IsWhole)
    (hpre : ∀ c : Dev nD, (Pipeline.prefHeld (pcs p).pre c (fun _ => fullShare) (a p).1 : sProp 𝕄) = BI.emp)
    (hΦ0 : ∀ c, (pdats p c).Φ 0 = Pipeline.ΦA (Pipeline.pin pcs a p).spec c)
    (hΦN : ∀ c, (pdats p c).Φ (Fin.last _) ⊢ Pipeline.ΦA (Pipeline.pin pcs a p).spec c)
    (hq : ∀ c w, (pdats p c).q w = fullShare)
    (howed : ∀ c t, (pdats p c).owed t = 0)
    (hrec : ∀ c, (pdats p c).recorded 0 = Set.univ)
    (hbody : ∀ c, BodyObligation (pdats p c) defs₀ 𝒱₀ () Set.univ)
    (V V' : Dev nD → Valuation τ sig Val)
    (hA : ∀ c w, (pdats p c).A w = V c (Pipeline.arrRef (Pipeline.pin pcs a p).spec w))
    (hF : ∀ c w, (pdats p c).arrAt w (Pipeline.pin pcs a p).N = V' c (Pipeline.arrRef (Pipeline.pin pcs a p).spec w))
    (hrest : ∀ c (b : Ref sig .tc), b ∉ Finset.univ.image (Pipeline.arrRef (Pipeline.pin pcs a p).spec) → V' c b = V c b) :
    Pipeline.RegionSeg pcs a pdats () defs₀ 𝒱₀ L lv p where
  win := hw.to₀
  block_pos := hblock
  stage_whole := hstage
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ beside c)
  post c := iprop(StableHlo.held (c : Thread nD τ) (Pipeline.ucRefs τ sig) (V' c) ∗ beside c)
  X c := iprop(∃ r, prngReg c r)
  Y c := iprop(∃ r, prngReg c r)
  Z c := Pipeline.unscopedRest (Ix := Unit) (Name := ℕ) (U := U) (Lvl := ℕ) (Pipeline.pin pcs a p).spec c (fun b => V c b)
  hentry c := by
    rw [Pipeline.ownSems0_none, hpre c]
    have hsplit := Pipeline.arrays_of_unscopedBufs (p := p) pcs a pdats hw harr c ((pdats p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin
      rw [howed c 0]
      icases HO with ⟨%W, HO⟩; iexists W; isplitr; · ipureintro; exact fun _ _ => Or.inl ((hrec c).symm ▸ Set.mem_univ _)
      iexact HO
    isplitl [Hp]; · iexact Hp
    iexact Hrest
  hin c := by
    rw [hΦ0 c, hpre c]; unfold Pipeline.ΦA
    iintro ⟨Hp, -, Hr⟩
    isplitl [Hr]; · iexact Hr
    iexact Hp
  hout c := by
    rw [Pipeline.ownSems0_none]
    refine (hΦN c).trans ?_
    unfold Pipeline.ΦA
    iintro ⟨Hr, Hp⟩
    isplitl [Hp]; · iexact Hp
    isplitr; · iempintro
    iexact Hr
  hexit c := by
    have hjoin := Pipeline.unscopedBufs_of_arrays (p := p) pcs a (Ix := Unit) (Name := ℕ) (U := U) (Lvl := ℕ) hw harr c pdats
      ((pdats p c).share_full (hq c)) (fun b => V c b) (fun b => V' c b) ((pdats p c).arrAt · (Pipeline.pin pcs a p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end LibCarriedRegion

end
-- ==== Proof.LibClassARegion.lean ====
/-
  A pallas_call whose body reads and writes whole blocks, as a segment of a program of several calls.

  A program of several pallas_calls among stretches of host operations is run segment by segment; between segments each
  core holds every unscoped buffer whole at the contents the program has reached. A call whose windows stage whole
  blocks, whose body needs nothing but those staging buffers (no semaphore of its own, no prefetched table, nothing
  owed), is such a segment once its proof data is given: entered from the contents `V`, left at any contents `V'` that
  has each of the call's arrays at the fold of its write-backs and agrees with `V` elsewhere (the data recording no
  wait pairs of its own: `recorded 0` everything, the default). Beside the buffers rides
  the core's generator register at some state and the core owing nothing.

  The record is the same for every such call; this file states it once, over any program's pipeline table.
-/
import Idealize.ShloMosaic.Lib.Pipeline.FrameBody
import Idealize.ShloMosaic.Lib.Pipeline.RegionsLoop
import Idealize.ShloMosaic.Lib.Pipeline.FrameSuffix
import Idealize.ShloMosaic.Lib.Pipeline.Kit
import Idealize.ShloMosaic.Lib.Tactic

noncomputable section

namespace LibClassARegion

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : Nat} {τ : Topo} {sig : RefSig} {Val : EltTy → Type} [∀ e, Nonempty (Val e)]
variable {U : Type} [URA U] {Λ₀ : Labels} {P : Type} [Fintype P] [DecidableEq P]

local notation "𝕄" => MT nD τ sig Unit Val ℕ U ℕ

/-- What rides beside the buffers through every segment: the core's generator register at some state, and the core
    owing nothing. -/
abbrev beside (c : Dev nD) : sProp 𝕄 :=
  iprop((∃ r, prngReg c r) ∗ ∃ W, owes (c : Thread nD τ) (0 : CellTallies nD τ sig Unit) W)

variable (pcs : P → Pipeline.PCfg sig Λ₀ Val) (a : (p : P) → (pcs p).Adm)
  (pdats : (p : P) → (c : Dev nD) → Dat τ Val Unit ℕ U ℕ (Pipeline.pin pcs a p) c)
  (defs₀ : Defs nD τ sig Val Λ₀) (𝒱₀ : Variants) (L : GSem nD τ sig → Finset Unit) (lv : GSem nD τ sig → Unit → ℕ)

set_option backward.isDefEq.respectTransparency.types false in
/-- The call `p` as a segment: from every unscoped buffer at `V` to every unscoped buffer at `V'`. -/
def classA (p : P)
    (hw : Pipeline.WinFacts (Pipeline.pin pcs a p).spec)
    (hblock : ∀ w : Fin (pcs p).W, 0 < ((pcs p).spec w).block.numel)
    (harr : ∀ w, ((Pipeline.pin pcs a p).spec w).arr.IsWhole)
    (hstage : ∀ (w : Fin (pcs p).W) (s : Fin ((pcs p).spec w).nbuf), (((pcs p).spec w).stage s).IsWhole)
    (hpre : ∀ c : Dev nD, (Pipeline.prefHeld (pcs p).pre c (fun _ => fullShare) (a p).1 : sProp 𝕄) = BI.emp)
    (hΦ0 : ∀ c, (pdats p c).Φ 0 = Pipeline.ΦA (Pipeline.pin pcs a p).spec c)
    (hΦN : ∀ c, (pdats p c).Φ (Fin.last _) = Pipeline.ΦA (Pipeline.pin pcs a p).spec c)
    (hq : ∀ c w, (pdats p c).q w = fullShare)
    (howed : ∀ c t, (pdats p c).owed t = 0)
    (hrec : ∀ c, (pdats p c).recorded 0 = Set.univ)
    (hbody : ∀ c, BodyObligation (pdats p c) defs₀ 𝒱₀ () Set.univ)
    (V V' : Dev nD → Valuation τ sig Val)
    (hA : ∀ c w, (pdats p c).A w = V c (Pipeline.arrRef (Pipeline.pin pcs a p).spec w))
    (hF : ∀ c w, (pdats p c).arrAt w (Pipeline.pin pcs a p).N = V' c (Pipeline.arrRef (Pipeline.pin pcs a p).spec w))
    (hrest : ∀ c (b : Ref sig .tc), b ∉ Finset.univ.image (Pipeline.arrRef (Pipeline.pin pcs a p).spec) → V' c b = V c b) :
    Pipeline.RegionSeg pcs a pdats () defs₀ 𝒱₀ L lv p where
  win := hw.to₀
  block_pos := hblock
  stage_whole := hstage
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (V c) ∗ beside c)
  post c := iprop(StableHlo.held (c : Thread nD τ) (Pipeline.ucRefs τ sig) (V' c) ∗ beside c)
  X c := iprop(∃ r, prngReg c r)
  Y c := iprop(∃ r, prngReg c r)
  Z c := Pipeline.unscopedRest (Ix := Unit) (Name := ℕ) (U := U) (Lvl := ℕ) (Pipeline.pin pcs a p).spec c (fun b => V c b)
  hentry c := by
    rw [Pipeline.ownSems0_none, hpre c]
    have hsplit := Pipeline.arrays_of_unscopedBufs (p := p) pcs a pdats hw harr c ((pdats p c).share_full (hq c)) (fun b => V c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Pipeline.Dat.owesAt Pipeline.owesWithin
      rw [howed c 0]
      icases HO with ⟨%W, HO⟩; iexists W; isplitr; · ipureintro; exact fun _ _ => Or.inl ((hrec c).symm ▸ Set.mem_univ _)
      iexact HO
    isplitl [Hp]; · iexact Hp
    iexact Hrest
  hin c := by
    rw [hΦ0 c, hpre c]; unfold Pipeline.ΦA
    iintro ⟨Hp, -, Hr⟩
    isplitl [Hr]; · iexact Hr
    iexact Hp
  hout c := by
    rw [Pipeline.ownSems0_none, hΦN c]; unfold Pipeline.ΦA
    iintro ⟨Hr, Hp⟩
    isplitl [Hp]; · iexact Hp
    isplitr; · iempintro
    iexact Hr
  hexit c := by
    have hjoin := Pipeline.unscopedBufs_of_arrays (p := p) pcs a (Ix := Unit) (Name := ℕ) (U := U) (Lvl := ℕ) hw harr c pdats
      ((pdats p c).share_full (hq c)) (fun b => V c b) (fun b => V' c b) ((pdats p c).arrAt · (Pipeline.pin pcs a p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

end LibClassARegion

end
-- ==== Proof.BitsRun.lean ====
/-
  The whole program run: the cast of the incidence array, then the three pallas_calls, one after the other.

  Between two items each core holds every unscoped buffer whole at the contents the program has reached: the launch
  memory (W0), after the cast (W1), after each call its arrays at the fold of its write-backs and every other buffer as
  before (W2, W3, W4). Every weakly fair execution terminates, nothing faulting, and every final memory holds every
  unscoped buffer at W4; the four arguments are written by nothing, so they end as launched, and the result buffer ends
  at what the third call's write-backs leave in it.
-/
import proofs.«114318_g79602923864256_cont_9to1_m_37_17_alg».proof.Proof.Gen.Kernel.Launch
import proofs.«114318_g79602923864256_cont_9to1_m_37_17_alg».proof.Proof.Gen.Kernel.Skeleton
import proofs.«114318_g79602923864256_cont_9to1_m_37_17_alg».proof.Proof.Gen.Kernel.Points
import proofs.«114318_g79602923864256_cont_9to1_m_37_17_alg».proof.Proof.BitsRegion0
import proofs.«114318_g79602923864256_cont_9to1_m_37_17_alg».proof.Proof.BitsRegion1
import proofs.«114318_g79602923864256_cont_9to1_m_37_17_alg».proof.Proof.BitsRegion2
import proofs.«114318_g79602923864256_cont_9to1_m_37_17_alg».proof.Proof.LibCarriedRegion
import proofs.«114318_g79602923864256_cont_9to1_m_37_17_alg».proof.Proof.LibClassARegion
import Idealize.ShloMosaic.Lib.Pipeline.Regions
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the cast (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the third call. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W1_keeps (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keeps m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := W1_keeps m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 2).trans (((dat2 (V3 m ρ) c).arrAt_in 2 rfl _).trans (A_eq2 (V3 m ρ) c 2))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl

/-! ## The proof data family and the segments -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

theorem hpre_none (p : Fin 3) (c : Dev nD) :
    (Pipeline.prefHeld (pcfgs (F := F) p).pre c (fun _ => fullShare) (adm (F := F) p).1 : sProp 𝕄) = BI.emp := by
  unfold Pipeline.prefHeld; rw [show (Finset.univ : Finset (Fin 0)) = ∅ from rfl, BI.bigSep_empty]

set_option backward.isDefEq.respectTransparency.types false in
def reg0 : Pipeline.RegionSeg (pcfgs (F := F)) adm (pdats m ρ) () defs₀ 𝒱₀ L lv 0 :=
  LibCarriedRegion.carried (pcfgs (F := F)) adm (pdats m ρ) defs₀ 𝒱₀ L lv 0 launch0.win launch0.block_pos launch0.arr_whole launch0.stage_whole
    (hpre_none 0) (fun c => hin0 (V1 m ρ) c) (fun c => hout0 (V1 m ρ) c) (fun _ _ => rfl) (fun _ _ => rfl) (fun _ => rfl)
    (fun c => body_obligation0 (V1 m ρ) c) (W1 m ρ) (W2 m ρ) (fun c w => A_eq0 (V1 m ρ) c w) (hF0 m ρ) (hrest0 m ρ)

set_option backward.isDefEq.respectTransparency.types false in
def reg1 : Pipeline.RegionSeg (pcfgs (F := F)) adm (pdats m ρ) () defs₀ 𝒱₀ L lv 1 :=
  LibCarriedRegion.carried (pcfgs (F := F)) adm (pdats m ρ) defs₀ 𝒱₀ L lv 1 launch1.win launch1.block_pos launch1.arr_whole launch1.stage_whole
    (hpre_none 1) (fun c => hin1 (V2 m ρ) c) (fun c => hout1 (V2 m ρ) c) (fun _ _ => rfl) (fun _ _ => rfl) (fun _ => rfl)
    (fun c => body_obligation1 (V2 m ρ) c) (W2 m ρ) (W3 m ρ) (fun c w => A_eq1 (V2 m ρ) c w) (hF1 m ρ) (hrest1 m ρ)

set_option backward.isDefEq.respectTransparency.types false in
def reg2 : Pipeline.RegionSeg (pcfgs (F := F)) adm (pdats m ρ) () defs₀ 𝒱₀ L lv 2 :=
  LibClassARegion.classA (pcfgs (F := F)) adm (pdats m ρ) defs₀ 𝒱₀ L lv 2 launch2.win launch2.block_pos launch2.arr_whole launch2.stage_whole
    (hpre_none 2) (fun _ => rfl) (fun _ => rfl) (fun _ _ => rfl) (fun _ _ => rfl) (fun _ => rfl)
    (fun c => body_obligation2 (V3 m ρ) c) (W3 m ρ) (W4 m ρ) (fun c w => A_eq2 (V3 m ρ) c w) (hF2 m ρ) (hrest2 m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]

theorem main_run (c : Dev nD) : main (F := F) c = Pipeline.Seg.run (segs m ρ) := (main_chain c).trans (by chain_rfl)

set_option backward.isDefEq.respectTransparency.types false in
/-- The run: every weakly fair execution terminates, nothing faulting, and every final memory holds every unscoped buffer
    of every core at W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show (iprop(StableHlo.held (c : Thread nD τ) (Pipeline.ucRefs τ sig) (W4 m ρ c) ∗ ((∃ r, prngReg c r) ∗ ∃ W, owes (c : Thread nD τ) (0 : CellTallies nD τ sig Unit) W)) : sProp 𝕄)
        ⊢ iprop(Tₙ m ρ c ∗ ∃ W, owes (c.tc : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result named: the result buffer ends at what the third call's write-backs leave in it. -/
theorem run_result : θ_run defs (onTc (τ := τ) (main (F := F))) ⟨m, fun _ => 0, ρ⟩ (fun r => ∀ c : Dev nD,
      r.2.mem ((c.tc : Thread nD τ).loc main_v3) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Hand

end
-- ==== Proof.IdealRegion0Runs.lean ====
/-
  The first pallas_call (the first layer's hyperedge aggregation), its body case by case.

  The grid has five points, one per block of 2000 nodes. At every point the body forms, from the block of features and
  the block of incidence rows, the block's contribution to the [128,2000] sum of squared features per hyperedge and to
  the [1,2000] hyperedge sizes. At the first point it stores the two contributions into two scratch buffers; at every
  later point it adds them to what the scratch buffers hold; at the last point it also writes the two outputs from the
  scratch buffers: the sizes floored at one, and the sums divided by them, transposed. So there are three cases of the
  body's three conditionals (first point; a middle point; the last point), decided here over the grid in closed form,
  and the body is run once per case on any staging memrefs: what each buffer ends with is found by the run itself.
-/
import proofs.«114318_g79602923864256_cont_9to1_m_37_17_alg».proof.Proof.Gen.KernelIdeal.Launch
import proofs.«114318_g79602923864256_cont_9to1_m_37_17_alg».proof.Proof.Gen.KernelIdeal.Skeleton
import proofs.«114318_g79602923864256_cont_9to1_m_37_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions over the grid -/

/-- "This is the first point" (the first conditional's scalar chain). -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is a later point" (the second conditional's scalar chain). -/
abbrev cond0_1 (i : grid0.Coords) : Prop := (Scalar.cmpi .ne (Scalar.extui (Scalar.cmpi .sgt (BitVec.ofNat 32 (i 0).val) 0#32)) 0#32) = 1#1
theorem hcond0_1 : ∀ t : Fin cfg0.N, cond0_1 (grid0.coords t) ↔ t.val ≠ 0 :=
  (by decide +kernel : ∀ t : Fin grid0.N, cond0_1 (grid0.coords t) ↔ t.val ≠ 0)
/-- "This is the last point" (the third conditional). -/
abbrev cond0_2 (i : grid0.Coords) : Prop := k0_cond3 i = 1#1
theorem hcond0_2 : ∀ t : Fin cfg0.N, cond0_2 (grid0.coords t) ↔ t.val = 4 :=
  (by decide +kernel : ∀ t : Fin grid0.N, cond0_2 (grid0.coords t) ↔ t.val = 4)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the two outputs are idle and not written back. -/
theorem idleAt0_2 : ∀ t : Fin cfg0.N, ¬cond0_2 (grid0.coords t) → cfg0.idle 2 (grid0.coords t) = true := by decide +kernel
theorem noFlush0_2 : ∀ t : Fin cfg0.N, ¬cond0_2 (grid0.coords t) → (cfg0.win 2).flush t = false := by decide +kernel
theorem idleAt0_3 : ∀ t : Fin cfg0.N, ¬cond0_2 (grid0.coords t) → cfg0.idle 3 (grid0.coords t) = true := by decide +kernel
theorem noFlush0_3 : ∀ t : Fin cfg0.N, ¬cond0_2 (grid0.coords t) → (cfg0.win 3).flush t = false := by decide +kernel
/-- At the last point they are live. -/
theorem liveAt0_2 : ∀ t : Fin cfg0.N, cond0_2 (grid0.coords t) → cfg0.idle 2 (grid0.coords t) = false := by decide +kernel
theorem liveAt0_3 : ∀ t : Fin cfg0.N, cond0_2 (grid0.coords t) → cfg0.idle 3 (grid0.coords t) = false := by decide +kernel

/-! ## The memrefs the pipeline passes the body -/

abbrev VO0_2 : View sig .tc .vmem S2000x128 .bf16 := (Memref.whole cc0_stg2_0 : Memref sig .tc .vmem S2000x128 .bf16).view
abbrev VO0_3 : View sig .tc .vmem S1x2000 .f32 := (Memref.whole cc0_stg3_0 : Memref sig .tc .vmem S1x2000 .f32).view
abbrev ms0_0 (t : Fin cfg0.N) : Memref sig .tc .vmem S2000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x2000 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2000x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2000 .f32 := win0_3.stage (cfg0.slots t 3)
abbrev hs0_3 (t : Fin cfg0.N) : (ms0_3 t).IsWhole := hstage0_3 ((cfg0.slots t 3).cast nbuf0_3)
/-- The two scratch buffers, whole. -/
abbrev scM0_0 : Memref sig .tc .vmem S128x2000 .f32 := Memref.whole cc0_scratch0
abbrev scM0_1 : Memref sig .tc .vmem S1x2000 .f32 := Memref.whole cc0_scratch1
abbrev VS0_0 : View sig .tc .vmem S128x2000 .f32 := scM0_0.view
abbrev VS0_1 : View sig .tc .vmem S1x2000 .f32 := scM0_1.view

/-! ## The body, case by case -/

set_option maxHeartbeats 4000000 in
/-- The first point: the two scratch buffers, at anything, end with the stored contributions; the outputs are handed
    back untouched. -/
noncomputable def kernelRun0_A (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i)
    (x0 : Vec F S2000x128 .f32) (x1 : Vec F S2000x2000 .bf16) :
    Σ' (LS0 : List (View.Piece (Elt F) S128x2000 .f32)), { LS1 : List (View.Piece (Elt F) S1x2000 .f32) //
      ∀ (xi2 : Vec F S2000x128 .bf16) (xi3 : Vec F S1x2000 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__intra1_kernel i arg1 harg1 arg2 harg2 arg3 harg3 arg4 harg4 arg5 harg5 arg6 harg6) K } := by
  refine ⟨?_, ?_, fun xi2 xi3 E K => ?run⟩
  case run =>
    simp only [cc0__intra1_kernel_eq_skeleton]; unfold cc0__intra1_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- A middle point: the two scratch buffers, at what the point before left, end with the contributions added; the
    outputs are handed back untouched. -/
noncomputable def kernelRun0_B (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i)
    (x0 : Vec F S2000x128 .f32) (x1 : Vec F S2000x2000 .bf16) (xs0 : Vec F S128x2000 .f32) (xs1 : Vec F S1x2000 .f32) :
    Σ' (LS0 : List (View.Piece (Elt F) S128x2000 .f32)), { LS1 : List (View.Piece (Elt F) S1x2000 .f32) //
      ∀ (xi2 : Vec F S2000x128 .bf16) (xi3 : Vec F S1x2000 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__intra1_kernel i arg1 harg1 arg2 harg2 arg3 harg3 arg4 harg4 arg5 harg5 arg6 harg6) K } := by
  refine ⟨?_, ?_, fun xi2 xi3 E K => ?run⟩
  case run =>
    simp only [cc0__intra1_kernel_eq_skeleton]; unfold cc0__intra1_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hfs0; obtain rfl := harg6.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

set_option maxHeartbeats 4000000 in
/-- The last point: the scratch buffers end with the contributions added, and the two outputs, at anything, with what
    the body stores into them from the scratch buffers. -/
noncomputable def kernelRun0_C (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) :
    Σ' (L2 : List (View.Piece (Elt F) S2000x128 .bf16)) (L3 : List (View.Piece (Elt F) S1x2000 .f32)) (LS0 : List (View.Piece (Elt F) S128x2000 .f32)), { LS1 : List (View.Piece (Elt F) S1x2000 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__intra1_kernel i arg1 harg1 arg2 harg2 arg3 harg3 arg4 harg4 arg5 harg5 arg6 harg6) K } := by
  refine ⟨?_, ?_, ?_, ?_, fun E K => ?run⟩
  case run =>
    simp only [cc0__intra1_kernel_eq_skeleton]; unfold cc0__intra1_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1
    obtain rfl := harg5.eq_unread hfs0; obtain rfl := harg6.eq_unread hfs1
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Hand

end
-- ==== Proof.IdealRegion0.lean ====
/-
  The first pallas_call as proof data, at any entry contents V.

  What the two scratch buffers and the two outputs' staging buffers hold after each grid point, by recursion on the
  point (acc, the running [128,2000] sum of squared features per hyperedge, and dacc, the running [1,2000] hyperedge
  sizes: stored at the first point, added to at every later one; the outputs written at the last point from them); the
  invariant between points, which names the two scratch buffers' contents; the pipeline's proof data; and the body
  obligation at every point, by cases on the point, each case the body's run of that case.
-/
import proofs.«114318_g79602923864256_cont_9to1_m_37_17_alg».proof.Proof.Gen.KernelIdeal.Launch
import proofs.«114318_g79602923864256_cont_9to1_m_37_17_alg».proof.Proof.Gen.KernelIdeal.Skeleton
import proofs.«114318_g79602923864256_cont_9to1_m_37_17_alg».proof.Proof.Gen.KernelIdeal.Points
import proofs.«114318_g79602923864256_cont_9to1_m_37_17_alg».proof.Proof.IdealRegion0Runs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at point t, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- Away from the last point the outputs' buffers are not stored into: a placeholder nothing consults. -/
def outIdle0_2 : Vec F S2000x128 .bf16 := VO0_2.read (Elt F) (VO0_2.writes (Elt F) VO0_2.junk [])
def outIdle0_3 : Vec F S1x2000 .f32 := VO0_3.read (Elt F) (VO0_3.writes (Elt F) VO0_3.junk [])

theorem scover0_A_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i)
    (x0 : Vec F S2000x128 .f32) (x1 : Vec F S2000x2000 .bf16) (y : S128x2000.Idx) :
    ∃ pc ∈ (kernelRun0_A c i arg1 harg1 arg2 harg2 arg3 harg3 arg4 harg4 arg5 harg5 arg6 harg6 hc0 hc1 hc2 x0 x1).1, y ∈ pc.1.set :=
  View.cover_of_tiledL (kernelRun0_A c i arg1 harg1 arg2 harg2 arg3 harg3 arg4 harg4 arg5 harg5 arg6 harg6 hc0 hc1 hc2 x0 x1).1 S128x2000.size (by sl_kernel_rfl) y
theorem scover0_A_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i)
    (x0 : Vec F S2000x128 .f32) (x1 : Vec F S2000x2000 .bf16) (y : S1x2000.Idx) :
    ∃ pc ∈ (kernelRun0_A c i arg1 harg1 arg2 harg2 arg3 harg3 arg4 harg4 arg5 harg5 arg6 harg6 hc0 hc1 hc2 x0 x1).2.1, y ∈ pc.1.set :=
  View.cover_of_tiledL (kernelRun0_A c i arg1 harg1 arg2 harg2 arg3 harg3 arg4 harg4 arg5 harg5 arg6 harg6 hc0 hc1 hc2 x0 x1).2.1 S1x2000.size (by sl_kernel_rfl) y
/-- The first point's scratch contents. -/
def sout0_A_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i)
    (x0 : Vec F S2000x128 .f32) (x1 : Vec F S2000x2000 .bf16) : Vec F S128x2000 .f32 :=
  VS0_0.read (Elt F) (VS0_0.writes (Elt F) VS0_0.junk (kernelRun0_A c i arg1 harg1 arg2 harg2 arg3 harg3 arg4 harg4 arg5 harg5 arg6 harg6 hc0 hc1 hc2 x0 x1).1)
def sout0_A_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i)
    (x0 : Vec F S2000x128 .f32) (x1 : Vec F S2000x2000 .bf16) : Vec F S1x2000 .f32 :=
  VS0_1.read (Elt F) (VS0_1.writes (Elt F) VS0_1.junk (kernelRun0_A c i arg1 harg1 arg2 harg2 arg3 harg3 arg4 harg4 arg5 harg5 arg6 harg6 hc0 hc1 hc2 x0 x1).2.1)

theorem scover0_B_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i)
    (x0 : Vec F S2000x128 .f32) (x1 : Vec F S2000x2000 .bf16) (xs0 : Vec F S128x2000 .f32) (xs1 : Vec F S1x2000 .f32) (y : S128x2000.Idx) :
    ∃ pc ∈ (kernelRun0_B c i arg1 harg1 arg2 harg2 arg3 harg3 arg4 harg4 arg5 harg5 arg6 harg6 hc0 hc1 hc2 x0 x1 xs0 xs1).1, y ∈ pc.1.set :=
  View.cover_of_tiledL (kernelRun0_B c i arg1 harg1 arg2 harg2 arg3 harg3 arg4 harg4 arg5 harg5 arg6 harg6 hc0 hc1 hc2 x0 x1 xs0 xs1).1 S128x2000.size (by sl_kernel_rfl) y
theorem scover0_B_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i)
    (x0 : Vec F S2000x128 .f32) (x1 : Vec F S2000x2000 .bf16) (xs0 : Vec F S128x2000 .f32) (xs1 : Vec F S1x2000 .f32) (y : S1x2000.Idx) :
    ∃ pc ∈ (kernelRun0_B c i arg1 harg1 arg2 harg2 arg3 harg3 arg4 harg4 arg5 harg5 arg6 harg6 hc0 hc1 hc2 x0 x1 xs0 xs1).2.1, y ∈ pc.1.set :=
  View.cover_of_tiledL (kernelRun0_B c i arg1 harg1 arg2 harg2 arg3 harg3 arg4 harg4 arg5 harg5 arg6 harg6 hc0 hc1 hc2 x0 x1 xs0 xs1).2.1 S1x2000.size (by sl_kernel_rfl) y
/-- A middle point's scratch contents, over what the point before left. -/
def sout0_B_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i)
    (x0 : Vec F S2000x128 .f32) (x1 : Vec F S2000x2000 .bf16) (xs0 : Vec F S128x2000 .f32) (xs1 : Vec F S1x2000 .f32) : Vec F S128x2000 .f32 :=
  VS0_0.read (Elt F) (VS0_0.writes (Elt F) VS0_0.junk (kernelRun0_B c i arg1 harg1 arg2 harg2 arg3 harg3 arg4 harg4 arg5 harg5 arg6 harg6 hc0 hc1 hc2 x0 x1 xs0 xs1).1)
def sout0_B_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i)
    (x0 : Vec F S2000x128 .f32) (x1 : Vec F S2000x2000 .bf16) (xs0 : Vec F S128x2000 .f32) (xs1 : Vec F S1x2000 .f32) : Vec F S1x2000 .f32 :=
  VS0_1.read (Elt F) (VS0_1.writes (Elt F) VS0_1.junk (kernelRun0_B c i arg1 harg1 arg2 harg2 arg3 harg3 arg4 harg4 arg5 harg5 arg6 harg6 hc0 hc1 hc2 x0 x1 xs0 xs1).2.1)

theorem cover0_C_2 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) (y : S2000x128.Idx) :
    ∃ pc ∈ (kernelRun0_C c i arg1 harg1 arg2 harg2 arg3 harg3 arg4 harg4 arg5 harg5 arg6 harg6 hc0 hc1 hc2 x0 x1 xs0 xs1).1, y ∈ pc.1.set :=
  View.cover_of_tiledL (kernelRun0_C c i arg1 harg1 arg2 harg2 arg3 harg3 arg4 harg4 arg5 harg5 arg6 harg6 hc0 hc1 hc2 x0 x1 xs0 xs1).1 S2000x128.size (by sl_kernel_rfl) y
theorem cover0_C_3 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) (y : S1x2000.Idx) :
    ∃ pc ∈ (kernelRun0_C c i arg1 harg1 arg2 harg2 arg3 harg3 arg4 harg4 arg5 harg5 arg6 harg6 hc0 hc1 hc2 x0 x1 xs0 xs1).2.1, y ∈ pc.1.set :=
  View.cover_of_tiledL (kernelRun0_C c i arg1 harg1 arg2 harg2 arg3 harg3 arg4 harg4 arg5 harg5 arg6 harg6 hc0 hc1 hc2 x0 x1 xs0 xs1).2.1 S1x2000.size (by sl_kernel_rfl) y
theorem scover0_C_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) (y : S128x2000.Idx) :
    ∃ pc ∈ (kernelRun0_C c i arg1 harg1 arg2 harg2 arg3 harg3 arg4 harg4 arg5 harg5 arg6 harg6 hc0 hc1 hc2 x0 x1 xs0 xs1).2.2.1, y ∈ pc.1.set :=
  View.cover_of_tiledL (kernelRun0_C c i arg1 harg1 arg2 harg2 arg3 harg3 arg4 harg4 arg5 harg5 arg6 harg6 hc0 hc1 hc2 x0 x1 xs0 xs1).2.2.1 S128x2000.size (by sl_kernel_rfl) y
theorem scover0_C_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) (y : S1x2000.Idx) :
    ∃ pc ∈ (kernelRun0_C c i arg1 harg1 arg2 harg2 arg3 harg3 arg4 harg4 arg5 harg5 arg6 harg6 hc0 hc1 hc2 x0 x1 xs0 xs1).2.2.2.1, y ∈ pc.1.set :=
  View.cover_of_tiledL (kernelRun0_C c i arg1 harg1 arg2 harg2 arg3 harg3 arg4 harg4 arg5 harg5 arg6 harg6 hc0 hc1 hc2 x0 x1 xs0 xs1).2.2.2.1 S1x2000.size (by sl_kernel_rfl) y
/-- The last point's outputs and scratch contents, over what the point before left. -/
def out0_C_2 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) : Vec F S2000x128 .bf16 :=
  VO0_2.read (Elt F) (VO0_2.writes (Elt F) VO0_2.junk (kernelRun0_C c i arg1 harg1 arg2 harg2 arg3 harg3 arg4 harg4 arg5 harg5 arg6 harg6 hc0 hc1 hc2 x0 x1 xs0 xs1).1)
def out0_C_3 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) : Vec F S1x2000 .f32 :=
  VO0_3.read (Elt F) (VO0_3.writes (Elt F) VO0_3.junk (kernelRun0_C c i arg1 harg1 arg2 harg2 arg3 harg3 arg4 harg4 arg5 harg5 arg6 harg6 hc0 hc1 hc2 x0 x1 xs0 xs1).2.1)
def sout0_C_0 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) : Vec F S128x2000 .f32 :=
  VS0_0.read (Elt F) (VS0_0.writes (Elt F) VS0_0.junk (kernelRun0_C c i arg1 harg1 arg2 harg2 arg3 harg3 arg4 harg4 arg5 harg5 arg6 harg6 hc0 hc1 hc2 x0 x1 xs0 xs1).2.2.1)
def sout0_C_1 (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i)
    (x0 : Vec F S2000x128 .f32) (x1 : Vec F S2000x2000 .bf16) (xs0 : Vec F S128x2000 .f32) (xs1 : Vec F S1x2000 .f32) : Vec F S1x2000 .f32 :=
  VS0_1.read (Elt F) (VS0_1.writes (Elt F) VS0_1.junk (kernelRun0_C c i arg1 harg1 arg2 harg2 arg3 harg3 arg4 harg4 arg5 harg5 arg6 harg6 hc0 hc1 hc2 x0 x1 xs0 xs1).2.2.2.1)

/-! ## What the buffers hold after each point -/

/-- After the body at position n: (output 2's buffer, output 3's buffer, scratch acc, scratch dacc). -/
def outsAt0 (c : Dev nD) : (n : ℕ) → n < cfg0.N → Vec F S2000x128 .bf16 × Vec F S1x2000 .f32 × Vec F S128x2000 .f32 × Vec F S1x2000 .f32
  | 0, hn =>
    (outIdle0_2, outIdle0_3,
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => (hcond0_1 ⟨0, hn⟩).mp h rfl) (fun h => (fun h => by (try dsimp only at h); omega) ((hcond0_2 ⟨0, hn⟩).mp h)) (iblk0 V c 0 ⟨0, hn⟩) (iblk0 V c 1 ⟨0, hn⟩),
     sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr rfl) (fun h => (hcond0_1 ⟨0, hn⟩).mp h rfl) (fun h => (fun h => by (try dsimp only at h); omega) ((hcond0_2 ⟨0, hn⟩).mp h)) (iblk0 V c 0 ⟨0, hn⟩) (iblk0 V c 1 ⟨0, hn⟩))
  | n + 1, hn =>
    if h2 : n + 1 = 4 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (outsAt0 c n (Nat.lt_of_succ_lt hn)).2.2.1 (outsAt0 c n (Nat.lt_of_succ_lt hn)).2.2.2,
       out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) ((hcond0_2 ⟨n + 1, hn⟩).mpr h2) (iblk0 V c 0 ⟨n + 1, hn⟩) (iblk0 V c 1 ⟨n + 1, hn⟩) (outsAt0 c n (Nat.lt_of_succ_lt hn)).2.2.1 (outsAt0 c n (Nat.lt_of_succ_lt hn)).2.2.2)
    else
      (outIdle0_2, outIdle0_3,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) (fun h => h2 ((hcond0_2 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => Nat.succ_ne_zero n ((hcond0_0 ⟨n + 1, hn⟩).mp h)) ((hcond0_1 ⟨n + 1, hn⟩).mpr (Nat.succ_ne_zero n)) (fun h => h2 ((hcond0_2 ⟨n + 1, hn⟩).mp h)) (iblk0 V c 0 ⟨n + 1, hn⟩) (iblk0 V c 1 ⟨n + 1, hn⟩) (outsAt0 c n (Nat.lt_of_succ_lt hn)).2.2.1 (outsAt0 c n (Nat.lt_of_succ_lt hn)).2.2.2)

/-- At the first point. -/
theorem outsAt0_A (c : Dev nD) (t : Fin cfg0.N) (h0 : t.val = 0) (hc0 : cond0_0 (grid0.coords t)) (hc1 : ¬cond0_1 (grid0.coords t)) (hc2 : ¬cond0_2 (grid0.coords t)) :
    outsAt0 V c t.val t.isLt = (outIdle0_2, outIdle0_3,
      sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t),
      sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t)) := by
  obtain ⟨n, hn⟩ := t
  cases n with
  | zero => exact rfl
  | succ n => exact absurd h0 (Nat.succ_ne_zero n)

/-- At a middle point. -/
theorem outsAt0_B (c : Dev nD) (t : Fin cfg0.N) (h0 : t.val ≠ 0) (h2 : t.val ≠ 4) (hc0 : ¬cond0_0 (grid0.coords t)) (hc1 : cond0_1 (grid0.coords t)) (hc2 : ¬cond0_2 (grid0.coords t)) :
    outsAt0 V c t.val t.isLt = (outIdle0_2, outIdle0_3,
      sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h2).trans rfl

/-- At the last point. -/
theorem outsAt0_C (c : Dev nD) (t : Fin cfg0.N) (h2 : t.val = 4) (hc0 : ¬cond0_0 (grid0.coords t)) (hc1 : cond0_1 (grid0.coords t)) (hc2 : cond0_2 (grid0.coords t)) :
    outsAt0 V c t.val t.isLt = (
      out0_C_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
      out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2,
      sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) hc0 hc1 hc2 (iblk0 V c 0 t) (iblk0 V c 1 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd h2 (by dsimp only; omega)
  | succ n => exact (dif_pos h2).trans rfl

/-! ## The invariant between points -/

/-- The core's scoped buffers other than this call's staging buffers and its two scratch buffers, each at anything. -/
abbrev rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The plain invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA; rw [scopedRest0_eq]; simp only [scM0_0, scM0_1, owns_whole]; try rfl

/-- Before position n: the plain invariant before the first point; afterwards the two scratch buffers at what the point
    before left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ rest0 c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 5 := lt_of_lt_of_eq t.isLt (show cfg0.N = 5 from N_0)
  by_cases h0 : t.val = 0
  · have hc0 : cond0_0 (grid0.coords t) := (hcond0_0 t).mpr h0
    have hc1 : ¬cond0_1 (grid0.coords t) := fun h => (hcond0_1 t).mp h h0
    have hc2 : ¬cond0_2 (grid0.coords t) := fun h => by have := (hcond0_2 t).mp h; omega
    rw [Dat.leavesExact_idle (dat0 V c) 2 t (idleAt0_2 t hc2) (noFlush0_2 t hc2)]
    rw [Dat.leavesExact_idle (dat0 V c) 3 t (idleAt0_3 t hc2) (noFlush0_3 t hc2)]
    rw [outsAt0_A V c t h0 hc0 hc1 hc2]
    unfold sout0_A_0 sout0_A_1; (try dsimp only)
    rw [PhiS_castSucc V c t, PhiS_zero V c _ _ h0, PhiA0_eq]
    iintro ⟨⟨⟨HS0, HS1, Hrest⟩, Hg⟩, Ho, ⟨%d0, H0⟩, ⟨%d1, H1⟩, ⟨%d2, H2⟩, ⟨%d3, H3⟩⟩
    iapply ((kernelRun0_A c (grid0.coords t) _ _ _ _ _ _ _ _ _ _ _ _ hc0 hc1 hc2 (iblk0 V c 0 t) (iblk0 V c 1 t)).2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 c _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _)
        iexact Hrest
      iexact Hg
    isplitl [Ho]; · iexact Ho
    isplitl [H0]; · iexact H0
    isplitl [H1]; · iexact H1
    isplitl [H2]; · iexists _; iexact H2
    iexists _; iexact H3
  · have hc0 : ¬cond0_0 (grid0.coords t) := fun h => h0 ((hcond0_0 t).mp h)
    have hc1 : cond0_1 (grid0.coords t) := (hcond0_1 t).mpr h0
    by_cases h2 : t.val = 4
    · have hc2 : cond0_2 (grid0.coords t) := (hcond0_2 t).mpr h2
      rw [show (dat0 V c).leavesExact 2 t = owns (c : Thread nD τ) (ms0_2 t) fullShare ((dat0 V c).after 2 t) from by
        unfold Dat.leavesExact; rw [liveAt0_2 t hc2], after0_2]
      rw [show (dat0 V c).leavesExact 3 t = owns (c : Thread nD τ) (ms0_3 t) fullShare ((dat0 V c).after 3 t) from by
        unfold Dat.leavesExact; rw [liveAt0_3 t hc2], after0_3]
      rw [outsAt0_C V c t h2 hc0 hc1 hc2]
      unfold out0_C_2 out0_C_3 sout0_C_0 sout0_C_1; (try dsimp only)
      rw [PhiS_castSucc V c t, PhiS_pos V c _ _ h0]
      iintro ⟨⟨⟨HS0, HS1, Hrest⟩, Hg⟩, Ho, ⟨%d0, H0⟩, ⟨%d1, H1⟩, ⟨%d2, H2⟩, ⟨%d3, H3⟩⟩
      iapply ((kernelRun0_C c (grid0.coords t) _ _ _ _ _ _ _ _ _ _ _ _ hc0 hc1 hc2 (iblk0 V c 0 t) (iblk0 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _)
          iexact Hrest
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _ _ _ _ _)
    · have hc2 : ¬cond0_2 (grid0.coords t) := fun h => h2 ((hcond0_2 t).mp h)
      rw [Dat.leavesExact_idle (dat0 V c) 2 t (idleAt0_2 t hc2) (noFlush0_2 t hc2)]
      rw [Dat.leavesExact_idle (dat0 V c) 3 t (idleAt0_3 t hc2) (noFlush0_3 t hc2)]
      rw [outsAt0_B V c t h0 h2 hc0 hc1 hc2]
      unfold sout0_B_0 sout0_B_1; (try dsimp only)
      rw [PhiS_castSucc V c t, PhiS_pos V c _ _ h0]
      iintro ⟨⟨⟨HS0, HS1, Hrest⟩, Hg⟩, Ho, ⟨%d0, H0⟩, ⟨%d1, H1⟩, ⟨%d2, H2⟩, ⟨%d3, H3⟩⟩
      iapply ((kernelRun0_B c (grid0.coords t) _ _ _ _ _ _ _ _ _ _ _ _ hc0 hc1 hc2 (iblk0 V c 0 t) (iblk0 V c 1 t) _ _).2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexists _; iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the launch hands the call is the invariant before the first point. -/
theorem hin0 (c : Dev nD) : (dat0 V c).Φ 0 = Pipeline.ΦA spec0 c := rfl

/-- After the last point the invariant gives the plain one back: the scratch buffers' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 5 := N_0; omega), PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Region0

end Cert.KernelIdeal.Hand

end
-- ==== Proof.IdealRegion1Runs.lean ====
/-
  The second pallas_call (the first layer's node aggregation fused with the second layer's hyperedge aggregation), its
  body case by case.

  The grid has five points, one per block of 2000 nodes. At every point the body forms, from the block of incidence
  rows, the block's node degrees floored at one, which it stores into the second output's block; and, from the
  incidence block, the first layer's hyperedge means and the weights, the block's contribution to the [128,2000] sum of
  the second layer's squared features per hyperedge. At the first point it stores the contribution into a scratch
  buffer; at every later point it adds it to what the scratch buffer holds; at the last point it also writes the first
  output from the scratch buffer: the sums divided by the hyperedge sizes, transposed. So there are three cases of the
  body's three conditionals (first point; a middle point; the last point), decided here over the grid in closed form,
  and the body is run once per case on any staging memrefs: what each buffer ends with is found by the run itself.
-/
import proofs.«114318_g79602923864256_cont_9to1_m_37_17_alg».proof.Proof.Gen.KernelIdeal.Launch
import proofs.«114318_g79602923864256_cont_9to1_m_37_17_alg».proof.Proof.Gen.KernelIdeal.Skeleton
import proofs.«114318_g79602923864256_cont_9to1_m_37_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions over the grid -/

/-- "This is the first point" (the first conditional's scalar chain). -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)
/-- "This is a later point" (the second conditional's scalar chain). -/
abbrev cond1_1 (i : grid1.Coords) : Prop := (Scalar.cmpi .ne (Scalar.extui (Scalar.cmpi .sgt (BitVec.ofNat 32 (i 0).val) 0#32)) 0#32) = 1#1
theorem hcond1_1 : ∀ t : Fin cfg1.N, cond1_1 (grid1.coords t) ↔ t.val ≠ 0 :=
  (by decide +kernel : ∀ t : Fin grid1.N, cond1_1 (grid1.coords t) ↔ t.val ≠ 0)
/-- "This is the last point" (the third conditional). -/
abbrev cond1_2 (i : grid1.Coords) : Prop := k1_cond3 i = 1#1
theorem hcond1_2 : ∀ t : Fin cfg1.N, cond1_2 (grid1.coords t) ↔ t.val = 4 :=
  (by decide +kernel : ∀ t : Fin grid1.N, cond1_2 (grid1.coords t) ↔ t.val = 4)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the first output is idle and not written back. -/
theorem idleAt1_4 : ∀ t : Fin cfg1.N, ¬cond1_2 (grid1.coords t) → cfg1.idle 4 (grid1.coords t) = true := by decide +kernel
theorem noFlush1_4 : ∀ t : Fin cfg1.N, ¬cond1_2 (grid1.coords t) → (cfg1.win 4).flush t = false := by decide +kernel
/-- At the last point it is live. -/
theorem liveAt1_4 : ∀ t : Fin cfg1.N, cond1_2 (grid1.coords t) → cfg1.idle 4 (grid1.coords t) = false := by decide +kernel
/-- The second output is live at every point. -/
theorem liveAt1_5 : ∀ t : Fin cfg1.N, cfg1.idle 5 (grid1.coords t) = false := by decide +kernel

/-! ## The memrefs the pipeline passes the body -/

abbrev VO1_4 : View sig .tc .vmem S2000x128 .bf16 := (Memref.whole cc1_stg4_0 : Memref sig .tc .vmem S2000x128 .bf16).view
abbrev VO1_5 : View sig .tc .vmem S2000x1 .f32 := (Memref.whole cc1_stg5_0 : Memref sig .tc .vmem S2000x1 .f32).view
abbrev ms1_0 (t : Fin cfg1.N) : Memref sig .tc .vmem S2000x2000 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2000 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x1 .f32 := win1_5.stage (cfg1.slots t 5)
abbrev hs1_5 (t : Fin cfg1.N) : (ms1_5 t).IsWhole := hstage1_5 ((cfg1.slots t 5).cast nbuf1_5)
/-- The scratch buffer, whole. -/
abbrev scM1_0 : Memref sig .tc .vmem S128x2000 .f32 := Memref.whole cc1_scratch0
abbrev VS1_0 : View sig .tc .vmem S128x2000 .f32 := scM1_0.view

/-! ## The body, case by case -/

set_option maxHeartbeats 4000000 in
/-- The first point: the second output's buffer, at anything, ends with the stored degrees, and the scratch buffer, at
    anything, with the stored contribution; the first output is handed back untouched. -/
noncomputable def kernelRun1_A (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i)
    (x0 : Vec F S2000x2000 .bf16) (x1 : Vec F S2000x128 .bf16) (x2 : Vec F S128x128 .f32) (x3 : Vec F S1x2000 .f32) :
    Σ' (L5 : List (View.Piece (Elt F) S2000x1 .f32)), { LS0 : List (View.Piece (Elt F) S128x2000 .f32) //
      ∀ (xi4 : Vec F S2000x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg1 harg1 arg2 harg2 arg3 harg3 arg4 harg4 arg5 harg5 arg6 harg6 arg7 harg7) K } := by
  refine ⟨?_, ?_, fun xi4 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 4000000 in
/-- A middle point: the second output's buffer ends with the stored degrees, and the scratch buffer, at what the point
    before left, with the contribution added; the first output is handed back untouched. -/
noncomputable def kernelRun1_B (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i)
    (x0 : Vec F S2000x2000 .bf16) (x1 : Vec F S2000x128 .bf16) (x2 : Vec F S128x128 .f32) (x3 : Vec F S1x2000 .f32) (xs0 : Vec F S128x2000 .f32) :
    Σ' (L5 : List (View.Piece (Elt F) S2000x1 .f32)), { LS0 : List (View.Piece (Elt F) S128x2000 .f32) //
      ∀ (xi4 : Vec F S2000x128 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg1 harg1 arg2 harg2 arg3 harg3 arg4 harg4 arg5 harg5 arg6 harg6 arg7 harg7) K } := by
  refine ⟨?_, ?_, fun xi4 E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

set_option maxHeartbeats 4000000 in
/-- The last point: the second output's buffer ends with the stored degrees, the scratch buffer with the contribution
    added, and the first output's buffer, at anything, with what the body stores into it from the scratch buffer. -/
noncomputable def kernelRun1_C (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) :
    Σ' (L4 : List (View.Piece (Elt F) S2000x128 .bf16)) (L5 : List (View.Piece (Elt F) S2000x1 .f32)), { LS0 : List (View.Piece (Elt F) S128x2000 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc1__fused_kernel i arg1 harg1 arg2 harg2 arg3 harg3 arg4 harg4 arg5 harg5 arg6 harg6 arg7 harg7) K } := by
  refine ⟨?_, ?_, ?_, fun E K => ?run⟩
  case run =>
    simp only [cc1__fused_kernel_eq_skeleton]; unfold cc1__fused_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3
    obtain rfl := harg7.eq_unread hfs0
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact HS0

end Cert.KernelIdeal.Hand

end
-- ==== Proof.IdealRegion1.lean ====
/-
  The second pallas_call as proof data, at any entry contents V.

  What the scratch buffer and the two outputs' staging buffers hold after each grid point, by recursion on the point
  (the running [128,2000] sum of the second layer's squared features per hyperedge: stored at the first point, added to
  at every later one; the first output written at the last point from it; the second output's block of node degrees
  stored at every point); the invariant between points, which names the scratch buffer's contents; the pipeline's proof
  data; and the body obligation at every point, by cases on the point, each case the body's run of that case.
-/
import proofs.«114318_g79602923864256_cont_9to1_m_37_17_alg».proof.Proof.Gen.KernelIdeal.Launch
import proofs.«114318_g79602923864256_cont_9to1_m_37_17_alg».proof.Proof.Gen.KernelIdeal.Skeleton
import proofs.«114318_g79602923864256_cont_9to1_m_37_17_alg».proof.Proof.Gen.KernelIdeal.Points
import proofs.«114318_g79602923864256_cont_9to1_m_37_17_alg».proof.Proof.IdealRegion1Runs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window w's block at point t, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Away from the last point the first output's buffer is not stored into: a placeholder nothing consults. -/
def outIdle1_4 : Vec F S2000x128 .bf16 := VO1_4.read (Elt F) (VO1_4.writes (Elt F) VO1_4.junk [])

theorem cover1_A_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i)
    (x0 : Vec F S2000x2000 .bf16) (x1 : Vec F S2000x128 .bf16) (x2 : Vec F S128x128 .f32) (x3 : Vec F S1x2000 .f32) (y : S2000x1.Idx) :
    ∃ pc ∈ (kernelRun1_A c i arg1 harg1 arg2 harg2 arg3 harg3 arg4 harg4 arg5 harg5 arg6 harg6 arg7 harg7 hc0 hc1 hc2 x0 x1 x2 x3).1, y ∈ pc.1.set :=
  View.cover_of_tiledL (kernelRun1_A c i arg1 harg1 arg2 harg2 arg3 harg3 arg4 harg4 arg5 harg5 arg6 harg6 arg7 harg7 hc0 hc1 hc2 x0 x1 x2 x3).1 S2000x1.size (by sl_kernel_rfl) y
theorem scover1_A_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i)
    (x0 : Vec F S2000x2000 .bf16) (x1 : Vec F S2000x128 .bf16) (x2 : Vec F S128x128 .f32) (x3 : Vec F S1x2000 .f32) (y : S128x2000.Idx) :
    ∃ pc ∈ (kernelRun1_A c i arg1 harg1 arg2 harg2 arg3 harg3 arg4 harg4 arg5 harg5 arg6 harg6 arg7 harg7 hc0 hc1 hc2 x0 x1 x2 x3).2.1, y ∈ pc.1.set :=
  View.cover_of_tiledL (kernelRun1_A c i arg1 harg1 arg2 harg2 arg3 harg3 arg4 harg4 arg5 harg5 arg6 harg6 arg7 harg7 hc0 hc1 hc2 x0 x1 x2 x3).2.1 S128x2000.size (by sl_kernel_rfl) y
/-- The first point's degrees block and scratch contents. -/
def out1_A_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i)
    (x0 : Vec F S2000x2000 .bf16) (x1 : Vec F S2000x128 .bf16) (x2 : Vec F S128x128 .f32) (x3 : Vec F S1x2000 .f32) : Vec F S2000x1 .f32 :=
  VO1_5.read (Elt F) (VO1_5.writes (Elt F) VO1_5.junk (kernelRun1_A c i arg1 harg1 arg2 harg2 arg3 harg3 arg4 harg4 arg5 harg5 arg6 harg6 arg7 harg7 hc0 hc1 hc2 x0 x1 x2 x3).1)
def sout1_A_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i)
    (x0 : Vec F S2000x2000 .bf16) (x1 : Vec F S2000x128 .bf16) (x2 : Vec F S128x128 .f32) (x3 : Vec F S1x2000 .f32) : Vec F S128x2000 .f32 :=
  VS1_0.read (Elt F) (VS1_0.writes (Elt F) VS1_0.junk (kernelRun1_A c i arg1 harg1 arg2 harg2 arg3 harg3 arg4 harg4 arg5 harg5 arg6 harg6 arg7 harg7 hc0 hc1 hc2 x0 x1 x2 x3).2.1)

theorem cover1_B_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i)
    (x0 : Vec F S2000x2000 .bf16) (x1 : Vec F S2000x128 .bf16) (x2 : Vec F S128x128 .f32) (x3 : Vec F S1x2000 .f32) (xs0 : Vec F S128x2000 .f32) (y : S2000x1.Idx) :
    ∃ pc ∈ (kernelRun1_B c i arg1 harg1 arg2 harg2 arg3 harg3 arg4 harg4 arg5 harg5 arg6 harg6 arg7 harg7 hc0 hc1 hc2 x0 x1 x2 x3 xs0).1, y ∈ pc.1.set :=
  View.cover_of_tiledL (kernelRun1_B c i arg1 harg1 arg2 harg2 arg3 harg3 arg4 harg4 arg5 harg5 arg6 harg6 arg7 harg7 hc0 hc1 hc2 x0 x1 x2 x3 xs0).1 S2000x1.size (by sl_kernel_rfl) y
theorem scover1_B_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i)
    (x0 : Vec F S2000x2000 .bf16) (x1 : Vec F S2000x128 .bf16) (x2 : Vec F S128x128 .f32) (x3 : Vec F S1x2000 .f32) (xs0 : Vec F S128x2000 .f32) (y : S128x2000.Idx) :
    ∃ pc ∈ (kernelRun1_B c i arg1 harg1 arg2 harg2 arg3 harg3 arg4 harg4 arg5 harg5 arg6 harg6 arg7 harg7 hc0 hc1 hc2 x0 x1 x2 x3 xs0).2.1, y ∈ pc.1.set :=
  View.cover_of_tiledL (kernelRun1_B c i arg1 harg1 arg2 harg2 arg3 harg3 arg4 harg4 arg5 harg5 arg6 harg6 arg7 harg7 hc0 hc1 hc2 x0 x1 x2 x3 xs0).2.1 S128x2000.size (by sl_kernel_rfl) y
/-- A middle point's degrees block and scratch contents, over what the point before left. -/
def out1_B_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i)
    (x0 : Vec F S2000x2000 .bf16) (x1 : Vec F S2000x128 .bf16) (x2 : Vec F S128x128 .f32) (x3 : Vec F S1x2000 .f32) (xs0 : Vec F S128x2000 .f32) : Vec F S2000x1 .f32 :=
  VO1_5.read (Elt F) (VO1_5.writes (Elt F) VO1_5.junk (kernelRun1_B c i arg1 harg1 arg2 harg2 arg3 harg3 arg4 harg4 arg5 harg5 arg6 harg6 arg7 harg7 hc0 hc1 hc2 x0 x1 x2 x3 xs0).1)
def sout1_B_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i)
    (x0 : Vec F S2000x2000 .bf16) (x1 : Vec F S2000x128 .bf16) (x2 : Vec F S128x128 .f32) (x3 : Vec F S1x2000 .f32) (xs0 : Vec F S128x2000 .f32) : Vec F S128x2000 .f32 :=
  VS1_0.read (Elt F) (VS1_0.writes (Elt F) VS1_0.junk (kernelRun1_B c i arg1 harg1 arg2 harg2 arg3 harg3 arg4 harg4 arg5 harg5 arg6 harg6 arg7 harg7 hc0 hc1 hc2 x0 x1 x2 x3 xs0).2.1)

theorem cover1_C_4 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) (y : S2000x128.Idx) :
    ∃ pc ∈ (kernelRun1_C c i arg1 harg1 arg2 harg2 arg3 harg3 arg4 harg4 arg5 harg5 arg6 harg6 arg7 harg7 hc0 hc1 hc2 x0 x1 x2 x3 xs0).1, y ∈ pc.1.set :=
  View.cover_of_tiledL (kernelRun1_C c i arg1 harg1 arg2 harg2 arg3 harg3 arg4 harg4 arg5 harg5 arg6 harg6 arg7 harg7 hc0 hc1 hc2 x0 x1 x2 x3 xs0).1 S2000x128.size (by sl_kernel_rfl) y
theorem cover1_C_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) (y : S2000x1.Idx) :
    ∃ pc ∈ (kernelRun1_C c i arg1 harg1 arg2 harg2 arg3 harg3 arg4 harg4 arg5 harg5 arg6 harg6 arg7 harg7 hc0 hc1 hc2 x0 x1 x2 x3 xs0).2.1, y ∈ pc.1.set :=
  View.cover_of_tiledL (kernelRun1_C c i arg1 harg1 arg2 harg2 arg3 harg3 arg4 harg4 arg5 harg5 arg6 harg6 arg7 harg7 hc0 hc1 hc2 x0 x1 x2 x3 xs0).2.1 S2000x1.size (by sl_kernel_rfl) y
theorem scover1_C_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) (y : S128x2000.Idx) :
    ∃ pc ∈ (kernelRun1_C c i arg1 harg1 arg2 harg2 arg3 harg3 arg4 harg4 arg5 harg5 arg6 harg6 arg7 harg7 hc0 hc1 hc2 x0 x1 x2 x3 xs0).2.2.1, y ∈ pc.1.set :=
  View.cover_of_tiledL (kernelRun1_C c i arg1 harg1 arg2 harg2 arg3 harg3 arg4 harg4 arg5 harg5 arg6 harg6 arg7 harg7 hc0 hc1 hc2 x0 x1 x2 x3 xs0).2.2.1 S128x2000.size (by sl_kernel_rfl) y
/-- The last point's outputs and scratch contents, over what the point before left. -/
def out1_C_4 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) : Vec F S2000x128 .bf16 :=
  VO1_4.read (Elt F) (VO1_4.writes (Elt F) VO1_4.junk (kernelRun1_C c i arg1 harg1 arg2 harg2 arg3 harg3 arg4 harg4 arg5 harg5 arg6 harg6 arg7 harg7 hc0 hc1 hc2 x0 x1 x2 x3 xs0).1)
def out1_C_5 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) : Vec F S2000x1 .f32 :=
  VO1_5.read (Elt F) (VO1_5.writes (Elt F) VO1_5.junk (kernelRun1_C c i arg1 harg1 arg2 harg2 arg3 harg3 arg4 harg4 arg5 harg5 arg6 harg6 arg7 harg7 hc0 hc1 hc2 x0 x1 x2 x3 xs0).2.1)
def sout1_C_0 (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i)
    (x0 : Vec F S2000x2000 .bf16) (x1 : Vec F S2000x128 .bf16) (x2 : Vec F S128x128 .f32) (x3 : Vec F S1x2000 .f32) (xs0 : Vec F S128x2000 .f32) : Vec F S128x2000 .f32 :=
  VS1_0.read (Elt F) (VS1_0.writes (Elt F) VS1_0.junk (kernelRun1_C c i arg1 harg1 arg2 harg2 arg3 harg3 arg4 harg4 arg5 harg5 arg6 harg6 arg7 harg7 hc0 hc1 hc2 x0 x1 x2 x3 xs0).2.2.1)

/-! ## What the buffers hold after each point -/

/-- After the body at position n: (output 4's buffer, output 5's buffer, the scratch). -/
def outsAt1 (c : Dev nD) : (n : ℕ) → n < cfg1.N → Vec F S2000x128 .bf16 × Vec F S2000x1 .f32 × Vec F S128x2000 .f32
  | 0, hn =>
    (outIdle1_4,
     out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr rfl) (fun h => (hcond1_1 ⟨0, hn⟩).mp h rfl) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr rfl) (fun h => (hcond1_1 ⟨0, hn⟩).mp h rfl) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h2 : n + 1 = 4 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => Nat.succ_ne_zero n ((hcond1_0 ⟨n + 1, hn⟩).mp h)) ((hcond1_1 ⟨n + 1, hn⟩).mpr (Nat.succ_ne_zero n)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => Nat.succ_ne_zero n ((hcond1_0 ⟨n + 1, hn⟩).mp h)) ((hcond1_1 ⟨n + 1, hn⟩).mpr (Nat.succ_ne_zero n)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => Nat.succ_ne_zero n ((hcond1_0 ⟨n + 1, hn⟩).mp h)) ((hcond1_1 ⟨n + 1, hn⟩).mpr (Nat.succ_ne_zero n)) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)
    else
      (outIdle1_4,
       out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => Nat.succ_ne_zero n ((hcond1_0 ⟨n + 1, hn⟩).mp h)) ((hcond1_1 ⟨n + 1, hn⟩).mpr (Nat.succ_ne_zero n)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2,
       sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => Nat.succ_ne_zero n ((hcond1_0 ⟨n + 1, hn⟩).mp h)) ((hcond1_1 ⟨n + 1, hn⟩).mpr (Nat.succ_ne_zero n)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2)

/-- At the first point. -/
theorem outsAt1_A (c : Dev nD) (t : Fin cfg1.N) (h0 : t.val = 0) (hc0 : cond1_0 (grid1.coords t)) (hc1 : ¬cond1_1 (grid1.coords t)) (hc2 : ¬cond1_2 (grid1.coords t)) :
    outsAt1 V c t.val t.isLt = (outIdle1_4,
      out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t),
      sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t)) := by
  obtain ⟨n, hn⟩ := t
  cases n with
  | zero => exact rfl
  | succ n => exact absurd h0 (Nat.succ_ne_zero n)

/-- At a middle point. -/
theorem outsAt1_B (c : Dev nD) (t : Fin cfg1.N) (h0 : t.val ≠ 0) (h2 : t.val ≠ 4) (hc0 : ¬cond1_0 (grid1.coords t)) (hc1 : cond1_1 (grid1.coords t)) (hc2 : ¬cond1_2 (grid1.coords t)) :
    outsAt1 V c t.val t.isLt = (outIdle1_4,
      out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (outsAt1 V c (t.val - 1) (Nat.lt_of_le_of_lt (Nat.sub_le _ _) t.isLt)).2.2,
      sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact absurd rfl h0
  | succ n => exact (dif_neg h2).trans rfl

/-- At the last point. -/
theorem outsAt1_C (c : Dev nD) (t : Fin cfg1.N) (h2 : t.val = 4) (hc0 : ¬cond1_0 (grid1.coords t)) (hc1 : cond1_1 (grid1.coords t)) (hc2 : cond1_2 (grid1.coords t)) :
    outsAt1 V c t.val t.isLt = (
      out1_C_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (outsAt1 V c (t.val - 1) (Nat.lt_of_le_of_lt (Nat.sub_le _ _) t.isLt)).2.2,
      out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (outsAt1 V c (t.val - 1) (Nat.lt_of_le_of_lt (Nat.sub_le _ _) t.isLt)).2.2,
      sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) hc0 hc1 hc2 (iblk1 V c 0 t) (iblk1 V c 1 t) (iblk1 V c 2 t) (iblk1 V c 3 t) (outsAt1 V c (t.val - 1) (Nat.lt_of_le_of_lt (Nat.sub_le _ _) t.isLt)).2.2) := by
  obtain ⟨n, hn⟩ := t
  cases n with
  | zero => exact absurd h2 (by dsimp only; omega)
  | succ n => exact (dif_pos h2).trans rfl

/-! ## The invariant between points -/

/-- The core's scoped buffers that follow this call's scratch buffer in the launch's list, each at anything. -/
abbrev restR1 (c : Dev nD) : sProp 𝕄 :=
  iprop((∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f))

/-- The plain invariant with the scratch buffer as a memref owned at some contents: the eight scoped buffers that
    precede it in the launch's list, the scratch buffer, the ones that follow it, and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ restR1 c) ∗ (∃ r, prngReg c r)) := by
  unfold Pipeline.ΦA; rw [scopedRest1_eq]; simp only [scM1_0, owns_whole]; try rfl

/-- Before position n: the plain invariant before the first point; afterwards the scratch buffer at what the point
    before left, the other scoped buffers at anything, the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2) ∗ restR1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.2) ∗ restR1 c) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.2) ∗ restR1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 5 t = owns (c : Thread nD τ) (ms1_5 t) fullShare ((dat1 V c).after 5 t) from by
    unfold Dat.leavesExact; rw [liveAt1_5 t], after1_5]
  have hN : t.val < 5 := lt_of_lt_of_eq t.isLt (show cfg1.N = 5 from N_1)
  by_cases h0 : t.val = 0
  · have hc0 : cond1_0 (grid1.coords t) := (hcond1_0 t).mpr h0
    have hc1 : ¬cond1_1 (grid1.coords t) := fun h => (hcond1_1 t).mp h h0
    have hc2 : ¬cond1_2 (grid1.coords t) := fun h => by have := (hcond1_2 t).mp h; omega
    rw [Dat.leavesExact_idle (dat1 V c) 4 t (idleAt1_4 t hc2) (noFlush1_4 t hc2)]
    rw [outsAt1_A V c t h0 hc0 hc1 hc2]
    unfold out1_A_5 sout1_A_0; (try dsimp only)
    rw [PhiS1_castSucc V c t, PhiS1_zero V c _ _ h0, PhiA1_eq]
    iintro ⟨⟨⟨Hl1, Hl2, Hl3, Hl4, Hl5, Hl6, Hl7, Hl8, HS0, Hrest⟩, Hg⟩, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ _ _ hc0 hc1 hc2 (iblk1 V c 0 t) (iblk1 V c 1 t) (iblk1 V c 2 t) (iblk1 V c 3 t)).2.2 _ Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [Hl1 Hl2 Hl3 Hl4 Hl5 Hl6 Hl7 Hl8 HS0 Hrest Hg]
    · isplitl [Hl1 Hl2 Hl3 Hl4 Hl5 Hl6 Hl7 Hl8 HS0 Hrest]
      · isplitl [Hl1]; · iexact Hl1
        isplitl [Hl2]; · iexact Hl2
        isplitl [Hl3]; · iexact Hl3
        isplitl [Hl4]; · iexact Hl4
        isplitl [Hl5]; · iexact Hl5
        isplitl [Hl6]; · iexact Hl6
        isplitl [Hl7]; · iexact Hl7
        isplitl [Hl8]; · iexact Hl8
        isplitl [HS0]
        · unfold owns; iexists _; isplitr
          swap; · iexact HS0
          ipureintro; exact View.read_writes_of_cover _ _ _ _ _ (scover1_A_0 c _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    unfold owns; iexists _; isplitr
    swap; · iexact H5
    ipureintro; exact View.read_writes_of_cover _ _ _ _ _ (cover1_A_5 c _ _ _ _ _ _ _ _ _ _ _ _ _ _ _ _ _ _ _ _ _ _)
  · have hc0 : ¬cond1_0 (grid1.coords t) := fun h => h0 ((hcond1_0 t).mp h)
    have hc1 : cond1_1 (grid1.coords t) := (hcond1_1 t).mpr h0
    by_cases h2 : t.val = 4
    · have hc2 : cond1_2 (grid1.coords t) := (hcond1_2 t).mpr h2
      rw [show (dat1 V c).leavesExact 4 t = owns (c : Thread nD τ) (ms1_4 t) fullShare ((dat1 V c).after 4 t) from by
        unfold Dat.leavesExact; rw [liveAt1_4 t hc2], after1_4]
      rw [outsAt1_C V c t h2 hc0 hc1 hc2]
      unfold out1_C_4 out1_C_5 sout1_C_0; (try dsimp only)
      rw [PhiS1_castSucc V c t, PhiS1_pos V c _ _ h0]
      iintro ⟨⟨⟨Hl1, Hl2, Hl3, Hl4, Hl5, Hl6, Hl7, Hl8, HS0, Hrest⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ hc0 hc1 hc2 (iblk1 V c 0 t) (iblk1 V c 1 t) (iblk1 V c 2 t) (iblk1 V c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [Hl1 Hl2 Hl3 Hl4 Hl5 Hl6 Hl7 Hl8 HS0 Hrest Hg]
      · isplitl [Hl1 Hl2 Hl3 Hl4 Hl5 Hl6 Hl7 Hl8 HS0 Hrest]
        · isplitl [Hl1]; · iexact Hl1
          isplitl [Hl2]; · iexact Hl2
          isplitl [Hl3]; · iexact Hl3
          isplitl [Hl4]; · iexact Hl4
          isplitl [Hl5]; · iexact Hl5
          isplitl [Hl6]; · iexact Hl6
          isplitl [Hl7]; · iexact Hl7
          isplitl [Hl8]; · iexact Hl8
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _)
    · have hc2 : ¬cond1_2 (grid1.coords t) := fun h => h2 ((hcond1_2 t).mp h)
      rw [Dat.leavesExact_idle (dat1 V c) 4 t (idleAt1_4 t hc2) (noFlush1_4 t hc2)]
      rw [outsAt1_B V c t h0 h2 hc0 hc1 hc2]
      unfold out1_B_5 sout1_B_0; (try dsimp only)
      rw [PhiS1_castSucc V c t, PhiS1_pos V c _ _ h0]
      iintro ⟨⟨⟨Hl1, Hl2, Hl3, Hl4, Hl5, Hl6, Hl7, Hl8, HS0, Hrest⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ hc0 hc1 hc2 (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [Hl1 Hl2 Hl3 Hl4 Hl5 Hl6 Hl7 Hl8 HS0 Hrest Hg]
      · isplitl [Hl1 Hl2 Hl3 Hl4 Hl5 Hl6 Hl7 Hl8 HS0 Hrest]
        · isplitl [Hl1]; · iexact Hl1
          isplitl [Hl2]; · iexact Hl2
          isplitl [Hl3]; · iexact Hl3
          isplitl [Hl4]; · iexact Hl4
          isplitl [Hl5]; · iexact Hl5
          isplitl [Hl6]; · iexact Hl6
          isplitl [Hl7]; · iexact Hl7
          isplitl [Hl8]; · iexact Hl8
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      unfold owns; iexists _; isplitr
      swap; · iexact H5
      ipureintro; exact View.read_writes_of_cover _ _ _ _ _ (cover1_B_5 c _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : (dat1 V c).Φ 0 = Pipeline.ΦA spec1 c := rfl

/-- After the last point the invariant gives the plain one back: the scratch buffer's named contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 5 := N_1; omega), PhiA1_eq]
  iintro ⟨⟨Hl1, Hl2, Hl3, Hl4, Hl5, Hl6, Hl7, Hl8, HS0, Hrest⟩, Hg⟩
  isplitl [Hl1 Hl2 Hl3 Hl4 Hl5 Hl6 Hl7 Hl8 HS0 Hrest]
  · isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [HS0]; · iexists _; iexact HS0
    iexact Hrest
  iexact Hg

end Region1

end Cert.KernelIdeal.Hand

end
-- ==== Proof.IdealRegion2.lean ====
/-
  The third pallas_call (the second layer's node aggregation) as proof data, at any entry contents V.

  At grid point t the call stages a block of 2000 rows of the incidence array, the whole [2000,128] edge array, the
  whole [128,128] weight array and the matching 2000 rows of the node-degree column, and writes back 2000 rows of the
  result. The body reads the four staged blocks whole and stores one whole block, so what it leaves in the output's
  staging buffer is one function of the four input blocks (out4), the same at every point; nothing is carried from one
  point to the next. This file states that function, runs the body against it, and packs the per-point statement as the
  pipeline's proof data and body obligation.
-/
import proofs.«114318_g79602923864256_cont_9to1_m_37_17_alg».proof.Proof.Gen.KernelIdeal.Launch
import proofs.«114318_g79602923864256_cont_9to1_m_37_17_alg».proof.Proof.Gen.KernelIdeal.Skeleton
import proofs.«114318_g79602923864256_cont_9to1_m_37_17_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- Window w's block at point t, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rInc : Rect S2000x2000 := Rect.unit (s := S2000x2000) ![0, 0] S2000x2000.size inb_S2000x2000_S2000x2000_0_0
abbrev rRows : Rect S2000x128 := Rect.unit (s := S2000x128) ![0, 0] S2000x128.size inb_S2000x128_S2000x128_0_0
abbrev rW : Rect S128x128 := Rect.unit (s := S128x128) ![0, 0] S128x128.size inb_S128x128_S128x128_0_0
abbrev rCol : Rect S2000x1 := Rect.unit (s := S2000x1) ![0, 0] S2000x1.size inb_S2000x1_S2000x1_0_0

/-- What the body leaves in the output's staging buffer, from the four input blocks: its one whole store. -/
def out4 (x0 : Vec F S2000x2000 .bf16) (x1 : Vec F S2000x128 .bf16) (x2 : Vec F S128x128 .f32) (x3 : Vec F S2000x1 .f32) : Vec F S2000x128 .f32 :=
  View.canon [⟨rRows, k2_pay1 (View.ld x0 rInc) (View.ld x1 rRows) (View.ld x3 rCol) (View.ld x2 rW)⟩]

/-- The one store covers the buffer. -/
theorem cover4 (p0 : Vec F S2000x128 .f32) (y : S2000x128.Idx) :
    ∃ pc ∈ ([⟨rRows, p0⟩] : List (View.Piece (Elt F) S2000x128 .f32)), y ∈ pc.1.set :=
  View.cover_of_tiled [⟨rRows, p0⟩] S2000x128.size (by rfl) y

set_option maxHeartbeats 4000000 in
/-- The body on whole staging memrefs, the inputs' at contents x0 … x3 and the output's at anything, runs to the
    continuation holding the inputs' as they were and the output's at out4 of them. -/
theorem sound_kernel2 (c : Dev nD) (E : Set ℕ) (i : grid2.Coords)
    (arg1 : Memref sig .tc .vmem S2000x2000 .bf16) (harg1 : arg1.IsWhole) (arg2 : Memref sig .tc .vmem S2000x128 .bf16) (harg2 : arg2.IsWhole)
    (arg3 : Memref sig .tc .vmem S128x128 .f32) (harg3 : arg3.IsWhole) (arg4 : Memref sig .tc .vmem S2000x1 .f32) (harg4 : arg4.IsWhole)
    (arg5 : Memref sig .tc .vmem S2000x128 .f32) (harg5 : arg5.IsWhole)
    (x0 : Vec F S2000x2000 .bf16) (x1 : Vec F S2000x128 .bf16) (x2 : Vec F S128x128 .f32) (x3 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out4 x0 x1 x2 x3)) -∗ K ⟨⟩))
      ⊢ wp frame (wpE (defs₀ (F := F)) Variants.none c none) E (cc2__inter2_kernel i arg1 harg1 arg2 harg2 arg3 harg3 arg4 harg4 arg5 harg5) K := by
  simp only [cc2__inter2_kernel_eq_skeleton]; unfold cc2__inter2_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-- The call's proof data on core c: the arrays as the call finds them; after the body at point t each input's buffer at
    its block and the output's at out4 of the input blocks; the invariant the plain one; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = out4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so sound_kernel2 applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.IdealRun.lean ====
/-
  The whole program run: the cast of the incidence array, then the three pallas_calls, one after the other.

  Between two items each core holds every unscoped buffer whole at the contents the program has reached: the launch
  memory (W0), after the cast (W1), after each call its arrays at the fold of its write-backs and every other buffer as
  before (W2, W3, W4). Every weakly fair execution terminates, nothing faulting, and every final memory holds every
  unscoped buffer at W4; the four arguments are written by nothing, so they end as launched, and the result buffer ends
  at what the third call's write-backs leave in it.
-/
import proofs.«114318_g79602923864256_cont_9to1_m_37_17_alg».proof.Proof.Gen.KernelIdeal.Launch
import proofs.«114318_g79602923864256_cont_9to1_m_37_17_alg».proof.Proof.Gen.KernelIdeal.Skeleton
import proofs.«114318_g79602923864256_cont_9to1_m_37_17_alg».proof.Proof.Gen.KernelIdeal.Points
import proofs.«114318_g79602923864256_cont_9to1_m_37_17_alg».proof.Proof.IdealRegion0
import proofs.«114318_g79602923864256_cont_9to1_m_37_17_alg».proof.Proof.IdealRegion1
import proofs.«114318_g79602923864256_cont_9to1_m_37_17_alg».proof.Proof.IdealRegion2
import proofs.«114318_g79602923864256_cont_9to1_m_37_17_alg».proof.Proof.LibCarriedRegion
import proofs.«114318_g79602923864256_cont_9to1_m_37_17_alg».proof.Proof.LibClassARegion
import Idealize.ShloMosaic.Lib.Pipeline.Regions
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the cast (the first call's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the second call. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
/-- After the third call. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W1_keeps (c : Dev nD) (b : Ref sig .tc) (hb : b ≠ main_v0) : W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne hb))

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_keeps m ρ c main_arg0 (by decide)
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_keeps m ρ c main_arg1 (by decide)
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := (W3_arr m ρ c 2).trans (((dat1 (V2 m ρ) c).arrAt_in 2 rfl _).trans (A_eq1 (V2 m ρ) c 2))
    _ = W1 m ρ c (Proc.devRef .tc main_arg2) := W2_of_ne m ρ c main_arg2 (by decide)
    _ = W0 m ρ c (Proc.devRef .tc main_arg2) := W1_keeps m ρ c main_arg2 (by decide)
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := (W4_arr m ρ c 2).trans (((dat2 (V3 m ρ) c).arrAt_in 2 rfl _).trans (A_eq2 (V3 m ρ) c 2))
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_keeps m ρ c main_arg3 (by decide)
    _ = m ((c : Thread nD τ).loc main_arg3) := rfl

/-! ## The proof data family and the segments -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

theorem hpre_none (p : Fin 3) (c : Dev nD) :
    (Pipeline.prefHeld (pcfgs (F := F) p).pre c (fun _ => fullShare) (adm (F := F) p).1 : sProp 𝕄) = BI.emp := by
  unfold Pipeline.prefHeld; rw [show (Finset.univ : Finset (Fin 0)) = ∅ from rfl, BI.bigSep_empty]

set_option backward.isDefEq.respectTransparency.types false in
def reg0 : Pipeline.RegionSeg (pcfgs (F := F)) adm (pdats m ρ) () defs₀ 𝒱₀ L lv 0 :=
  LibCarriedRegion.carried (pcfgs (F := F)) adm (pdats m ρ) defs₀ 𝒱₀ L lv 0 launch0.win launch0.block_pos launch0.arr_whole launch0.stage_whole
    (hpre_none 0) (fun c => hin0 (V1 m ρ) c) (fun c => hout0 (V1 m ρ) c) (fun _ _ => rfl) (fun _ _ => rfl) (fun _ => rfl)
    (fun c => body_obligation0 (V1 m ρ) c) (W1 m ρ) (W2 m ρ) (fun c w => A_eq0 (V1 m ρ) c w) (hF0 m ρ) (hrest0 m ρ)

set_option backward.isDefEq.respectTransparency.types false in
def reg1 : Pipeline.RegionSeg (pcfgs (F := F)) adm (pdats m ρ) () defs₀ 𝒱₀ L lv 1 :=
  LibCarriedRegion.carried (pcfgs (F := F)) adm (pdats m ρ) defs₀ 𝒱₀ L lv 1 launch1.win launch1.block_pos launch1.arr_whole launch1.stage_whole
    (hpre_none 1) (fun c => hin1 (V2 m ρ) c) (fun c => hout1 (V2 m ρ) c) (fun _ _ => rfl) (fun _ _ => rfl) (fun _ => rfl)
    (fun c => body_obligation1 (V2 m ρ) c) (W2 m ρ) (W3 m ρ) (fun c w => A_eq1 (V2 m ρ) c w) (hF1 m ρ) (hrest1 m ρ)

set_option backward.isDefEq.respectTransparency.types false in
def reg2 : Pipeline.RegionSeg (pcfgs (F := F)) adm (pdats m ρ) () defs₀ 𝒱₀ L lv 2 :=
  LibClassARegion.classA (pcfgs (F := F)) adm (pdats m ρ) defs₀ 𝒱₀ L lv 2 launch2.win launch2.block_pos launch2.arr_whole launch2.stage_whole
    (hpre_none 2) (fun _ => rfl) (fun _ => rfl) (fun _ _ => rfl) (fun _ _ => rfl) (fun _ => rfl)
    (fun c => body_obligation2 (V3 m ρ) c) (W3 m ρ) (W4 m ρ) (fun c w => A_eq2 (V3 m ρ) c w) (hF2 m ρ) (hrest2 m ρ)

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]

theorem main_run (c : Dev nD) : main (F := F) c = Pipeline.Seg.run (segs m ρ) := (main_chain c).trans (by chain_rfl)

set_option backward.isDefEq.respectTransparency.types false in
/-- The run: every weakly fair execution terminates, nothing faulting, and every final memory holds every unscoped buffer
    of every core at W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c =>
      show (iprop(StableHlo.held (c : Thread nD τ) (Pipeline.ucRefs τ sig) (W4 m ρ c) ∗ ((∃ r, prngReg c r) ∗ ∃ W, owes (c : Thread nD τ) (0 : CellTallies nD τ sig Unit) W)) : sProp 𝕄)
        ⊢ iprop(Tₙ m ρ c ∗ ∃ W, owes (c.tc : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

/-- The run with the result named: the result buffer ends at what the third call's write-backs leave in it. -/
theorem run_result : θ_run defs (onTc (τ := τ) (main (F := F))) ⟨m, fun _ => 0, ρ⟩ (fun r => ∀ c : Dev nD,
      r.2.mem ((c.tc : Thread nD τ).loc main_v3) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v3 (by decide))).trans (W4_arr m ρ c 4),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Hand

end
-- ==== Proof.IdealPieces0.lean ====
/-
  The first pallas_call: what each case of its body leaves in each buffer, as the body's own arithmetic.

  The run of a case finds, for every buffer the case stores into, the list of stored pieces; each buffer here is stored
  whole, once, so what it holds afterwards is the one stored value: a payload of the blocks the case loaded (and, for
  the two scratch buffers after the first point, of what they held before; at the last point the outputs are computed
  from the scratch buffers as just updated).
-/
import proofs.«114318_g79602923864256_cont_9to1_m_37_17_alg».proof.Proof.Gen.KernelIdeal.Launch
import proofs.«114318_g79602923864256_cont_9to1_m_37_17_alg».proof.Proof.Gen.KernelIdeal.Skeleton
import proofs.«114318_g79602923864256_cont_9to1_m_37_17_alg».proof.Proof.Gen.KernelIdeal.Points
import proofs.«114318_g79602923864256_cont_9to1_m_37_17_alg».proof.Proof.IdealRegion0
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz : (![0, 0] : Fin 2 → Nat) = fun _ => 0 := funext fun a => by fin_cases a <;> rfl

theorem sout0_A_0_eq (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i) (x0 : Vec F S2000x128 .f32) (x1 : Vec F S2000x2000 .bf16) :
    sout0_A_0 c i arg1 harg1 arg2 harg2 arg3 harg3 arg4 harg4 arg5 harg5 arg6 harg6 hc0 hc1 hc2 x0 x1 = k0_pay4 x1 x0 := by
  unfold sout0_A_0
  rw [View.read_writes_eq_canon _ _ _ (scover0_A_0 c i arg1 harg1 arg2 harg2 arg3 harg3 arg4 harg4 arg5 harg5 arg6 harg6 hc0 hc1 hc2 x0 x1)]
  unfold kernelRun0_A
  dsimp only
  rw [View.canon_unit_zero hz]
  simp only [View.readCov_unit_zero (S := S1x2000) _ hz, View.readCov_unit_zero (S := S128x2000) _ hz, View.readAt_eq_ld, harg1.read_unread, harg2.read_unread, harg5.read_unread, harg6.read_unread, View.ld_unit_zero (S := S2000x2000) hz, View.ld_unit_zero (S := S2000x128) hz, View.ld_unit_zero (S := S128x2000) hz, View.ld_unit_zero (S := S1x2000) hz]

theorem sout0_A_1_eq (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : cond0_0 i) (hc1 : ¬cond0_1 i) (hc2 : ¬cond0_2 i) (x0 : Vec F S2000x128 .f32) (x1 : Vec F S2000x2000 .bf16) :
    sout0_A_1 c i arg1 harg1 arg2 harg2 arg3 harg3 arg4 harg4 arg5 harg5 arg6 harg6 hc0 hc1 hc2 x0 x1 = k0_pay5 x1 := by
  unfold sout0_A_1
  rw [View.read_writes_eq_canon _ _ _ (scover0_A_1 c i arg1 harg1 arg2 harg2 arg3 harg3 arg4 harg4 arg5 harg5 arg6 harg6 hc0 hc1 hc2 x0 x1)]
  unfold kernelRun0_A
  dsimp only
  rw [View.canon_unit_zero hz]
  simp only [View.readCov_unit_zero (S := S1x2000) _ hz, View.readCov_unit_zero (S := S128x2000) _ hz, View.readAt_eq_ld, harg1.read_unread, harg2.read_unread, harg5.read_unread, harg6.read_unread, View.ld_unit_zero (S := S2000x2000) hz, View.ld_unit_zero (S := S2000x128) hz, View.ld_unit_zero (S := S128x2000) hz, View.ld_unit_zero (S := S1x2000) hz]

theorem sout0_B_0_eq (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i) (x0 : Vec F S2000x128 .f32) (x1 : Vec F S2000x2000 .bf16) (xs0 : Vec F S128x2000 .f32) (xs1 : Vec F S1x2000 .f32) :
    sout0_B_0 c i arg1 harg1 arg2 harg2 arg3 harg3 arg4 harg4 arg5 harg5 arg6 harg6 hc0 hc1 hc2 x0 x1 xs0 xs1 = k0_pay6 x1 x0 xs0 := by
  unfold sout0_B_0
  rw [View.read_writes_eq_canon _ _ _ (scover0_B_0 c i arg1 harg1 arg2 harg2 arg3 harg3 arg4 harg4 arg5 harg5 arg6 harg6 hc0 hc1 hc2 x0 x1 xs0 xs1)]
  unfold kernelRun0_B
  dsimp only
  rw [View.canon_unit_zero hz]
  simp only [View.readCov_unit_zero (S := S1x2000) _ hz, View.readCov_unit_zero (S := S128x2000) _ hz, View.readAt_eq_ld, harg1.read_unread, harg2.read_unread, harg5.read_unread, harg6.read_unread, View.ld_unit_zero (S := S2000x2000) hz, View.ld_unit_zero (S := S2000x128) hz, View.ld_unit_zero (S := S128x2000) hz, View.ld_unit_zero (S := S1x2000) hz]

theorem sout0_B_1_eq (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : ¬cond0_2 i) (x0 : Vec F S2000x128 .f32) (x1 : Vec F S2000x2000 .bf16) (xs0 : Vec F S128x2000 .f32) (xs1 : Vec F S1x2000 .f32) :
    sout0_B_1 c i arg1 harg1 arg2 harg2 arg3 harg3 arg4 harg4 arg5 harg5 arg6 harg6 hc0 hc1 hc2 x0 x1 xs0 xs1 = k0_pay7 x1 xs1 := by
  unfold sout0_B_1
  rw [View.read_writes_eq_canon _ _ _ (scover0_B_1 c i arg1 harg1 arg2 harg2 arg3 harg3 arg4 harg4 arg5 harg5 arg6 harg6 hc0 hc1 hc2 x0 x1 xs0 xs1)]
  unfold kernelRun0_B
  dsimp only
  rw [View.canon_unit_zero hz]
  simp only [View.readCov_unit_zero (S := S1x2000) _ hz, View.readCov_unit_zero (S := S128x2000) _ hz, View.readAt_eq_ld, harg1.read_unread, harg2.read_unread, harg5.read_unread, harg6.read_unread, View.ld_unit_zero (S := S2000x2000) hz, View.ld_unit_zero (S := S2000x128) hz, View.ld_unit_zero (S := S128x2000) hz, View.ld_unit_zero (S := S1x2000) hz]

theorem sout0_C_0_eq (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i) (x0 : Vec F S2000x128 .f32) (x1 : Vec F S2000x2000 .bf16) (xs0 : Vec F S128x2000 .f32) (xs1 : Vec F S1x2000 .f32) :
    sout0_C_0 c i arg1 harg1 arg2 harg2 arg3 harg3 arg4 harg4 arg5 harg5 arg6 harg6 hc0 hc1 hc2 x0 x1 xs0 xs1 = k0_pay6 x1 x0 xs0 := by
  unfold sout0_C_0
  rw [View.read_writes_eq_canon _ _ _ (scover0_C_0 c i arg1 harg1 arg2 harg2 arg3 harg3 arg4 harg4 arg5 harg5 arg6 harg6 hc0 hc1 hc2 x0 x1 xs0 xs1)]
  unfold kernelRun0_C
  dsimp only
  sl_unfold_words
  rw [View.canon_unit_zero hz]
  simp only [View.readCov_unit_zero (S := S1x2000) _ hz, View.readCov_unit_zero (S := S128x2000) _ hz, View.readAt_eq_ld, harg1.read_unread, harg2.read_unread, harg5.read_unread, harg6.read_unread, View.ld_unit_zero (S := S2000x2000) hz, View.ld_unit_zero (S := S2000x128) hz, View.ld_unit_zero (S := S128x2000) hz, View.ld_unit_zero (S := S1x2000) hz]

theorem sout0_C_1_eq (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i) (x0 : Vec F S2000x128 .f32) (x1 : Vec F S2000x2000 .bf16) (xs0 : Vec F S128x2000 .f32) (xs1 : Vec F S1x2000 .f32) :
    sout0_C_1 c i arg1 harg1 arg2 harg2 arg3 harg3 arg4 harg4 arg5 harg5 arg6 harg6 hc0 hc1 hc2 x0 x1 xs0 xs1 = k0_pay7 x1 xs1 := by
  unfold sout0_C_1
  rw [View.read_writes_eq_canon _ _ _ (scover0_C_1 c i arg1 harg1 arg2 harg2 arg3 harg3 arg4 harg4 arg5 harg5 arg6 harg6 hc0 hc1 hc2 x0 x1 xs0 xs1)]
  unfold kernelRun0_C
  dsimp only
  sl_unfold_words
  rw [View.canon_unit_zero hz]
  simp only [View.readCov_unit_zero (S := S1x2000) _ hz, View.readCov_unit_zero (S := S128x2000) _ hz, View.readAt_eq_ld, harg1.read_unread, harg2.read_unread, harg5.read_unread, harg6.read_unread, View.ld_unit_zero (S := S2000x2000) hz, View.ld_unit_zero (S := S2000x128) hz, View.ld_unit_zero (S := S128x2000) hz, View.ld_unit_zero (S := S1x2000) hz]

theorem out0_C_3_eq (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i) (x0 : Vec F S2000x128 .f32) (x1 : Vec F S2000x2000 .bf16) (xs0 : Vec F S128x2000 .f32) (xs1 : Vec F S1x2000 .f32) :
    out0_C_3 c i arg1 harg1 arg2 harg2 arg3 harg3 arg4 harg4 arg5 harg5 arg6 harg6 hc0 hc1 hc2 x0 x1 xs0 xs1 = k0_pay8 (k0_pay7 x1 xs1) := by
  unfold out0_C_3
  rw [View.read_writes_eq_canon _ _ _ (cover0_C_3 c i arg1 harg1 arg2 harg2 arg3 harg3 arg4 harg4 arg5 harg5 arg6 harg6 hc0 hc1 hc2 x0 x1 xs0 xs1)]
  unfold kernelRun0_C
  dsimp only
  sl_unfold_words
  rw [View.canon_unit_zero hz]
  simp only [View.readCov_unit_zero (S := S1x2000) _ hz, View.readCov_unit_zero (S := S128x2000) _ hz, View.readAt_eq_ld, harg1.read_unread, harg2.read_unread, harg5.read_unread, harg6.read_unread, View.ld_unit_zero (S := S2000x2000) hz, View.ld_unit_zero (S := S2000x128) hz, View.ld_unit_zero (S := S128x2000) hz, View.ld_unit_zero (S := S1x2000) hz]

theorem out0_C_2_eq (c : Dev nD) (i : grid0.Coords) (arg1 : Memref sig .tc .vmem S2000x128 .f32) (harg1 : arg1.IsWhole) (arg2 : Memref sig .tc .vmem S2000x2000 .bf16) (harg2 : arg2.IsWhole) (arg3 : Memref sig .tc .vmem S2000x128 .bf16) (harg3 : arg3.IsWhole) (arg4 : Memref sig .tc .vmem S1x2000 .f32) (harg4 : arg4.IsWhole) (arg5 : Memref sig .tc .vmem S128x2000 .f32) (harg5 : arg5.IsWhole) (arg6 : Memref sig .tc .vmem S1x2000 .f32) (harg6 : arg6.IsWhole) (hc0 : ¬cond0_0 i) (hc1 : cond0_1 i) (hc2 : cond0_2 i) (x0 : Vec F S2000x128 .f32) (x1 : Vec F S2000x2000 .bf16) (xs0 : Vec F S128x2000 .f32) (xs1 : Vec F S1x2000 .f32) :
    out0_C_2 c i arg1 harg1 arg2 harg2 arg3 harg3 arg4 harg4 arg5 harg5 arg6 harg6 hc0 hc1 hc2 x0 x1 xs0 xs1 = k0_pay9 (k0_pay7 x1 xs1) (k0_pay6 x1 x0 xs0) := by
  unfold out0_C_2
  rw [View.read_writes_eq_canon _ _ _ (cover0_C_2 c i arg1 harg1 arg2 harg2 arg3 harg3 arg4 harg4 arg5 harg5 arg6 harg6 hc0 hc1 hc2 x0 x1 xs0 xs1)]
  unfold kernelRun0_C
  dsimp only
  sl_unfold_words
  rw [View.canon_unit_zero hz]
  simp only [View.readCov_unit_zero (S := S1x2000) _ hz, View.readCov_unit_zero (S := S128x2000) _ hz, View.readAt_eq_ld, harg1.read_unread, harg2.read_unread, harg5.read_unread, harg6.read_unread, View.ld_unit_zero (S := S2000x2000) hz, View.ld_unit_zero (S := S2000x128) hz, View.ld_unit_zero (S := S128x2000) hz, View.ld_unit_zero (S := S1x2000) hz]

end Cert.KernelIdeal.Hand

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibBlockMatmul.lean ====
/-
  GENERAL LEMMAS. One row tile of a matrix product against the whole product.

  A kernel that tiles only the rows of `X · W` computes, at grid point `t`, the product of a block of `tm` rows of `X`
  with the whole of `W`, accumulated into zero. At the exact values rounding an operand to a narrower format is the
  identity, a product into a zero accumulator is the plain contraction sum, and the host's `dot_general` is the same sum:
  so the entry `(p, q)` of the tile's product is the entry `(r, q)` of the whole product as soon as row `p` of the tile
  is row `r` of `X`. Both sums are carried to `∑ k : Fin K` by the re-indexing lemma for plain dot records; no law of the
  extended reals beyond the congruence of a sum is used, so nothing here asks for finiteness.
-/
import Idealize.ShloMosaic.PureOps.Ideal
import Idealize.ShloMosaic.PureOps.Ideal.Laws
import Idealize.ShloMosaic.PureOps.Dims
import Idealize.ShloMosaic.Lib.ValueIdx
import proofs.«114318_g79602923864256_cont_9to1_m_37_17_alg».proof.Proof.LibDotSum

noncomputable section

namespace Cert.BlockMatmul

open Idealize.ShloMosaic Idealize.ShloMosaic.ValueIdx

/-- The product of two arrays into the zero accumulator, read at `j`, as the sum over the contracted axis. -/
theorem matmul_zero_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision)
    (l : FVec Ideal (⟨2, ![M, K]⟩ : Shape) φ₁) (r : FVec Ideal (⟨2, ![K, N]⟩ : Shape) φ₂)
    (j : (⟨2, ![M, N]⟩ : Shape).Idx) :
    FloatOps.matmul d prec l r (constant (F := Ideal) (⟨2, ![M, N]⟩ : Shape) .f32 0x00000000#32) j
      = ∑ k : Fin K, (l (ix2 (j 0) k) : EReal) * (r (ix2 k (j 1)) : EReal) :=
  (Ideal.matmul_constant_zero_apply d prec l r j).trans
    (Cert.LibDotSum.sum_contr_eq_sum_fin d hrank hsize hl0 hl1 hr0 hr1 l r j)

/-- The host's `dot_general` of two arrays, read at `j`, as the sum over the contracted axis. -/
theorem dotGeneral_fin {M K N : Nat} {φ₁ φ₂ : FTy}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (prec : Option ContractPrecision) (sched : HostSchedule)
    (l : FVec Ideal (⟨2, ![M, K]⟩ : Shape) φ₁) (r : FVec Ideal (⟨2, ![K, N]⟩ : Shape) φ₂)
    (j : (⟨2, ![M, N]⟩ : Shape).Idx) :
    FloatOps.dotGeneral d prec sched l r j
      = ∑ k : Fin K, (l (ix2 (j 0) k) : EReal) * (r (ix2 k (j 1)) : EReal) :=
  (Ideal.dotGeneral_apply d prec sched l r j).trans
    (Cert.LibDotSum.sum_contr_eq_sum_fin d hrank hsize hl0 hl1 hr0 hr1 l r j)

/-- Two contraction sums over `Fin K` agree when their rows and columns do, term by term: entry `y` of a tile's product is
    entry `i` of the whole product when row `y 0` of the tile is row `i 0` of the whole left operand and column `y 1` of
    the tile's right operand is column `i 1` of the whole right operand. -/
theorem sum_rows_cols {tm M K N : Nat}
    (x0 : (⟨2, ![tm, K]⟩ : Shape).Idx → EReal) (x1 : (⟨2, ![K, N]⟩ : Shape).Idx → EReal)
    (X : (⟨2, ![M, K]⟩ : Shape).Idx → EReal) (W : (⟨2, ![K, N]⟩ : Shape).Idx → EReal)
    (y : (⟨2, ![tm, N]⟩ : Shape).Idx) (i : (⟨2, ![M, N]⟩ : Shape).Idx)
    (hx0 : ∀ k : Fin K, x0 (ix2 (y 0) k) = X (ix2 (i 0) k))
    (hx1 : ∀ k : Fin K, x1 (ix2 k (y 1)) = W (ix2 k (i 1))) :
    ∑ k : Fin K, x0 (ix2 (y 0) k) * x1 (ix2 k (y 1)) = ∑ k : Fin K, X (ix2 (i 0) k) * W (ix2 k (i 1)) :=
  Finset.sum_congr rfl fun k _ => by rw [hx0 k, hx1 k]

end Cert.BlockMatmul

end
-- ==== Proof.LibColumns.lean ====
/-
  Index facts for arrays whose long axis is the last one. A sum over the index set of an [n] array, or of a [1, n]
  array, is the sum over the n positions; a reduction over axis 0 of an [a, b] array, read at column q, runs over the
  entries (k, q); an [a, b] array summed over axis 0 at the ideal values is, at column q, the sum over k of those
  entries; and the 0-or-1 word of a comparison converts to the same real number whether it is first zero-extended
  to 32 bits and read signed, or read unsigned as it is.
-/
import Idealize.ShloMosaic.Lib.Pipeline.Value
import Idealize.ShloMosaic.Lib.ValueIdx
import Idealize.ShloMosaic.PureOps.Ideal.Laws

noncomputable section

namespace Cert.LibColumns

open Idealize.ShloMosaic Idealize.ShloMosaic.ValueIdx

/-- The index set of an [n] array is its n positions. -/
def idxEquiv1 {n : Nat} : (⟨1, ![n]⟩ : Shape).Idx ≃ Fin n where
  toFun i := i 0
  invFun q := ix1 q
  left_inv i := (eq_ix1 i).symm
  right_inv _ := rfl

/-- A sum over the index set of an [n] array is the sum over the positions. -/
theorem sum_idx1 {M : Type*} [AddCommMonoid M] {n : Nat} (f : (⟨1, ![n]⟩ : Shape).Idx → M) :
    ∑ i, f i = ∑ q : Fin n, f (ix1 q) :=
  (Equiv.sum_comp (idxEquiv1 (n := n)).symm f).symm

/-- A sum over the index set of a [1, n] array is the sum over the positions of its one row. -/
theorem sum_idx_row {M : Type*} [AddCommMonoid M] {n : Nat} (f : (⟨2, ![1, n]⟩ : Shape).Idx → M) :
    ∑ i, f i = ∑ q : Fin n, f (ix2 (0 : Fin 1) q) := by
  rw [sum_idx2, Fin.sum_univ_one]

/-- The index a reduction over axis 0 reads for column `q` and reduced coordinate `k` is `(k, q)`. -/
theorem lift_col {a b : ℕ} (h : (⟨2, ![a, b]⟩ : Shape).Reduces [0] ⟨1, ![b]⟩) (q : Fin b) (k : Fin a) :
    h.lift (ix1 q) k = ix2 k q :=
  funext fun ax => Fin.ext (by match ax with | ⟨0, _⟩ => rfl | ⟨1, _⟩ => rfl)

/-- A float sum over axis 0 of an [a, b] array, at the ideal values and onto the zero accumulator, is at column
    `q` the sum over `k` of the entries `(k, q)`. The accumulator fact is taken in the form a printed program
    carries it (the zero word equal to itself). -/
theorem sum_axis0_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = 0x00000000#32) (q : Fin b) :
    multiReduction .add [0] ⟨1, ![b]⟩ src 0x00000000#32 h hφ hacc (ix1 q) = ∑ k : Fin a, src (ix2 k q) :=
  (Ideal.multiReduction_add_single src 0x00000000#32 h hφ hacc (ix1 q)).trans
    (Finset.sum_congr rfl fun k _ => congrArg src (lift_col h q k))

/-- A one-bit word zero-extended to 32 bits and read as a signed integer is the bit read as a natural number. -/
theorem bit_signed_eq_unsigned (b : BitVec 1) : (((b.setWidth 32).toInt : ℝ) : EReal) = ((b.toNat : ℝ) : EReal) := by
  rcases BitVec.eq_zero_or_eq_one b with h | h <;> subst h <;> rfl

end Cert.LibColumns

end
-- ==== Proof.IdealPayloads0.lean ====
import proofs.«114318_g79602923864256_cont_9to1_m_37_17_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«114318_g79602923864256_cont_9to1_m_37_17_alg».proof.Proof.LibBlockMatmul
import proofs.«114318_g79602923864256_cont_9to1_m_37_17_alg».proof.Proof.LibColumns

noncomputable section

namespace Cert.KernelIdeal.Pay

open Cert.KernelIdeal Cert.KernelIdeal.Gen Idealize.ShloMosaic Idealize.ShloMosaic.ValueIdx
open scoped BigOperators

/-- The product of a [128, 2000] array with a [2000, 2000] array into the zero accumulator, at entry (d, e):
    the sum over the 2000 contracted positions. -/
theorem mm_TA (L : FVec Ideal S128x2000 .bf16) (A : FVec Ideal S2000x2000 .bf16) (d : Fin 128) (e : Fin 2000) :
    FloatOps.matmul dot_S128x2000_S2000x2000_S128x2000_1_0_0_1_n_n none L A
        (constant (F := Ideal) S128x2000 .f32 0x00000000#32) (ix2 d e)
      = ∑ r : Fin 2000, (L (ix2 d r) : EReal) * (A (ix2 r e) : EReal) :=
  Cert.BlockMatmul.matmul_zero_fin dot_S128x2000_S2000x2000_S128x2000_1_0_0_1_n_n rfl rfl
    (fun _ _ => rfl) (fun _ _ => rfl) (fun _ _ => rfl) (fun _ _ => rfl) none L A (ix2 d e)

/-- The first call's incidence block, cast to its own shape, is the block. -/
theorem pay0_1 (v0 : Vec Ideal S2000x2000 .bf16) : k0_pay1 v0 = v0 := shapeCast_self _ _

/-- The first call's product at (d, e): the squared features of the block's rows against the incidence column e. -/
theorem pay0_2 (v0 : Vec Ideal S2000x2000 .bf16) (v2 : Vec Ideal S2000x128 .f32) (d : Fin 128) (e : Fin 2000) :
    k0_pay2 v0 v2 (ix2 d e)
      = ∑ r : Fin 2000, ((v2 (ix2 r d) : EReal) * (v2 (ix2 r d) : EReal)) * (v0 (ix2 r e) : EReal) := by
  unfold k0_pay2
  rw [pay0_1]
  refine (mm_TA _ v0 d e).trans ?_
  refine Finset.sum_congr rfl fun r _ => ?_
  refine congrArg (fun x : EReal => x * (v0 (ix2 r e) : EReal)) ?_
  refine (truncf_apply _ bitsLt_bf16_f32 (ix2 d r)).trans ?_
  exact transpose_ix2_apply _ transposes_S2000x128_p1_0_S128x2000 d r

/-- The first call's column sums at (0, e): the zero word plus the sum of the incidence column e over the block's rows. -/
theorem pay0_3 (v0 : Vec Ideal S2000x2000 .bf16) (e : Fin 2000) :
    k0_pay3 v0 (ix2 (0 : Fin 1) e) = Ideal.ofBits .f32 0x00000000#32 + ∑ r : Fin 2000, (v0 (ix2 r e) : EReal) := by
  unfold k0_pay3
  rw [pay0_1, Ideal.ofBits_zero_f32, zero_add]
  refine (shapeCast_a_1a_apply _ shapeCasts_S2000_S1x2000 (0 : Fin 1) e).trans ?_
  exact Cert.LibColumns.sum_axis0_apply (extf .f32 v0 bitsLt_bf16_f32) reduces_S2000x2000_S2000 (.inl rfl) rfl e

/-- A cast to the same shape is the identity: the first store of the product … -/
theorem pay0_4 (v0 : Vec Ideal S2000x2000 .bf16) (v2 : Vec Ideal S2000x128 .f32) : k0_pay4 v0 v2 = k0_pay2 v0 v2 :=
  shapeCast_self _ _

/-- … and of the column sums. -/
theorem pay0_5 (v0 : Vec Ideal S2000x2000 .bf16) : k0_pay5 v0 = k0_pay3 v0 := shapeCast_self _ _

/-- A later grid point adds its product to the carried one … -/
theorem pay0_6 (v0 : Vec Ideal S2000x2000 .bf16) (v2 : Vec Ideal S2000x128 .f32) (v19 : Vec Ideal S128x2000 .f32)
    (j : S128x2000.Idx) : k0_pay6 v0 v2 v19 j = (v19 j : EReal) + k0_pay2 v0 v2 j := by
  unfold k0_pay6
  rw [shapeCast_self]
  rfl

/-- … and its column sums to the carried ones. -/
theorem pay0_7 (v0 : Vec Ideal S2000x2000 .bf16) (v24 : Vec Ideal S1x2000 .f32) (j : S1x2000.Idx) :
    k0_pay7 v0 v24 j = (v24 j : EReal) + k0_pay3 v0 j := by
  unfold k0_pay7
  rw [shapeCast_self]
  rfl

/-- The clamped degree at (0, e). -/
theorem pay0_8 (v19 : Vec Ideal S1x2000 .f32) (e : Fin 2000) :
    k0_pay8 v19 (ix2 (0 : Fin 1) e) = max (v19 (ix2 (0 : Fin 1) e) : EReal) (Ideal.ofBits .f32 0x3F800000#32) := rfl

/-- The normalised, transposed product at (e, d). -/
theorem pay0_9 (v19 : Vec Ideal S1x2000 .f32) (v23 : Vec Ideal S128x2000 .f32) (e : Fin 2000) (d : Fin 128) :
    k0_pay9 v19 v23 (ix2 e d) = Ideal.div (v23 (ix2 d e)) (max (v19 (ix2 (0 : Fin 1) e) : EReal) (Ideal.ofBits .f32 0x3F800000#32)) := by
  unfold k0_pay9
  refine (truncf_apply _ bitsLt_bf16_f32 (ix2 e d)).trans ?_
  refine (transpose_ix2_apply _ transposes_S128x2000_p1_0_S2000x128 e d).trans ?_
  refine congrArg (Ideal.div (v23 (ix2 d e))) ?_
  exact broadcastTo_1b_ab_apply (k0_pay8 v19) broadcasts_S1x2000_S128x2000 d e

end Cert.KernelIdeal.Pay

end
-- ==== Proof.Spec.lean ====
/-
  The two-layer hypergraph network as one function of its arguments, entry by entry, on the extended reals.

  Arguments: node features x (v, d), a node-by-hyperedge incidence inc (v, e), weights W (d, h). One layer:

      degE e      = max (Σ_v inc v e) 1                      the size of hyperedge e, floored at one
      degV v      = max (Σ_e inc v e) 1                      the degree of node v, floored at one
      msq e d     = (Σ_v (x v d · x v d) · inc v e) / degE e    the mean of the members' squared features
      inter v d   = sqrt ((Σ_e inc v e · msq e d) / degV v)     the root of the mean over the node's hyperedges
      layer v h   = max (Σ_d inter v d · W d h) 0

  (layer, "the kept-square spelling": the mean of squares msq is kept as it is between the two aggregations.)
  The other spelling takes the power 1/2 of the hyperedge mean and squares it again by the power 2, and takes
  the last root by the power 1/2 as well (rlayer, "the root-and-square spelling"):

      rintra e d  = ((Σ_v inc v e · (x v d)^2) / degE e)^(1/2)
      rinter v d  = ((Σ_e inc v e · (rintra e d)^2) / degV v)^(1/2)
      rlayer v h  = max (Σ_d rinter v d · W d h) 0

  The network is two layers over the same incidence: result = layer inc (layer inc x W1) W2, and rresult likewise.
  Everything is curried over Fin, so the file depends on no program's shapes.
-/
import Idealize.ShloMosaic.PureOps.Ideal

noncomputable section

namespace Cert.Spec

open Idealize.ShloMosaic

variable {n ne dd dh : ℕ}

/-- The size of hyperedge e, floored at one. -/
def degE (inc : Fin n → Fin ne → EReal) (e : Fin ne) : EReal := max (∑ v : Fin n, inc v e) 1
/-- The degree of node v, floored at one. -/
def degV (inc : Fin n → Fin ne → EReal) (v : Fin n) : EReal := max (∑ e : Fin ne, inc v e) 1

/-- The mean over hyperedge e of the members' squared features. -/
def msq (inc : Fin n → Fin ne → EReal) (x : Fin n → Fin dd → EReal) (e : Fin ne) (d : Fin dd) : EReal :=
  Ideal.div (∑ v : Fin n, (x v d * x v d) * inc v e) (degE inc e)
/-- The root of the mean of msq over node v's hyperedges. -/
def inter (inc : Fin n → Fin ne → EReal) (x : Fin n → Fin dd → EReal) (v : Fin n) (d : Fin dd) : EReal :=
  Ideal.sqrt (Ideal.div (∑ e : Fin ne, inc v e * msq inc x e d) (degV inc v))
/-- One layer, the kept-square spelling. -/
def layer (inc : Fin n → Fin ne → EReal) (x : Fin n → Fin dd → EReal) (W : Fin dd → Fin dh → EReal) (v : Fin n) (h : Fin dh) : EReal :=
  max (∑ d : Fin dd, inter inc x v d * W d h) 0

/-- The hyperedge's generalised mean, by the power 1/2. -/
def rintra (inc : Fin n → Fin ne → EReal) (x : Fin n → Fin dd → EReal) (e : Fin ne) (d : Fin dd) : EReal :=
  Ideal.pow (Ideal.div (∑ v : Fin n, inc v e * Ideal.pow (x v d) ((2 : ℝ) : EReal)) (degE inc e)) ((1 / 2 : ℝ) : EReal)
/-- The node's generalised mean of the hyperedges' values, squared again by the power 2. -/
def rinter (inc : Fin n → Fin ne → EReal) (x : Fin n → Fin dd → EReal) (v : Fin n) (d : Fin dd) : EReal :=
  Ideal.pow (Ideal.div (∑ e : Fin ne, inc v e * Ideal.pow (rintra inc x e d) ((2 : ℝ) : EReal)) (degV inc v)) ((1 / 2 : ℝ) : EReal)
/-- One layer, the root-and-square spelling. -/
def rlayer (inc : Fin n → Fin ne → EReal) (x : Fin n → Fin dd → EReal) (W : Fin dd → Fin dh → EReal) (v : Fin n) (h : Fin dh) : EReal :=
  max (∑ d : Fin dd, rinter inc x v d * W d h) 0

/-- The two-layer network, the kept-square spelling. -/
def result (inc : Fin n → Fin ne → EReal) (x : Fin n → Fin dd → EReal) (W1 : Fin dd → Fin dh → EReal) (W2 : Fin dh → Fin dh → EReal) :
    Fin n → Fin dh → EReal :=
  layer inc (layer inc x W1) W2
/-- The two-layer network, the root-and-square spelling. -/
def rresult (inc : Fin n → Fin ne → EReal) (x : Fin n → Fin dd → EReal) (W1 : Fin dd → Fin dh → EReal) (W2 : Fin dh → Fin dh → EReal) :
    Fin n → Fin dh → EReal :=
  rlayer inc (rlayer inc x W1) W2

end Cert.Spec

end
-- ==== Proof.LibReals.lean ====
/-
  Extended reals that are real numbers, and the operations that keep them so.

  At the exact (ideal) reading a float is an extended real. When a kernel's inputs are finite, every value it forms
  from them by sums, differences, products, maxima, Euclidean norms, quotients by positive reals and exponentials
  is again a real number; a value proof that needs a law of the reals (distributivity, cancelling, (√s)² = s) first
  shows its operands real with these closure facts, then takes real witnesses (`choose`) and computes in ℝ.

    IsR x : x is a real number;   IsP x : x is a positive real number.
    isR_add / isR_sub / isR_mul / isR_sum / isR_max     closure
    isP_max     the larger of a real and a positive real is a positive real (a norm floored at ε)
    isR_norm    √(Σ uᵢ²) of reals is a real;  sumsq_coe, sqrt_coe_of_nonneg, coe_sum, coe_max push the coercion
    div_coe_coe, isR_div       a quotient by a positive real
    isP_exp, isP_sum           exponentials are positive reals, and so is a nonempty sum of positive reals
    isR_fold_max               the maximum of a nonempty finite family of reals, folded from −∞, is a real
    isR_softmax                exp (z k − M) / Σ_j exp (z j − M) of real scores is a real
    mul_recip                  v · (1 / g) = v / g for a positive real g and EVERY extended real v
-/
import Idealize.ShloMosaic.PureOps.Ideal

noncomputable section

namespace Cert.LibReals

open Idealize.ShloMosaic

/-- x is a real number. -/
def IsR (x : EReal) : Prop := ∃ r : ℝ, x = (r : EReal)
/-- x is a positive real number. -/
def IsP (x : EReal) : Prop := ∃ r : ℝ, 0 < r ∧ x = (r : EReal)

theorem IsP.isR {x : EReal} (h : IsP x) : IsR x := let ⟨r, _, e⟩ := h; ⟨r, e⟩

theorem isR_zero : IsR 0 := ⟨0, rfl⟩
theorem isR_coe (r : ℝ) : IsR (r : EReal) := ⟨r, rfl⟩

theorem isR_add {x y : EReal} (hx : IsR x) (hy : IsR y) : IsR (x + y) := by
  obtain ⟨a, rfl⟩ := hx; obtain ⟨b, rfl⟩ := hy; exact ⟨a + b, (EReal.coe_add a b).symm⟩
theorem isR_sub {x y : EReal} (hx : IsR x) (hy : IsR y) : IsR (x - y) := by
  obtain ⟨a, rfl⟩ := hx; obtain ⟨b, rfl⟩ := hy; exact ⟨a - b, (EReal.coe_sub a b).symm⟩
theorem isR_mul {x y : EReal} (hx : IsR x) (hy : IsR y) : IsR (x * y) := by
  obtain ⟨a, rfl⟩ := hx; obtain ⟨b, rfl⟩ := hy; exact ⟨a * b, (EReal.coe_mul a b).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isR_sum {ι : Type} [Fintype ι] (f : ι → EReal) (h : ∀ i, IsR (f i)) : IsR (∑ i, f i) := by
  choose g hg using h
  exact ⟨∑ i, g i, (Finset.sum_congr rfl fun i _ => hg i).trans (coe_sum _ _).symm⟩

theorem isP_sum {ι : Type} [Fintype ι] [Nonempty ι] (f : ι → EReal) (h : ∀ i, IsP (f i)) : IsP (∑ i, f i) := by
  choose g hg0 hg using h
  exact ⟨∑ i, g i, Finset.sum_pos (fun i _ => hg0 i) Finset.univ_nonempty,
    (Finset.sum_congr rfl fun i _ => hg i).trans (coe_sum _ _).symm⟩

theorem coe_max (a b : ℝ) : ((max a b : ℝ) : EReal) = max (a : EReal) (b : EReal) := by
  rcases le_total a b with h | h
  · rw [max_eq_right h, max_eq_right (EReal.coe_le_coe_iff.2 h)]
  · rw [max_eq_left h, max_eq_left (EReal.coe_le_coe_iff.2 h)]

theorem isR_max {x y : EReal} (hx : IsR x) (hy : IsR y) : IsR (max x y) := by
  obtain ⟨a, rfl⟩ := hx; obtain ⟨b, rfl⟩ := hy; exact ⟨max a b, (coe_max a b).symm⟩

/-- The larger of a real and a positive real is a positive real. -/
theorem isP_max {x ε : EReal} (hx : IsR x) (hε : IsP ε) : IsP (max x ε) := by
  obtain ⟨a, rfl⟩ := hx; obtain ⟨e, he, rfl⟩ := hε
  exact ⟨max a e, lt_max_of_lt_right he, (coe_max a e).symm⟩

theorem sqrt_coe_of_nonneg {r : ℝ} (h : 0 ≤ r) : Ideal.sqrt (r : EReal) = (Real.sqrt r : EReal) := by
  rw [Ideal.sqrt_coe, if_neg (not_lt.2 h)]

/-- A sum of squares of reals is the coercion of the real sum of squares. -/
theorem sumsq_coe {ι : Type} [Fintype ι] (g : ι → ℝ) :
    (∑ i, (g i : EReal) * (g i : EReal)) = ((∑ i, g i * g i : ℝ) : EReal) := by
  rw [coe_sum]; exact Finset.sum_congr rfl fun i _ => (EReal.coe_mul _ _).symm

/-- The Euclidean norm of a family of reals is a real. -/
theorem isR_norm {ι : Type} [Fintype ι] (u : ι → EReal) (h : ∀ i, IsR (u i)) : IsR (Ideal.sqrt (∑ i, u i * u i)) := by
  choose g hg using h
  refine ⟨Real.sqrt (∑ i, g i * g i), ?_⟩
  rw [show (∑ i, u i * u i) = ((∑ i, g i * g i : ℝ) : EReal) from by
    rw [← sumsq_coe]; exact Finset.sum_congr rfl fun i _ => by rw [hg i]]
  exact sqrt_coe_of_nonneg (Finset.sum_nonneg fun i _ => mul_self_nonneg _)

/-- A quotient of reals by a nonzero real. -/
theorem div_coe_coe (x : ℝ) {y : ℝ} (hy : y ≠ 0) : Ideal.div (x : EReal) (y : EReal) = ((x / y : ℝ) : EReal) := by
  rw [Ideal.div_coe hy, ← EReal.coe_mul, mul_one_div]

theorem isR_div {x y : EReal} (hx : IsR x) (hy : IsP y) : IsR (Ideal.div x y) := by
  obtain ⟨a, rfl⟩ := hx; obtain ⟨b, hb, rfl⟩ := hy; exact ⟨a / b, div_coe_coe a hb.ne'⟩

theorem isP_exp {x : EReal} (hx : IsR x) : IsP (Ideal.exp x) := by
  obtain ⟨a, rfl⟩ := hx; exact ⟨Real.exp a, Real.exp_pos a, rfl⟩

/-- The maximum of a nonempty finite family of reals, folded from −∞, is a real. -/
theorem isR_fold_max {ι : Type} [Fintype ι] [Nonempty ι] (z : ι → EReal) (hz : ∀ i, IsR (z i)) :
    IsR (Finset.univ.fold max ⊥ z) := by
  have e : Finset.univ.fold max ⊥ z = Finset.univ.sup z := rfl
  obtain ⟨i, _, hi⟩ := Finset.exists_mem_eq_sup Finset.univ Finset.univ_nonempty z
  rw [e, hi]; exact hz i

/-- The softmax weight of a real score among real scores is a real: exp (z k − M) / Σ_j exp (z j − M), M their maximum. -/
theorem isR_softmax {ι : Type} [Fintype ι] [Nonempty ι] (z : ι → EReal) (hz : ∀ i, IsR (z i)) (k : ι) :
    IsR (Ideal.div (Ideal.exp (z k - max ⊥ (Finset.univ.fold max ⊥ z)))
      (∑ j, Ideal.exp (z j - max ⊥ (Finset.univ.fold max ⊥ z)))) := by
  have hM : IsR (max ⊥ (Finset.univ.fold max ⊥ z)) := by
    rw [max_eq_right bot_le]; exact isR_fold_max z hz
  exact isR_div (isP_exp (isR_sub (hz k) hM)).isR (isP_sum _ fun j => isP_exp (isR_sub (hz j) hM))

/-- Scaling by the reciprocal of a positive real is dividing by it, on every extended real. -/
theorem mul_recip {g : EReal} (hg : IsP g) (v : EReal) : v * Ideal.div 1 g = Ideal.div v g := by
  obtain ⟨a, ha, rfl⟩ := hg
  rw [Ideal.div_coe ha.ne', Ideal.div_coe ha.ne', one_mul]

end Cert.LibReals

end
-- ==== Proof.LibGenMean.lean ====
/-
  The power-2 generalised mean on the extended reals, at the exact reading of floats.

  A hypergraph layer aggregates squares: per hyperedge the mean s/g of the members' squared features (s a sum of
  non-negative terms, g ≥ 1 the edge's size floored at one), then per node the mean of the edges' values. One spelling
  takes the root (s/g)^(1/2) and squares it again before the second aggregation; another keeps s/g as it is and takes
  one square root at the end, by sqrt. On the reals with s ≥ 0 and g > 0 these agree:

      x ^ 2 = x · x                        for every real x          (pow_two)
      r ^ (1/2) = √r                       for a real r ≥ 0          (pow_half)
      ((s/g) ^ (1/2)) ^ 2 = s/g            for s ≥ 0, g > 0          (root_sq)
      sqrt (s/g) = (s/g) ^ (1/2)           for s ≥ 0, g > 0          (sqrt_eq_pow_half)

  stated on EReal through Ideal.pow, Ideal.sqrt and Ideal.div, with the four float words 0, 1/2, 1, 2 as reals.
  For a NEGATIVE base the two spellings differ (the root of a negative real is 0 by Real.rpow's convention, ⊥ by
  Ideal.sqrt's), so a proof first shows its sums non-negative.
-/
import Idealize.ShloMosaic.PureOps.Ideal
import proofs.«114318_g79602923864256_cont_9to1_m_37_17_alg».proof.Proof.LibReals

noncomputable section

namespace Cert.LibGenMean

open Idealize.ShloMosaic Cert.LibReals

/-- The f32 word of 2.0 is the real 2. -/
theorem two_bits : Ideal.ofBits .f32 0x40000000#32 = ((2 : ℝ) : EReal) := by
  simp [Ideal.ofBits, Ideal.ieee, -EReal.coe_mul]; norm_num
/-- The f32 word of 0.5 is the real 1/2. -/
theorem half_bits : Ideal.ofBits .f32 0x3F000000#32 = ((1 / 2 : ℝ) : EReal) := by
  simp [Ideal.ofBits, Ideal.ieee, -EReal.coe_mul]; norm_num
/-- The f32 word of 1.0 is the real 1. -/
theorem one_bits : Ideal.ofBits .f32 0x3F800000#32 = ((1 : ℝ) : EReal) := by
  simp [Ideal.ofBits, Ideal.ieee, -EReal.coe_mul]; norm_num
/-- The f32 word of +0.0 is the real 0. -/
theorem zero_bits : Ideal.ofBits .f32 0x00000000#32 = ((0 : ℝ) : EReal) := by
  simp [Ideal.ofBits, Ideal.ieee]

/-- Squaring by the power function: x ^ 2 = x · x for every real x (negative ones too). -/
theorem pow_two (r : ℝ) : Ideal.pow (r : EReal) ((2 : ℝ) : EReal) = ((r * r : ℝ) : EReal) := by
  rw [Ideal.pow_coe_coe]
  exact congrArg _ ((Real.rpow_two r).trans (sq r))

/-- The power 1/2 of a non-negative real is its square root. -/
theorem pow_half {r : ℝ} (h : 0 ≤ r) : Ideal.pow (r : EReal) ((1 / 2 : ℝ) : EReal) = ((Real.sqrt r : ℝ) : EReal) := by
  rw [Ideal.pow_coe_coe]
  exact congrArg _ (Real.sqrt_eq_rpow r).symm

/-- The root taken and squared again gives the mean back: ((s/g)^(1/2))^2 = s/g for s ≥ 0 and g > 0. -/
theorem root_sq {s g : ℝ} (hs : 0 ≤ s) (hg : 0 < g) :
    Ideal.pow (Ideal.pow (Ideal.div (s : EReal) (g : EReal)) ((1 / 2 : ℝ) : EReal)) ((2 : ℝ) : EReal)
      = Ideal.div (s : EReal) (g : EReal) := by
  rw [div_coe_coe s hg.ne', pow_half (div_nonneg hs hg.le), pow_two, Real.mul_self_sqrt (div_nonneg hs hg.le)]

/-- One square root at the end, by sqrt or by the power 1/2: the same on a non-negative mean. -/
theorem sqrt_eq_pow_half {s g : ℝ} (hs : 0 ≤ s) (hg : 0 < g) :
    Ideal.sqrt (Ideal.div (s : EReal) (g : EReal))
      = Ideal.pow (Ideal.div (s : EReal) (g : EReal)) ((1 / 2 : ℝ) : EReal) := by
  rw [div_coe_coe s hg.ne', pow_half (div_nonneg hs hg.le), sqrt_coe_of_nonneg (div_nonneg hs hg.le)]

/-- A sum of products of non-negative reals with squares is non-negative. -/
theorem sum_mul_sq_nonneg {ι : Type} [Fintype ι] (a u : ι → ℝ) (ha : ∀ i, 0 ≤ a i) :
    0 ≤ ∑ i, a i * (u i * u i) :=
  Finset.sum_nonneg fun i _ => mul_nonneg (ha i) (mul_self_nonneg _)

/-- A size floored at one is positive. -/
theorem floor_one_pos (d : ℝ) : 0 < max d 1 := lt_max_of_lt_right one_pos

end Cert.LibGenMean

end
-- ==== Proof.IdealValue0.lean ====
/-
  The first pallas_call's two result arrays, as functions of the arrays the call finds.

  Point t stages rows 2000·t … 2000·t + 1999 of the features and of the incidence. The two scratch buffers hold, after
  point n, the sums over the first (n+1)·2000 nodes of (x v d)² · inc v e (acc, at (d,e)) and of inc v e (dacc, at (0,e)):
  stored at the first point, added to afterwards. At the last point the sums run over all 10000 nodes, and the call
  writes dacc floored at one (the hyperedge sizes) and acc divided by it, transposed (the hyperedges' means of squares).
-/
import proofs.«114318_g79602923864256_cont_9to1_m_37_17_alg».proof.Proof.IdealPieces0
import proofs.«114318_g79602923864256_cont_9to1_m_37_17_alg».proof.Proof.IdealPayloads0
import proofs.«114318_g79602923864256_cont_9to1_m_37_17_alg».proof.Proof.Spec
import proofs.«114318_g79602923864256_cont_9to1_m_37_17_alg».proof.Proof.LibGenMean
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- A sum over the 10000 nodes is a sum over the naturals below 10000 of the function extended by zero. -/
theorem sum_nodes (g : Fin 10000 → EReal) :
    ∑ v : Fin 10000, g v = ∑ k ∈ Finset.range 10000, (if h : k < 10000 then g ⟨k, h⟩ else 0) := by
  rw [← Fin.sum_univ_eq_sum_range (fun k => if h : k < 10000 then g ⟨k, h⟩ else 0) 10000]
  exact Finset.sum_congr rfl fun v _ => by rw [dif_pos v.isLt]

/-- A sum over the 2000 rows of block t, read off a function on the naturals. -/
theorem sum_block (f : ℕ → EReal) (a : ℕ) : ∑ r : Fin 2000, f (a + r.val) = ∑ k ∈ Finset.range 2000, f (a + k) :=
  Fin.sum_univ_eq_sum_range (fun k => f (a + k)) 2000

section

variable (V : (c : Dev nD) → (b : Ref sig .tc) → Buf (Elt Ideal) ((c : Thread nD τ).loc b))

/-- The features and the incidence as the call finds them, extended by zero beyond the last node. -/
def featN (c : Dev nD) (k : ℕ) (d : Fin 128) : EReal := if h : k < 10000 then (V c main_arg0 (ix2 (⟨k, h⟩ : Fin 10000) d) : EReal) else 0
def incN (c : Dev nD) (k : ℕ) (e : Fin 2000) : EReal := if h : k < 10000 then (V c main_v0 (ix2 (⟨k, h⟩ : Fin 10000) e) : EReal) else 0

theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Row r of point t's feature block is node 2000·t + r. -/
theorem iblk0_0_apply (c : Dev nD) (t : Fin cfg0.N) (r : Fin 2000) (d : Fin 128) :
    (iblk0 V c 0 t (ix2 r d) : EReal) = featN V c (t.val * 2000 + r.val) d := by
  have hN : t.val < 5 := lt_of_lt_of_eq t.isLt (show cfg0.N = 5 from N_0)
  have hk : t.val * 2000 + r.val < 10000 := by have := r.isLt; omega
  unfold featN; rw [dif_pos hk]
  show V c main_arg0 (((cfg0.win 0).blk t).view.emb (ix2 r d)) = _
  obtain ⟨e00, e01, -⟩ := idx_facts0 t
  refine congrArg _ (funext fun a => Fin.ext ?_)
  match a with
  | ⟨0, _⟩ => show win0_0.index t (0 : Fin 2) * 2000 + 1 * r.val = t.val * 2000 + r.val; omega
  | ⟨1, _⟩ => show win0_0.index t (1 : Fin 2) * 128 + 1 * d.val = d.val; omega
theorem iblk0_1_apply (c : Dev nD) (t : Fin cfg0.N) (r : Fin 2000) (e : Fin 2000) :
    (iblk0 V c 1 t (ix2 r e) : EReal) = incN V c (t.val * 2000 + r.val) e := by
  have hN : t.val < 5 := lt_of_lt_of_eq t.isLt (show cfg0.N = 5 from N_0)
  have hk : t.val * 2000 + r.val < 10000 := by have := r.isLt; omega
  unfold incN; rw [dif_pos hk]
  show V c main_v0 (((cfg0.win 1).blk t).view.emb (ix2 r e)) = _
  obtain ⟨-, -, e10, e11, -⟩ := idx_facts0 t
  refine congrArg _ (funext fun a => Fin.ext ?_)
  match a with
  | ⟨0, _⟩ => show win0_1.index t (0 : Fin 2) * 2000 + 1 * r.val = t.val * 2000 + r.val; omega
  | ⟨1, _⟩ => show win0_1.index t (1 : Fin 2) * 2000 + 1 * e.val = e.val; omega

/-- Point t's contribution to acc at (d,e) and to dacc at (0,e), as sums over its 2000 nodes. -/
theorem part0_apply (c : Dev nD) (t : Fin cfg0.N) (d : Fin 128) (e : Fin 2000) :
    k0_pay2 (iblk0 V c 1 t) (iblk0 V c 0 t) (ix2 d e)
      = ∑ k ∈ Finset.range 2000, (featN V c (t.val * 2000 + k) d * featN V c (t.val * 2000 + k) d) * incN V c (t.val * 2000 + k) e := by
  refine (Pay.pay0_2 (iblk0 V c 1 t) (iblk0 V c 0 t) d e).trans ?_
  rw [← sum_block (fun k => (featN V c k d * featN V c k d) * incN V c k e) (t.val * 2000)]
  exact Finset.sum_congr rfl fun r _ => by rw [iblk0_0_apply, iblk0_1_apply]
theorem dpart0_apply (c : Dev nD) (t : Fin cfg0.N) (e : Fin 2000) :
    k0_pay3 (iblk0 V c 1 t) (ix2 (0 : Fin 1) e) = ∑ k ∈ Finset.range 2000, incN V c (t.val * 2000 + k) e := by
  refine (Pay.pay0_3 (iblk0 V c 1 t) e).trans ?_
  rw [LibGenMean.zero_bits, EReal.coe_zero, zero_add, ← sum_block (fun k => incN V c k e) (t.val * 2000)]
  exact Finset.sum_congr rfl fun r _ => by rw [iblk0_1_apply]

/-- THE RUNNING SUMS: after point n the scratch buffers hold the sums over the first (n+1)·2000 nodes. -/
theorem acc_closed (c : Dev nD) : ∀ (n : ℕ) (hn : n < cfg0.N) (d : Fin 128) (e : Fin 2000),
    (outsAt0 V c n hn).2.2.1 (ix2 d e) = ∑ k ∈ Finset.range ((n + 1) * 2000), (featN V c k d * featN V c k d) * incN V c k e
    ∧ (outsAt0 V c n hn).2.2.2 (ix2 (0 : Fin 1) e) = ∑ k ∈ Finset.range ((n + 1) * 2000), incN V c k e := by
  intro n
  induction n using Nat.strong_induction_on with
  | _ n ih =>
    intro hn d e
    have hN : n < 5 := lt_of_lt_of_eq hn (show cfg0.N = 5 from N_0)
    by_cases h0 : n = 0
    · subst h0
      have hc0 : cond0_0 (grid0.coords ⟨0, hn⟩) := (hcond0_0 ⟨0, hn⟩).mpr rfl
      have hc1 : ¬cond0_1 (grid0.coords ⟨0, hn⟩) := fun h => (hcond0_1 ⟨0, hn⟩).mp h rfl
      have hc2 : ¬cond0_2 (grid0.coords ⟨0, hn⟩) := fun h => by have := (hcond0_2 ⟨0, hn⟩).mp h; dsimp only at this; omega
      have hA := outsAt0_A V c ⟨0, hn⟩ rfl hc0 hc1 hc2
      dsimp only at hA
      rw [hA]; dsimp only
      rw [sout0_A_0_eq, sout0_A_1_eq, Pay.pay0_4, Pay.pay0_5]
      refine ⟨(part0_apply V c ⟨0, hn⟩ d e).trans ?_, (dpart0_apply V c ⟨0, hn⟩ e).trans ?_⟩
      · simp only [Nat.zero_mul, Nat.zero_add, Nat.one_mul]
      · simp only [Nat.zero_mul, Nat.zero_add, Nat.one_mul]
    · have hc0 : ¬cond0_0 (grid0.coords ⟨n, hn⟩) := fun h => h0 ((hcond0_0 ⟨n, hn⟩).mp h)
      have hc1 : cond0_1 (grid0.coords ⟨n, hn⟩) := (hcond0_1 ⟨n, hn⟩).mpr h0
      obtain ⟨ih1, ih2⟩ := ih (n - 1) (by omega) (Nat.lt_of_le_of_lt (Nat.sub_le _ _) hn) d e
      have hstep : (n - 1 + 1) * 2000 + 2000 = (n + 1) * 2000 := by omega
      have hn1 : (n - 1 + 1) * 2000 = n * 2000 := by rw [Nat.sub_add_cancel (Nat.pos_of_ne_zero h0)]
      by_cases h2 : n = 4
      · have hc2 : cond0_2 (grid0.coords ⟨n, hn⟩) := (hcond0_2 ⟨n, hn⟩).mpr h2
        have hC := outsAt0_C V c ⟨n, hn⟩ h2 hc0 hc1 hc2
        dsimp only at hC
        rw [hC]; dsimp only
        rw [sout0_C_0_eq, sout0_C_1_eq, Pay.pay0_6, Pay.pay0_7, ih1, ih2, part0_apply V c ⟨n, hn⟩ d e, dpart0_apply V c ⟨n, hn⟩ e]
        dsimp only
        rw [← hstep, Finset.sum_range_add, Finset.sum_range_add, hn1]
        exact ⟨rfl, rfl⟩
      · have hc2 : ¬cond0_2 (grid0.coords ⟨n, hn⟩) := fun h => h2 ((hcond0_2 ⟨n, hn⟩).mp h)
        have hB := outsAt0_B V c ⟨n, hn⟩ h0 h2 hc0 hc1 hc2
        dsimp only at hB
        rw [hB]; dsimp only
        rw [sout0_B_0_eq, sout0_B_1_eq, Pay.pay0_6, Pay.pay0_7, ih1, ih2, part0_apply V c ⟨n, hn⟩ d e, dpart0_apply V c ⟨n, hn⟩ e]
        dsimp only
        rw [← hstep, Finset.sum_range_add, Finset.sum_range_add, hn1]
        exact ⟨rfl, rfl⟩

/-- The incidence and the features as the call finds them, curried. -/
abbrev incC (c : Dev nD) : Fin 10000 → Fin 2000 → EReal := fun v e => (V c main_v0 (ix2 v e) : EReal)
abbrev featC (c : Dev nD) : Fin 10000 → Fin 128 → EReal := fun v d => (V c main_arg0 (ix2 v d) : EReal)

/-- At the last point the sums run over all the nodes. -/
theorem acc_last (c : Dev nD) (hn : 4 < cfg0.N) (d : Fin 128) (e : Fin 2000) :
    (outsAt0 V c 4 hn).2.2.1 (ix2 d e) = ∑ v : Fin 10000, (featC V c v d * featC V c v d) * incC V c v e := by
  rw [(acc_closed V c 4 hn d e).1, sum_nodes]
  exact Finset.sum_congr rfl fun k hk => by
    have hk' : k < 10000 := Finset.mem_range.mp hk
    simp only [featN, incN, dif_pos hk']
theorem dacc_last (c : Dev nD) (hn : 4 < cfg0.N) (e : Fin 2000) :
    (outsAt0 V c 4 hn).2.2.2 (ix2 (0 : Fin 1) e) = ∑ v : Fin 10000, incC V c v e := by
  rw [(acc_closed V c 4 hn (0 : Fin 128) e).2, sum_nodes]
  exact Finset.sum_congr rfl fun k hk => by
    have hk' : k < 10000 := Finset.mem_range.mp hk
    simp only [incN, dif_pos hk']

/-- The word of 1.0 is the extended real 1. -/
theorem one_word : Ideal.ofBits .f32 0x3F800000#32 = (1 : EReal) := LibGenMean.one_bits.trans EReal.coe_one

/-- What the last point writes: the hyperedge sizes, and the hyperedges' means of squares. -/
theorem outs_last (c : Dev nD) (t : Fin cfg0.N) (h2 : t.val = 4) :
    (outsAt0 V c t.val t.isLt).1 = (fun j : S2000x128.Idx => Cert.Spec.msq (incC V c) (featC V c) (j 0) (j 1))
    ∧ (outsAt0 V c t.val t.isLt).2.1 = (fun j : S1x2000.Idx => Cert.Spec.degE (incC V c) (j 1)) := by
  obtain ⟨n, hn⟩ := t
  dsimp only at h2; subst h2
  have hc0 : ¬cond0_0 (grid0.coords ⟨4, hn⟩) := fun h => by have := (hcond0_0 ⟨4, hn⟩).mp h; dsimp only at this; omega
  have hc1 : cond0_1 (grid0.coords ⟨4, hn⟩) := (hcond0_1 ⟨4, hn⟩).mpr (by dsimp only; omega)
  have hc2 : cond0_2 (grid0.coords ⟨4, hn⟩) := (hcond0_2 ⟨4, hn⟩).mpr rfl
  have hC := outsAt0_C V c ⟨4, hn⟩ rfl hc0 hc1 hc2
  dsimp only at hC
  have hs0 : (outsAt0 V c 4 hn).2.2.1 = k0_pay6 (iblk0 V c 1 ⟨4, hn⟩) (iblk0 V c 0 ⟨4, hn⟩) (outsAt0 V c (4 - 1) (Nat.lt_of_le_of_lt (Nat.sub_le _ _) hn)).2.2.1 := by
    rw [hC]; dsimp only; rw [sout0_C_0_eq]
  have hs1 : (outsAt0 V c 4 hn).2.2.2 = k0_pay7 (iblk0 V c 1 ⟨4, hn⟩) (outsAt0 V c (4 - 1) (Nat.lt_of_le_of_lt (Nat.sub_le _ _) hn)).2.2.2 := by
    rw [hC]; dsimp only; rw [sout0_C_1_eq]
  have ho2 : (outsAt0 V c 4 hn).1 = k0_pay9 (outsAt0 V c 4 hn).2.2.2 (outsAt0 V c 4 hn).2.2.1 := by
    rw [hs0, hs1]; rw [hC]; dsimp only; rw [out0_C_2_eq]
  have ho3 : (outsAt0 V c 4 hn).2.1 = k0_pay8 (outsAt0 V c 4 hn).2.2.2 := by
    rw [hs1]; rw [hC]; dsimp only; rw [out0_C_3_eq]
  refine ⟨?_, ?_⟩
  · rw [ho2]; funext j
    obtain ⟨e, d, rfl⟩ : ∃ (e : Fin 2000) (d : Fin 128), j = ix2 e d := ⟨j 0, j 1, eq_ix2 j⟩
    refine (Pay.pay0_9 _ _ e d).trans ?_
    rw [acc_last V c hn d e, dacc_last V c hn e, one_word]
    rfl
  · rw [ho3]; funext j
    obtain ⟨u, e, rfl⟩ : ∃ (u : Fin 1) (e : Fin 2000), j = ix2 u e := ⟨j 0, j 1, eq_ix2 j⟩
    obtain rfl : u = 0 := Subsingleton.elim _ _
    refine (Pay.pay0_8 _ e).trans ?_
    rw [dacc_last V c hn e, one_word]
    rfl

/-- What the flushing point writes back is the whole array (the outputs' one block is the array). -/
theorem flushed0_2_eq (c : Dev nD) (t : Fin cfg0.N) (hf : (cfg0.win 2).flush t = true) :
    (dat0 V c).flushed 2 t = ((cfg0.win 2).blk t).view.read (Elt Ideal) (fun j : S2000x128.Idx => Cert.Spec.msq (incC V c) (featC V c) (j 0) (j 1)) := by
  have hN : t.val < 5 := lt_of_lt_of_eq t.isLt (show cfg0.N = 5 from N_0)
  have h2 : t.val = 4 := by have := (flush0_2 t).mp hf; omega
  show (cfg0.win 2).cut (grid0.coords t) ((dat0 V c).after 2 t) = _
  rw [after0_2, (outs_last V c t h2).1]
  obtain ⟨-, -, -, -, e20, e21, -, -⟩ := idx_facts0 t
  funext y
  show Cert.Spec.msq (incC V c) (featC V c) (y 0) (y 1) = Cert.Spec.msq (incC V c) (featC V c) ((((cfg0.win 2).blk t).view.emb y) 0) ((((cfg0.win 2).blk t).view.emb y) 1)
  have h0 : (((cfg0.win 2).blk t).view.emb y) 0 = y 0 := Fin.ext (by
    show win0_2.index t (0 : Fin 2) * 2000 + 1 * (y 0).val = (y 0).val; omega)
  have h1 : (((cfg0.win 2).blk t).view.emb y) 1 = y 1 := Fin.ext (by
    show win0_2.index t (1 : Fin 2) * 128 + 1 * (y 1).val = (y 1).val; omega)
  rw [h0, h1]
theorem flushed0_3_eq (c : Dev nD) (t : Fin cfg0.N) (hf : (cfg0.win 3).flush t = true) :
    (dat0 V c).flushed 3 t = ((cfg0.win 3).blk t).view.read (Elt Ideal) (fun j : S1x2000.Idx => Cert.Spec.degE (incC V c) (j 1)) := by
  have hN : t.val < 5 := lt_of_lt_of_eq t.isLt (show cfg0.N = 5 from N_0)
  have h2 : t.val = 4 := by have := (flush0_3 t).mp hf; omega
  show (cfg0.win 3).cut (grid0.coords t) ((dat0 V c).after 3 t) = _
  rw [after0_3, (outs_last V c t h2).2]
  obtain ⟨-, -, -, -, -, -, e30, e31⟩ := idx_facts0 t
  funext y
  show Cert.Spec.degE (incC V c) (y 1) = Cert.Spec.degE (incC V c) ((((cfg0.win 3).blk t).view.emb y) 1)
  have h1 : (((cfg0.win 3).blk t).view.emb y) 1 = y 1 := Fin.ext (by
    show win0_3.index t (1 : Fin 2) * 2000 + 1 * (y 1).val = (y 1).val; omega)
  rw [h1]

theorem mem_blk0_2 (t : Fin cfg0.N) (i : S2000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v1_0).slice (win0_2.rect t)).set ↔ _
  rw [View.set_slice_whole, Rect.mem_set_unit]
  exact Iff.rfl
theorem mem_blk0_3 (t : Fin cfg0.N) (i : S1x2000.Idx) :
    i ∈ ((cfg0.win 3).blk t).view.set ↔ ∀ a : Fin 2, win0_3.index t a * S1x2000.size a ≤ (i a).val ∧ (i a).val < win0_3.index t a * S1x2000.size a + S1x2000.size a := by
  show i ∈ ((View.whole main_v1_1).slice (win0_3.rect t)).set ↔ _
  rw [View.set_slice_whole, Rect.mem_set_unit]
  exact Iff.rfl

theorem cover0_2 (i : S2000x128.Idx) : ∃ t : Fin cfg0.N, (cfg0.win 2).flush t = true ∧ i ∈ ((cfg0.win 2).blk t).view.set := by
  have hi0 : (i 0).val < 2000 := (i 0).isLt
  have hi1 : (i 1).val < 128 := (i 1).isLt
  refine ⟨t0_4, (flush0_2 t0_4).mpr rfl, ?_⟩
  rw [mem_blk0_2]
  obtain ⟨-, -, -, -, e20, e21, -, -⟩ := idx_facts0 t0_4
  intro a
  match a with
  | ⟨0, _⟩ => show win0_2.index t0_4 (0 : Fin 2) * 2000 ≤ (i 0).val ∧ (i 0).val < win0_2.index t0_4 (0 : Fin 2) * 2000 + 2000; omega
  | ⟨1, _⟩ => show win0_2.index t0_4 (1 : Fin 2) * 128 ≤ (i 1).val ∧ (i 1).val < win0_2.index t0_4 (1 : Fin 2) * 128 + 128; omega
theorem cover0_3 (i : S1x2000.Idx) : ∃ t : Fin cfg0.N, (cfg0.win 3).flush t = true ∧ i ∈ ((cfg0.win 3).blk t).view.set := by
  have hi0 : (i 0).val < 1 := (i 0).isLt
  have hi1 : (i 1).val < 2000 := (i 1).isLt
  refine ⟨t0_4, (flush0_3 t0_4).mpr rfl, ?_⟩
  rw [mem_blk0_3]
  obtain ⟨-, -, -, -, -, -, e30, e31⟩ := idx_facts0 t0_4
  intro a
  match a with
  | ⟨0, _⟩ => show win0_3.index t0_4 (0 : Fin 2) * 1 ≤ (i 0).val ∧ (i 0).val < win0_3.index t0_4 (0 : Fin 2) * 1 + 1; omega
  | ⟨1, _⟩ => show win0_3.index t0_4 (1 : Fin 2) * 2000 ≤ (i 1).val ∧ (i 1).val < win0_3.index t0_4 (1 : Fin 2) * 2000 + 2000; omega

/-- The two result arrays after the call. -/
theorem final0_2 (c : Dev nD) :
    (dat0 V c).arrAt 2 cfg0.N = (fun j : S2000x128.Idx => Cert.Spec.msq (incC V c) (featC V c) (j 0) (j 1)) :=
  (dat0 V c).arrAt_eq_of_cover 2 _ (fun t hf => flushed0_2_eq V c t hf) cover0_2
theorem final0_3 (c : Dev nD) :
    (dat0 V c).arrAt 3 cfg0.N = (fun j : S1x2000.Idx => Cert.Spec.degE (incC V c) (j 1)) :=
  (dat0 V c).arrAt_eq_of_cover 3 _ (fun t hf => flushed0_3_eq V c t hf) cover0_3

end

end Cert.KernelIdeal.Hand

end
-- ==== Proof.IdealPieces1.lean ====
/-
  The second pallas_call: what each case of its body leaves in each buffer, as the body's own arithmetic.

  The run of a case finds, for every buffer the case stores into, the list of stored pieces; each buffer here is stored
  whole, once, so what it holds afterwards is the one stored value: a payload of the blocks the case loaded (and, for
  the scratch buffer after the first point, of what it held before; at the last point the first output is computed
  from the scratch buffer as just updated and from the block of hyperedge sizes).
-/
import proofs.«114318_g79602923864256_cont_9to1_m_37_17_alg».proof.Proof.Gen.KernelIdeal.Launch
import proofs.«114318_g79602923864256_cont_9to1_m_37_17_alg».proof.Proof.Gen.KernelIdeal.Skeleton
import proofs.«114318_g79602923864256_cont_9to1_m_37_17_alg».proof.Proof.Gen.KernelIdeal.Points
import proofs.«114318_g79602923864256_cont_9to1_m_37_17_alg».proof.Proof.IdealRegion1
import proofs.«114318_g79602923864256_cont_9to1_m_37_17_alg».proof.Proof.IdealPieces0
import Idealize.ShloMosaic.Lib.Pipeline.Value
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem sout1_A_0_eq (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i) (x0 : Vec F S2000x2000 .bf16) (x1 : Vec F S2000x128 .bf16) (x2 : Vec F S128x128 .f32) (x3 : Vec F S1x2000 .f32) :
    sout1_A_0 c i arg1 harg1 arg2 harg2 arg3 harg3 arg4 harg4 arg5 harg5 arg6 harg6 arg7 harg7 hc0 hc1 hc2 x0 x1 x2 x3 = k1_pay4 x0 x1 x2 := by
  unfold sout1_A_0
  rw [View.read_writes_eq_canon _ _ _ (scover1_A_0 c i arg1 harg1 arg2 harg2 arg3 harg3 arg4 harg4 arg5 harg5 arg6 harg6 arg7 harg7 hc0 hc1 hc2 x0 x1 x2 x3)]
  unfold kernelRun1_A
  dsimp only
  rw [View.canon_unit_zero hz]
  simp only [View.readCov_unit_zero (S := S128x2000) _ hz, View.readCov_unit_zero (S := S2000x1) _ hz, View.readCov_unit_zero (S := S2000x128) _ hz, View.readAt_eq_ld, harg1.read_unread, harg2.read_unread, harg3.read_unread, harg4.read_unread, harg5.read_unread, harg7.read_unread, View.ld_unit_zero (S := S2000x2000) hz, View.ld_unit_zero (S := S2000x128) hz, View.ld_unit_zero (S := S128x128) hz, View.ld_unit_zero (S := S1x2000) hz, View.ld_unit_zero (S := S128x2000) hz, View.ld_unit_zero (S := S2000x1) hz]

theorem out1_A_5_eq (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : cond1_0 i) (hc1 : ¬cond1_1 i) (hc2 : ¬cond1_2 i) (x0 : Vec F S2000x2000 .bf16) (x1 : Vec F S2000x128 .bf16) (x2 : Vec F S128x128 .f32) (x3 : Vec F S1x2000 .f32) :
    out1_A_5 c i arg1 harg1 arg2 harg2 arg3 harg3 arg4 harg4 arg5 harg5 arg6 harg6 arg7 harg7 hc0 hc1 hc2 x0 x1 x2 x3 = k1_pay2 x0 := by
  unfold out1_A_5
  rw [View.read_writes_eq_canon _ _ _ (cover1_A_5 c i arg1 harg1 arg2 harg2 arg3 harg3 arg4 harg4 arg5 harg5 arg6 harg6 arg7 harg7 hc0 hc1 hc2 x0 x1 x2 x3)]
  unfold kernelRun1_A
  dsimp only
  rw [View.canon_unit_zero hz]
  simp only [View.readCov_unit_zero (S := S128x2000) _ hz, View.readCov_unit_zero (S := S2000x1) _ hz, View.readCov_unit_zero (S := S2000x128) _ hz, View.readAt_eq_ld, harg1.read_unread, harg2.read_unread, harg3.read_unread, harg4.read_unread, harg5.read_unread, harg7.read_unread, View.ld_unit_zero (S := S2000x2000) hz, View.ld_unit_zero (S := S2000x128) hz, View.ld_unit_zero (S := S128x128) hz, View.ld_unit_zero (S := S1x2000) hz, View.ld_unit_zero (S := S128x2000) hz, View.ld_unit_zero (S := S2000x1) hz]

theorem sout1_B_0_eq (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i) (x0 : Vec F S2000x2000 .bf16) (x1 : Vec F S2000x128 .bf16) (x2 : Vec F S128x128 .f32) (x3 : Vec F S1x2000 .f32) (xs0 : Vec F S128x2000 .f32) :
    sout1_B_0 c i arg1 harg1 arg2 harg2 arg3 harg3 arg4 harg4 arg5 harg5 arg6 harg6 arg7 harg7 hc0 hc1 hc2 x0 x1 x2 x3 xs0 = k1_pay5 x0 x1 x2 xs0 := by
  unfold sout1_B_0
  rw [View.read_writes_eq_canon _ _ _ (scover1_B_0 c i arg1 harg1 arg2 harg2 arg3 harg3 arg4 harg4 arg5 harg5 arg6 harg6 arg7 harg7 hc0 hc1 hc2 x0 x1 x2 x3 xs0)]
  unfold kernelRun1_B
  dsimp only
  rw [View.canon_unit_zero hz]
  simp only [View.readCov_unit_zero (S := S128x2000) _ hz, View.readCov_unit_zero (S := S2000x1) _ hz, View.readCov_unit_zero (S := S2000x128) _ hz, View.readAt_eq_ld, harg1.read_unread, harg2.read_unread, harg3.read_unread, harg4.read_unread, harg5.read_unread, harg7.read_unread, View.ld_unit_zero (S := S2000x2000) hz, View.ld_unit_zero (S := S2000x128) hz, View.ld_unit_zero (S := S128x128) hz, View.ld_unit_zero (S := S1x2000) hz, View.ld_unit_zero (S := S128x2000) hz, View.ld_unit_zero (S := S2000x1) hz]

theorem out1_B_5_eq (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : ¬cond1_2 i) (x0 : Vec F S2000x2000 .bf16) (x1 : Vec F S2000x128 .bf16) (x2 : Vec F S128x128 .f32) (x3 : Vec F S1x2000 .f32) (xs0 : Vec F S128x2000 .f32) :
    out1_B_5 c i arg1 harg1 arg2 harg2 arg3 harg3 arg4 harg4 arg5 harg5 arg6 harg6 arg7 harg7 hc0 hc1 hc2 x0 x1 x2 x3 xs0 = k1_pay2 x0 := by
  unfold out1_B_5
  rw [View.read_writes_eq_canon _ _ _ (cover1_B_5 c i arg1 harg1 arg2 harg2 arg3 harg3 arg4 harg4 arg5 harg5 arg6 harg6 arg7 harg7 hc0 hc1 hc2 x0 x1 x2 x3 xs0)]
  unfold kernelRun1_B
  dsimp only
  rw [View.canon_unit_zero hz]
  simp only [View.readCov_unit_zero (S := S128x2000) _ hz, View.readCov_unit_zero (S := S2000x1) _ hz, View.readCov_unit_zero (S := S2000x128) _ hz, View.readAt_eq_ld, harg1.read_unread, harg2.read_unread, harg3.read_unread, harg4.read_unread, harg5.read_unread, harg7.read_unread, View.ld_unit_zero (S := S2000x2000) hz, View.ld_unit_zero (S := S2000x128) hz, View.ld_unit_zero (S := S128x128) hz, View.ld_unit_zero (S := S1x2000) hz, View.ld_unit_zero (S := S128x2000) hz, View.ld_unit_zero (S := S2000x1) hz]

theorem sout1_C_0_eq (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i) (x0 : Vec F S2000x2000 .bf16) (x1 : Vec F S2000x128 .bf16) (x2 : Vec F S128x128 .f32) (x3 : Vec F S1x2000 .f32) (xs0 : Vec F S128x2000 .f32) :
    sout1_C_0 c i arg1 harg1 arg2 harg2 arg3 harg3 arg4 harg4 arg5 harg5 arg6 harg6 arg7 harg7 hc0 hc1 hc2 x0 x1 x2 x3 xs0 = k1_pay5 x0 x1 x2 xs0 := by
  unfold sout1_C_0
  rw [View.read_writes_eq_canon _ _ _ (scover1_C_0 c i arg1 harg1 arg2 harg2 arg3 harg3 arg4 harg4 arg5 harg5 arg6 harg6 arg7 harg7 hc0 hc1 hc2 x0 x1 x2 x3 xs0)]
  unfold kernelRun1_C
  dsimp only
  sl_unfold_words
  rw [View.canon_unit_zero hz]
  simp only [View.readCov_unit_zero (S := S128x2000) _ hz, View.readCov_unit_zero (S := S2000x1) _ hz, View.readCov_unit_zero (S := S2000x128) _ hz, View.readAt_eq_ld, harg1.read_unread, harg2.read_unread, harg3.read_unread, harg4.read_unread, harg5.read_unread, harg7.read_unread, View.ld_unit_zero (S := S2000x2000) hz, View.ld_unit_zero (S := S2000x128) hz, View.ld_unit_zero (S := S128x128) hz, View.ld_unit_zero (S := S1x2000) hz, View.ld_unit_zero (S := S128x2000) hz, View.ld_unit_zero (S := S2000x1) hz]

theorem out1_C_5_eq (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i) (x0 : Vec F S2000x2000 .bf16) (x1 : Vec F S2000x128 .bf16) (x2 : Vec F S128x128 .f32) (x3 : Vec F S1x2000 .f32) (xs0 : Vec F S128x2000 .f32) :
    out1_C_5 c i arg1 harg1 arg2 harg2 arg3 harg3 arg4 harg4 arg5 harg5 arg6 harg6 arg7 harg7 hc0 hc1 hc2 x0 x1 x2 x3 xs0 = k1_pay2 x0 := by
  unfold out1_C_5
  rw [View.read_writes_eq_canon _ _ _ (cover1_C_5 c i arg1 harg1 arg2 harg2 arg3 harg3 arg4 harg4 arg5 harg5 arg6 harg6 arg7 harg7 hc0 hc1 hc2 x0 x1 x2 x3 xs0)]
  unfold kernelRun1_C
  dsimp only
  sl_unfold_words
  rw [View.canon_unit_zero hz]
  simp only [View.readCov_unit_zero (S := S128x2000) _ hz, View.readCov_unit_zero (S := S2000x1) _ hz, View.readCov_unit_zero (S := S2000x128) _ hz, View.readAt_eq_ld, harg1.read_unread, harg2.read_unread, harg3.read_unread, harg4.read_unread, harg5.read_unread, harg7.read_unread, View.ld_unit_zero (S := S2000x2000) hz, View.ld_unit_zero (S := S2000x128) hz, View.ld_unit_zero (S := S128x128) hz, View.ld_unit_zero (S := S1x2000) hz, View.ld_unit_zero (S := S128x2000) hz, View.ld_unit_zero (S := S2000x1) hz]

theorem out1_C_4_eq (c : Dev nD) (i : grid1.Coords) (arg1 : Memref sig .tc .vmem S2000x2000 .bf16) (harg1 : arg1.IsWhole) (arg2 : Memref sig .tc .vmem S2000x128 .bf16) (harg2 : arg2.IsWhole) (arg3 : Memref sig .tc .vmem S128x128 .f32) (harg3 : arg3.IsWhole) (arg4 : Memref sig .tc .vmem S1x2000 .f32) (harg4 : arg4.IsWhole) (arg5 : Memref sig .tc .vmem S2000x128 .bf16) (harg5 : arg5.IsWhole) (arg6 : Memref sig .tc .vmem S2000x1 .f32) (harg6 : arg6.IsWhole) (arg7 : Memref sig .tc .vmem S128x2000 .f32) (harg7 : arg7.IsWhole) (hc0 : ¬cond1_0 i) (hc1 : cond1_1 i) (hc2 : cond1_2 i) (x0 : Vec F S2000x2000 .bf16) (x1 : Vec F S2000x128 .bf16) (x2 : Vec F S128x128 .f32) (x3 : Vec F S1x2000 .f32) (xs0 : Vec F S128x2000 .f32) :
    out1_C_4 c i arg1 harg1 arg2 harg2 arg3 harg3 arg4 harg4 arg5 harg5 arg6 harg6 arg7 harg7 hc0 hc1 hc2 x0 x1 x2 x3 xs0 = k1_pay6 (k1_pay5 x0 x1 x2 xs0) x3 := by
  unfold out1_C_4
  rw [View.read_writes_eq_canon _ _ _ (cover1_C_4 c i arg1 harg1 arg2 harg2 arg3 harg3 arg4 harg4 arg5 harg5 arg6 harg6 arg7 harg7 hc0 hc1 hc2 x0 x1 x2 x3 xs0)]
  unfold kernelRun1_C
  dsimp only
  sl_unfold_words
  rw [View.canon_unit_zero hz]
  simp only [View.readCov_unit_zero (S := S128x2000) _ hz, View.readCov_unit_zero (S := S2000x1) _ hz, View.readCov_unit_zero (S := S2000x128) _ hz, View.readAt_eq_ld, harg1.read_unread, harg2.read_unread, harg3.read_unread, harg4.read_unread, harg5.read_unread, harg7.read_unread, View.ld_unit_zero (S := S2000x2000) hz, View.ld_unit_zero (S := S2000x128) hz, View.ld_unit_zero (S := S128x128) hz, View.ld_unit_zero (S := S1x2000) hz, View.ld_unit_zero (S := S128x2000) hz, View.ld_unit_zero (S := S2000x1) hz]

end Cert.KernelIdeal.Hand

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.LibLaneSum.lean ====
/-
  A lane sum read at a row.

  Summing an [a, b] array over its second axis onto the zero accumulator gives an [a] vector whose entry p is, at the
  exact values, the sum over k of the entries (p, k): the index the reduction reads for row p and position k is (p, k),
  and at the exact values the reduction is the plain sum whatever its order.
-/
import Idealize.ShloMosaic.Lib.Pipeline.Value
import Idealize.ShloMosaic.Lib.ValueIdx
import Idealize.ShloMosaic.PureOps.Ideal.Laws

noncomputable section

namespace Cert.LibLaneSum

open Idealize.ShloMosaic Idealize.ShloMosaic.ValueIdx

/-- GENERAL LEMMA. The index a reduction over axis 1 of an [a, b] array reads for row `p` and position `k` is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by match ax with | ⟨0, _⟩ => rfl | ⟨1, _⟩ => rfl)

/-- GENERAL LEMMA. A float sum over axis 1 of an [a, b] array, at the exact values and onto the zero accumulator, is
    at row `p` the sum over `k` of the entries `(p, k)`. The accumulator fact is taken in the form a printed program
    carries it (the zero word equal to itself). -/
theorem sum_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.LibLaneSum

end
-- ==== Proof.IdealPayloads2.lean ====
import proofs.«114318_g79602923864256_cont_9to1_m_37_17_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«114318_g79602923864256_cont_9to1_m_37_17_alg».proof.Proof.LibBlockMatmul
import proofs.«114318_g79602923864256_cont_9to1_m_37_17_alg».proof.Proof.LibKeepdims

noncomputable section

namespace Cert.KernelIdeal.Pay

open Cert.KernelIdeal Cert.KernelIdeal.Gen Idealize.ShloMosaic Idealize.ShloMosaic.ValueIdx
open scoped BigOperators

/-- The block product of a [2000, 2000] array with a [2000, 128] array into the zero accumulator, at entry (p, d):
    the sum over the 2000 contracted positions. -/
theorem mm_AX (A : FVec Ideal S2000x2000 .bf16) (X : FVec Ideal S2000x128 .bf16) (p : Fin 2000) (d : Fin 128) :
    FloatOps.matmul dot_S2000x2000_S2000x128_S2000x128_1_0_0_1_n_n none A X
        (constant (F := Ideal) S2000x128 .f32 0x00000000#32) (ix2 p d)
      = ∑ e : Fin 2000, (A (ix2 p e) : EReal) * (X (ix2 e d) : EReal) :=
  Cert.BlockMatmul.matmul_zero_fin dot_S2000x2000_S2000x128_S2000x128_1_0_0_1_n_n rfl rfl
    (fun _ _ => rfl) (fun _ _ => rfl) (fun _ _ => rfl) (fun _ _ => rfl) none A X (ix2 p d)

/-- The product of a [2000, 128] array with a [128, 128] array into the zero accumulator, at entry (p, h):
    the sum over the 128 contracted positions. -/
theorem mm_HW (H : FVec Ideal S2000x128 .f32) (W : FVec Ideal S128x128 .f32) (p : Fin 2000) (h : Fin 128) :
    FloatOps.matmul dot_S2000x128_S128x128_S2000x128_1_0_0_1_n_n none H W
        (constant (F := Ideal) S2000x128 .f32 0x00000000#32) (ix2 p h)
      = ∑ d : Fin 128, (H (ix2 p d) : EReal) * (W (ix2 d h) : EReal) :=
  Cert.BlockMatmul.matmul_zero_fin dot_S2000x128_S128x128_S2000x128_1_0_0_1_n_n rfl rfl
    (fun _ _ => rfl) (fun _ _ => rfl) (fun _ _ => rfl) (fun _ _ => rfl) none H W (ix2 p h)

/-- The third call's stored value at (p, h): the rectified product with the weights of the root of the
    degree-normalised aggregate. -/
theorem pay2_1 (v0 : Vec Ideal S2000x2000 .bf16) (v2 : Vec Ideal S2000x128 .bf16) (v5 : Vec Ideal S2000x1 .f32)
    (v10 : Vec Ideal S128x128 .f32) (p : Fin 2000) (h : Fin 128) :
    k2_pay1 v0 v2 v5 v10 (ix2 p h)
      = max (∑ d : Fin 128, Ideal.sqrt (Ideal.div (∑ e : Fin 2000, (v0 (ix2 p e) : EReal) * (v2 (ix2 e d) : EReal))
            (v5 (ix2 p (0 : Fin 1)))) * (v10 (ix2 d h) : EReal)) (Ideal.ofBits .f32 0x00000000#32) := by
  unfold k2_pay1
  simp only [shapeCast_self]
  refine congrArg (fun x : EReal => max x (Ideal.ofBits .f32 0x00000000#32)) ?_
  refine (mm_HW _ v10 p h).trans ?_
  refine Finset.sum_congr rfl fun d _ => ?_
  refine congrArg (fun x : EReal => Ideal.sqrt x * (v10 (ix2 d h) : EReal)) ?_
  refine congr (congrArg Ideal.div (mm_AX v0 v2 p d)) ?_
  exact Cert.LibKeepdims.broadcastTo_a1_ab_apply v5 broadcasts_S2000x1_S2000x128 p d

end Cert.KernelIdeal.Pay

end
-- ==== Proof.IdealPayloads1.lean ====
import proofs.«114318_g79602923864256_cont_9to1_m_37_17_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«114318_g79602923864256_cont_9to1_m_37_17_alg».proof.Proof.LibBlockMatmul
import proofs.«114318_g79602923864256_cont_9to1_m_37_17_alg».proof.Proof.LibKeepdims
import proofs.«114318_g79602923864256_cont_9to1_m_37_17_alg».proof.Proof.LibLaneSum
import proofs.«114318_g79602923864256_cont_9to1_m_37_17_alg».proof.Proof.IdealPayloads0
import proofs.«114318_g79602923864256_cont_9to1_m_37_17_alg».proof.Proof.IdealPayloads2

noncomputable section

namespace Cert.KernelIdeal.Pay

open Cert.KernelIdeal Cert.KernelIdeal.Gen Idealize.ShloMosaic Idealize.ShloMosaic.ValueIdx
open scoped BigOperators

/-- The second call's incidence block, cast to its own shape, is the block. -/
theorem pay1_1 (v0 : Vec Ideal S2000x2000 .bf16) : k1_pay1 v0 = v0 := shapeCast_self _ _

/-- The clamped row degree at (p, 0): the larger of the zero word plus the sum of the incidence row p, and one. -/
theorem pay1_2 (v0 : Vec Ideal S2000x2000 .bf16) (p : Fin 2000) :
    k1_pay2 v0 (ix2 p (0 : Fin 1))
      = max (Ideal.ofBits .f32 0x00000000#32 + ∑ e : Fin 2000, (v0 (ix2 p e) : EReal)) (Ideal.ofBits .f32 0x3F800000#32) := by
  unfold k1_pay2
  rw [pay1_1, Ideal.ofBits_zero_f32, zero_add]
  refine congrArg (fun x : EReal => max x (Ideal.ofBits .f32 0x3F800000#32)) ?_
  refine (Cert.LibKeepdims.shapeCast_a_a1_apply _ shapeCasts_S2000_S2000x1 p (0 : Fin 1)).trans ?_
  exact Cert.LibLaneSum.sum_axis1_apply (extf .f32 v0 bitsLt_bf16_f32) reduces_S2000x2000_S2000_2 (.inl rfl) rfl p

/-- The rectified product with the weights of the root of the aggregate divided by a column of divisors, at (p, h). -/
theorem act_apply (A : FVec Ideal S2000x2000 .bf16) (X : FVec Ideal S2000x128 .bf16) (c : FVec Ideal S2000x1 .f32)
    (W : FVec Ideal S128x128 .f32) (p : Fin 2000) (h : Fin 128) :
    maximumf
        (matmul dot_S2000x128_S128x128_S2000x128_1_0_0_1_n_n none
          (sqrt (divf
            (matmul dot_S2000x2000_S2000x128_S2000x128_1_0_0_1_n_n none A X (constant (F := Ideal) S2000x128 .f32 0x00000000#32))
            (broadcastTo S2000x128 c broadcasts_S2000x1_S2000x128)))
          W (constant (F := Ideal) S2000x128 .f32 0x00000000#32))
        (broadcast S2000x128 (Scalar.ofBits (F := Ideal) .f32 0x00000000#32)) (ix2 p h)
      = max (∑ d : Fin 128, Ideal.sqrt (Ideal.div (∑ e : Fin 2000, (A (ix2 p e) : EReal) * (X (ix2 e d) : EReal))
            (c (ix2 p (0 : Fin 1)))) * (W (ix2 d h) : EReal)) (Ideal.ofBits .f32 0x00000000#32) := by
  refine congrArg (fun x : EReal => max x (Ideal.ofBits .f32 0x00000000#32)) ?_
  refine (mm_HW _ W p h).trans ?_
  refine Finset.sum_congr rfl fun d _ => ?_
  refine congrArg (fun x : EReal => Ideal.sqrt x * (W (ix2 d h) : EReal)) ?_
  refine congr (congrArg Ideal.div (mm_AX A X p d)) ?_
  exact Cert.LibKeepdims.broadcastTo_a1_ab_apply c broadcasts_S2000x1_S2000x128 p d

/-- The second call's activation at row p and feature h: the rectified product with the weights of the root of the
    aggregate over the incidence row, divided by the clamped row degree. -/
def act1 (v0 : Vec Ideal S2000x2000 .bf16) (v2 : Vec Ideal S2000x128 .bf16) (v14 : Vec Ideal S128x128 .f32)
    (p : Fin 2000) (h : Fin 128) : EReal :=
  max (∑ d : Fin 128, Ideal.sqrt (Ideal.div (∑ e : Fin 2000, (v0 (ix2 p e) : EReal) * (v2 (ix2 e d) : EReal))
        (k1_pay2 v0 (ix2 p (0 : Fin 1)))) * (v14 (ix2 d h) : EReal)) (Ideal.ofBits .f32 0x00000000#32)

/-- The second call's product at (d, e): the squared activations of the block's rows against the incidence column e. -/
theorem pay1_3 (v0 : Vec Ideal S2000x2000 .bf16) (v2 : Vec Ideal S2000x128 .bf16) (v14 : Vec Ideal S128x128 .f32)
    (d : Fin 128) (e : Fin 2000) :
    k1_pay3 v0 v2 v14 (ix2 d e)
      = ∑ r : Fin 2000, (act1 v0 v2 v14 r d * act1 v0 v2 v14 r d) * (v0 (ix2 r e) : EReal) := by
  unfold k1_pay3
  simp only [shapeCast_self, pay1_1]
  refine (mm_TA _ v0 d e).trans ?_
  refine Finset.sum_congr rfl fun r _ => ?_
  refine congrArg (fun x : EReal => x * (v0 (ix2 r e) : EReal)) ?_
  refine (truncf_apply _ bitsLt_bf16_f32 (ix2 d r)).trans ?_
  refine (transpose_ix2_apply _ transposes_S2000x128_p1_0_S128x2000 d r).trans ?_
  have hact := act_apply v0 v2 (k1_pay2 v0) v14 r d
  exact congr (congrArg (fun x y : EReal => x * y) hact) hact

/-- A cast to the same shape is the identity: the first store of the product. -/
theorem pay1_4 (v0 : Vec Ideal S2000x2000 .bf16) (v2 : Vec Ideal S2000x128 .bf16) (v14 : Vec Ideal S128x128 .f32) :
    k1_pay4 v0 v2 v14 = k1_pay3 v0 v2 v14 := shapeCast_self _ _

/-- A later grid point adds its product to the carried one. -/
theorem pay1_5 (v0 : Vec Ideal S2000x2000 .bf16) (v2 : Vec Ideal S2000x128 .bf16) (v14 : Vec Ideal S128x128 .f32)
    (v31 : Vec Ideal S128x2000 .f32) (j : S128x2000.Idx) :
    k1_pay5 v0 v2 v14 v31 j = (v31 j : EReal) + k1_pay3 v0 v2 v14 j := by
  unfold k1_pay5
  rw [shapeCast_self]
  rfl

/-- The normalised, transposed product at (e, d). -/
theorem pay1_6 (v31 : Vec Ideal S128x2000 .f32) (v32 : Vec Ideal S1x2000 .f32) (e : Fin 2000) (d : Fin 128) :
    k1_pay6 v31 v32 (ix2 e d) = Ideal.div (v31 (ix2 d e)) (v32 (ix2 (0 : Fin 1) e)) := by
  unfold k1_pay6
  rw [shapeCast_self]
  refine (truncf_apply _ bitsLt_bf16_f32 (ix2 e d)).trans ?_
  refine (transpose_ix2_apply _ transposes_S128x2000_p1_0_S2000x128 e d).trans ?_
  refine congrArg (Ideal.div (v31 (ix2 d e))) ?_
  exact broadcastTo_1b_ab_apply v32 broadcasts_S1x2000_S128x2000 d e

end Cert.KernelIdeal.Pay

end
-- ==== Proof.IdealValue1.lean ====
/-
  The second pallas_call's two result arrays, as functions of the arrays the call finds.

  Point t stages rows 2000·t … 2000·t + 1999 of the incidence, and whole: the hyperedges' means a [2000,128], the weights w
  [128,128], the hyperedge sizes g [1,2000]. For each of its nodes k the body forms the node's degree floored at one (which it
  writes back, row by row: the second result), the first layer's activation act k h = max (Σ_d sqrt ((Σ_e inc k e · a e d) /
  deg k) · w d h) 0, and adds (act k d)² · inc k e into a scratch buffer at (d,e): after point n the scratch holds the sum
  over the first (n+1)·2000 nodes. At the last point the sums run over all the nodes and the call writes them divided by the
  hyperedge sizes, transposed: the first result.
-/
import proofs.«114318_g79602923864256_cont_9to1_m_37_17_alg».proof.Proof.IdealPieces1
import proofs.«114318_g79602923864256_cont_9to1_m_37_17_alg».proof.Proof.IdealPayloads1
import proofs.«114318_g79602923864256_cont_9to1_m_37_17_alg».proof.Proof.IdealValue0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section

variable (V : (c : Dev nD) → (b : Ref sig .tc) → Buf (Elt Ideal) ((c : Thread nD τ).loc b))

theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem iblk1_0_apply (c : Dev nD) (t : Fin cfg1.N) (r : Fin 2000) (e : Fin 2000) :
    (iblk1 V c 0 t (ix2 r e) : EReal) = incN V c (t.val * 2000 + r.val) e := by
  have hN : t.val < 5 := lt_of_lt_of_eq t.isLt (show cfg1.N = 5 from N_1)
  have hk : t.val * 2000 + r.val < 10000 := by have := r.isLt; omega
  unfold incN; rw [dif_pos hk]
  show V c main_v0 (((cfg1.win 0).blk t).view.emb (ix2 r e)) = _
  obtain ⟨e00, e01, -⟩ := idx_facts1 t
  refine congrArg _ (funext fun a => Fin.ext ?_)
  match a with
  | ⟨0, _⟩ => show win1_0.index t (0 : Fin 2) * 2000 + 1 * r.val = t.val * 2000 + r.val; omega
  | ⟨1, _⟩ => show win1_0.index t (1 : Fin 2) * 2000 + 1 * e.val = e.val; omega
theorem iblk1_1_apply (c : Dev nD) (t : Fin cfg1.N) (e : Fin 2000) (d : Fin 128) :
    iblk1 V c 1 t (ix2 e d) = V c main_v1_0 (ix2 e d) := by
  show V c main_v1_0 (((cfg1.win 1).blk t).view.emb (ix2 e d)) = _
  obtain ⟨-, -, e10, e11, -⟩ := idx_facts1 t
  refine congrArg _ (funext fun a => Fin.ext ?_)
  match a with
  | ⟨0, _⟩ => show win1_1.index t (0 : Fin 2) * 2000 + 1 * e.val = e.val; omega
  | ⟨1, _⟩ => show win1_1.index t (1 : Fin 2) * 128 + 1 * d.val = d.val; omega
theorem iblk1_2_apply (c : Dev nD) (t : Fin cfg1.N) (d : Fin 128) (h : Fin 128) :
    iblk1 V c 2 t (ix2 d h) = V c main_arg2 (ix2 d h) := by
  show V c main_arg2 (((cfg1.win 2).blk t).view.emb (ix2 d h)) = _
  obtain ⟨-, -, -, -, e20, e21, -⟩ := idx_facts1 t
  refine congrArg _ (funext fun a => Fin.ext ?_)
  match a with
  | ⟨0, _⟩ => show win1_2.index t (0 : Fin 2) * 128 + 1 * d.val = d.val; omega
  | ⟨1, _⟩ => show win1_2.index t (1 : Fin 2) * 128 + 1 * h.val = h.val; omega
theorem iblk1_3_apply (c : Dev nD) (t : Fin cfg1.N) (e : Fin 2000) :
    iblk1 V c 3 t (ix2 (0 : Fin 1) e) = V c main_v1_1 (ix2 (0 : Fin 1) e) := by
  show V c main_v1_1 (((cfg1.win 3).blk t).view.emb (ix2 (0 : Fin 1) e)) = _
  obtain ⟨-, -, -, -, -, -, e30, e31, -⟩ := idx_facts1 t
  refine congrArg _ (funext fun a => Fin.ext ?_)
  match a with
  | ⟨0, _⟩ => show win1_3.index t (0 : Fin 2) * 1 + 1 * 0 = 0; omega
  | ⟨1, _⟩ => show win1_3.index t (1 : Fin 2) * 2000 + 1 * e.val = e.val; omega

/-- Node k's degree floored at one, and its first-layer activation, from the arrays the call finds. -/
def degN (c : Dev nD) (k : ℕ) : EReal :=
  max (Ideal.ofBits .f32 0x00000000#32 + ∑ e : Fin 2000, incN V c k e) (Ideal.ofBits .f32 0x3F800000#32)
def actN (c : Dev nD) (k : ℕ) (h : Fin 128) : EReal :=
  max (∑ d : Fin 128, Ideal.sqrt (Ideal.div (∑ e : Fin 2000, incN V c k e * (V c main_v1_0 (ix2 e d) : EReal)) (degN V c k)) * (V c main_arg2 (ix2 d h) : EReal)) (Ideal.ofBits .f32 0x00000000#32)

theorem deg1_apply (c : Dev nD) (t : Fin cfg1.N) (r : Fin 2000) :
    k1_pay2 (iblk1 V c 0 t) (ix2 r (0 : Fin 1)) = degN V c (t.val * 2000 + r.val) := by
  refine (Pay.pay1_2 (iblk1 V c 0 t) r).trans ?_
  unfold degN
  simp only [iblk1_0_apply]
theorem act1_apply (c : Dev nD) (t : Fin cfg1.N) (r : Fin 2000) (h : Fin 128) :
    Pay.act1 (iblk1 V c 0 t) (iblk1 V c 1 t) (iblk1 V c 2 t) r h = actN V c (t.val * 2000 + r.val) h := by
  unfold Pay.act1 actN
  rw [deg1_apply]
  simp only [iblk1_0_apply, iblk1_1_apply, iblk1_2_apply]

theorem part1_apply (c : Dev nD) (t : Fin cfg1.N) (d : Fin 128) (e : Fin 2000) :
    k1_pay3 (iblk1 V c 0 t) (iblk1 V c 1 t) (iblk1 V c 2 t) (ix2 d e)
      = ∑ k ∈ Finset.range 2000, (actN V c (t.val * 2000 + k) d * actN V c (t.val * 2000 + k) d) * incN V c (t.val * 2000 + k) e := by
  refine (Pay.pay1_3 (iblk1 V c 0 t) (iblk1 V c 1 t) (iblk1 V c 2 t) d e).trans ?_
  rw [← sum_block (fun k => (actN V c k d * actN V c k d) * incN V c k e) (t.val * 2000)]
  exact Finset.sum_congr rfl fun r _ => by rw [act1_apply, iblk1_0_apply]

/-- THE RUNNING SUM: after point n the scratch buffer holds the sum over the first (n+1)·2000 nodes. -/
theorem acc1_closed (c : Dev nD) : ∀ (n : ℕ) (hn : n < cfg1.N) (d : Fin 128) (e : Fin 2000),
    (outsAt1 V c n hn).2.2 (ix2 d e) = ∑ k ∈ Finset.range ((n + 1) * 2000), (actN V c k d * actN V c k d) * incN V c k e := by
  intro n
  induction n using Nat.strong_induction_on with
  | _ n ih =>
    intro hn d e
    have hN : n < 5 := lt_of_lt_of_eq hn (show cfg1.N = 5 from N_1)
    by_cases h0 : n = 0
    · subst h0
      have hc0 : cond1_0 (grid1.coords ⟨0, hn⟩) := (hcond1_0 ⟨0, hn⟩).mpr rfl
      have hc1 : ¬cond1_1 (grid1.coords ⟨0, hn⟩) := fun h => (hcond1_1 ⟨0, hn⟩).mp h rfl
      have hc2 : ¬cond1_2 (grid1.coords ⟨0, hn⟩) := fun h => by have := (hcond1_2 ⟨0, hn⟩).mp h; dsimp only at this; omega
      have hA := outsAt1_A V c ⟨0, hn⟩ rfl hc0 hc1 hc2
      dsimp only at hA
      rw [hA]; dsimp only
      rw [sout1_A_0_eq, Pay.pay1_4]
      refine (part1_apply V c ⟨0, hn⟩ d e).trans ?_
      simp only [Nat.zero_mul, Nat.zero_add, Nat.one_mul]
    · have hc0 : ¬cond1_0 (grid1.coords ⟨n, hn⟩) := fun h => h0 ((hcond1_0 ⟨n, hn⟩).mp h)
      have hc1 : cond1_1 (grid1.coords ⟨n, hn⟩) := (hcond1_1 ⟨n, hn⟩).mpr h0
      have ih1 := ih (n - 1) (by omega) (Nat.lt_of_le_of_lt (Nat.sub_le _ _) hn) d e
      have hstep : (n - 1 + 1) * 2000 + 2000 = (n + 1) * 2000 := by omega
      have hn1 : (n - 1 + 1) * 2000 = n * 2000 := by rw [Nat.sub_add_cancel (Nat.pos_of_ne_zero h0)]
      by_cases h2 : n = 4
      · have hc2 : cond1_2 (grid1.coords ⟨n, hn⟩) := (hcond1_2 ⟨n, hn⟩).mpr h2
        have hC := outsAt1_C V c ⟨n, hn⟩ h2 hc0 hc1 hc2
        dsimp only at hC
        rw [hC]; dsimp only
        rw [sout1_C_0_eq, Pay.pay1_5, ih1, part1_apply V c ⟨n, hn⟩ d e]
        dsimp only
        rw [← hstep, Finset.sum_range_add, hn1]
      · have hc2 : ¬cond1_2 (grid1.coords ⟨n, hn⟩) := fun h => h2 ((hcond1_2 ⟨n, hn⟩).mp h)
        have hB := outsAt1_B V c ⟨n, hn⟩ h0 h2 hc0 hc1 hc2
        dsimp only at hB
        rw [hB]; dsimp only
        rw [sout1_B_0_eq, Pay.pay1_5, ih1, part1_apply V c ⟨n, hn⟩ d e]
        dsimp only
        rw [← hstep, Finset.sum_range_add, hn1]

/-- What every point leaves for the degree column: its 2000 nodes' degrees floored at one. -/
theorem out5_eq (c : Dev nD) (t : Fin cfg1.N) : (outsAt1 V c t.val t.isLt).2.1 = k1_pay2 (iblk1 V c 0 t) := by
  have hN : t.val < 5 := lt_of_lt_of_eq t.isLt (show cfg1.N = 5 from N_1)
  by_cases h0 : t.val = 0
  · have hc0 : cond1_0 (grid1.coords t) := (hcond1_0 t).mpr h0
    have hc1 : ¬cond1_1 (grid1.coords t) := fun h => (hcond1_1 t).mp h h0
    have hc2 : ¬cond1_2 (grid1.coords t) := fun h => by have := (hcond1_2 t).mp h; omega
    rw [outsAt1_A V c t h0 hc0 hc1 hc2]; dsimp only; rw [out1_A_5_eq]
  · have hc0 : ¬cond1_0 (grid1.coords t) := fun h => h0 ((hcond1_0 t).mp h)
    have hc1 : cond1_1 (grid1.coords t) := (hcond1_1 t).mpr h0
    by_cases h2 : t.val = 4
    · have hc2 : cond1_2 (grid1.coords t) := (hcond1_2 t).mpr h2
      rw [outsAt1_C V c t h2 hc0 hc1 hc2]; dsimp only; rw [out1_C_5_eq]
    · have hc2 : ¬cond1_2 (grid1.coords t) := fun h => h2 ((hcond1_2 t).mp h)
      rw [outsAt1_B V c t h0 h2 hc0 hc1 hc2]; dsimp only; rw [out1_B_5_eq]

/-- The first result: the hyperedges' means of the squared activations. -/
def edgeMeans (c : Dev nD) : S2000x128.Idx → EReal := fun j =>
  Ideal.div (∑ v : Fin 10000, (actN V c v.val (j 1) * actN V c v.val (j 1)) * incN V c v.val (j 0)) (V c main_v1_1 (ix2 (0 : Fin 1) (j 0)))
/-- The second result: the nodes' degrees floored at one. -/
def nodeDegs (c : Dev nD) : S10000x1.Idx → EReal := fun j => degN V c (j 0).val

theorem outs1_last (c : Dev nD) (t : Fin cfg1.N) (h2 : t.val = 4) :
    (outsAt1 V c t.val t.isLt).1 = edgeMeans V c := by
  obtain ⟨n, hn⟩ := t
  dsimp only at h2; subst h2
  have hc0 : ¬cond1_0 (grid1.coords ⟨4, hn⟩) := fun h => by have := (hcond1_0 ⟨4, hn⟩).mp h; dsimp only at this; omega
  have hc1 : cond1_1 (grid1.coords ⟨4, hn⟩) := (hcond1_1 ⟨4, hn⟩).mpr (by dsimp only; omega)
  have hc2 : cond1_2 (grid1.coords ⟨4, hn⟩) := (hcond1_2 ⟨4, hn⟩).mpr rfl
  have hC := outsAt1_C V c ⟨4, hn⟩ rfl hc0 hc1 hc2
  dsimp only at hC
  have hs0 : (outsAt1 V c 4 hn).2.2 = k1_pay5 (iblk1 V c 0 ⟨4, hn⟩) (iblk1 V c 1 ⟨4, hn⟩) (iblk1 V c 2 ⟨4, hn⟩) (outsAt1 V c (4 - 1) (Nat.lt_of_le_of_lt (Nat.sub_le _ _) hn)).2.2 := by
    rw [hC]; dsimp only; rw [sout1_C_0_eq]
  have ho4 : (outsAt1 V c 4 hn).1 = k1_pay6 (outsAt1 V c 4 hn).2.2 (iblk1 V c 3 ⟨4, hn⟩) := by
    rw [hs0]; rw [hC]; dsimp only; rw [out1_C_4_eq]
  rw [ho4]; funext j
  obtain ⟨e, d, rfl⟩ : ∃ (e : Fin 2000) (d : Fin 128), j = ix2 e d := ⟨j 0, j 1, eq_ix2 j⟩
  refine (Pay.pay1_6 _ _ e d).trans ?_
  rw [acc1_closed V c 4 hn d e, iblk1_3_apply]
  unfold edgeMeans
  rw [sum_nodes]
  refine congrArg (fun s => Ideal.div s _) (Finset.sum_congr rfl fun k hk => ?_)
  have hk' : k < 10000 := Finset.mem_range.mp hk
  rw [dif_pos hk']

theorem flushed1_4_eq (c : Dev nD) (t : Fin cfg1.N) (hf : (cfg1.win 4).flush t = true) :
    (dat1 V c).flushed 4 t = ((cfg1.win 4).blk t).view.read (Elt Ideal) (edgeMeans V c) := by
  have hN : t.val < 5 := lt_of_lt_of_eq t.isLt (show cfg1.N = 5 from N_1)
  have h2 : t.val = 4 := by have := (flush1_4 t).mp hf; omega
  show (cfg1.win 4).cut (grid1.coords t) ((dat1 V c).after 4 t) = _
  rw [after1_4, outs1_last V c t h2]
  obtain ⟨-, -, -, -, -, -, -, -, e40, e41, -, -⟩ := idx_facts1 t
  funext y
  show edgeMeans V c y = edgeMeans V c (((cfg1.win 4).blk t).view.emb y)
  refine congrArg _ (funext fun a => Fin.ext ?_)
  match a with
  | ⟨0, _⟩ => show (y 0).val = win1_4.index t (0 : Fin 2) * 2000 + 1 * (y 0).val; omega
  | ⟨1, _⟩ => show (y 1).val = win1_4.index t (1 : Fin 2) * 128 + 1 * (y 1).val; omega

theorem flushed1_5_eq (c : Dev nD) (t : Fin cfg1.N) :
    (dat1 V c).flushed 5 t = ((cfg1.win 5).blk t).view.read (Elt Ideal) (nodeDegs V c) := by
  show (cfg1.win 5).cut (grid1.coords t) ((dat1 V c).after 5 t) = _
  rw [after1_5, out5_eq V c t]
  obtain ⟨-, -, -, -, -, -, -, -, -, -, e50, e51⟩ := idx_facts1 t
  funext y
  obtain ⟨r, u, rfl⟩ : ∃ (r : Fin 2000) (u : Fin 1), y = ix2 r u := ⟨y 0, y 1, eq_ix2 y⟩
  obtain rfl : u = 0 := Subsingleton.elim _ _
  refine (deg1_apply V c t r).trans ?_
  show degN V c (t.val * 2000 + r.val) = degN V c ((((cfg1.win 5).blk t).view.emb (ix2 r (0 : Fin 1))) 0).val
  refine congrArg _ ?_
  show t.val * 2000 + r.val = win1_5.index t (0 : Fin 2) * 2000 + 1 * r.val
  omega

theorem mem_blk1_4 (t : Fin cfg1.N) (i : S2000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v2_0).slice (win1_4.rect t)).set ↔ _
  rw [View.set_slice_whole, Rect.mem_set_unit]
  exact Iff.rfl
theorem mem_blk1_5 (t : Fin cfg1.N) (i : S10000x1.Idx) :
    i ∈ ((cfg1.win 5).blk t).view.set ↔ ∀ a : Fin 2, win1_5.index t a * S2000x1.size a ≤ (i a).val ∧ (i a).val < win1_5.index t a * S2000x1.size a + S2000x1.size a := by
  show i ∈ ((View.whole main_v2_1).slice (win1_5.rect t)).set ↔ _
  rw [View.set_slice_whole, Rect.mem_set_unit]
  exact Iff.rfl

theorem cover1_4 (i : S2000x128.Idx) : ∃ t : Fin cfg1.N, (cfg1.win 4).flush t = true ∧ i ∈ ((cfg1.win 4).blk t).view.set := by
  have hi0 : (i 0).val < 2000 := (i 0).isLt
  have hi1 : (i 1).val < 128 := (i 1).isLt
  refine ⟨t1_4, (flush1_4 t1_4).mpr rfl, ?_⟩
  rw [mem_blk1_4]
  obtain ⟨-, -, -, -, -, -, -, -, e40, e41, -, -⟩ := idx_facts1 t1_4
  intro a
  match a with
  | ⟨0, _⟩ => show win1_4.index t1_4 (0 : Fin 2) * 2000 ≤ (i 0).val ∧ (i 0).val < win1_4.index t1_4 (0 : Fin 2) * 2000 + 2000; omega
  | ⟨1, _⟩ => show win1_4.index t1_4 (1 : Fin 2) * 128 ≤ (i 1).val ∧ (i 1).val < win1_4.index t1_4 (1 : Fin 2) * 128 + 128; omega
theorem cover1_5 (i : S10000x1.Idx) : ∃ t : Fin cfg1.N, (cfg1.win 5).flush t = true ∧ i ∈ ((cfg1.win 5).blk t).view.set := by
  have hi0 : (i 0).val < 10000 := (i 0).isLt
  have hi1 : (i 1).val < 1 := (i 1).isLt
  refine ⟨⟨(i 0).val / 2000, by rw [show cfg1.N = 5 from N_1]; omega⟩, flush1_5 _, ?_⟩
  rw [mem_blk1_5]
  obtain ⟨-, -, -, -, -, -, -, -, -, -, e50, e51⟩ := idx_facts1 ⟨(i 0).val / 2000, by rw [show cfg1.N = 5 from N_1]; omega⟩
  intro a
  match a with
  | ⟨0, _⟩ => show win1_5.index _ (0 : Fin 2) * 2000 ≤ (i 0).val ∧ (i 0).val < win1_5.index _ (0 : Fin 2) * 2000 + 2000; dsimp only at e50; omega
  | ⟨1, _⟩ => show win1_5.index _ (1 : Fin 2) * 1 ≤ (i 1).val ∧ (i 1).val < win1_5.index _ (1 : Fin 2) * 1 + 1; omega

/-- The two result arrays after the call. -/
theorem final1_4 (c : Dev nD) : (dat1 V c).arrAt 4 cfg1.N = edgeMeans V c :=
  (dat1 V c).arrAt_eq_of_cover 4 _ (fun t hf => flushed1_4_eq V c t hf) cover1_4
theorem final1_5 (c : Dev nD) : (dat1 V c).arrAt 5 cfg1.N = nodeDegs V c :=
  (dat1 V c).arrAt_eq_of_cover 5 _ (fun t _ => flushed1_5_eq V c t) cover1_5

end

end Cert.KernelIdeal.Hand

end
-- ==== Proof.IdealValue2.lean ====
/-
  The third pallas_call's result array, as one function of the arrays the call finds.

  Point t writes back rows 2000·t … 2000·t + 1999 of the result. What the body leaves for row p of the block and column h
  is max (Σ_d sqrt ((Σ_e inc[p,e] · a[e,d]) / g[p,0]) · w[d,h]) 0 of the staged blocks; the incidence block and the degree
  column block are the same rows of their arrays, the edge array a and the weight array w are staged whole. So every block
  is the restriction of ONE function of the four arrays (node), the five blocks tile the result, and the result ends at it.
-/
import proofs.«114318_g79602923864256_cont_9to1_m_37_17_alg».proof.Proof.IdealRegion2
import proofs.«114318_g79602923864256_cont_9to1_m_37_17_alg».proof.Proof.IdealPayloads2
import proofs.«114318_g79602923864256_cont_9to1_m_37_17_alg».proof.Proof.IdealPieces0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

/-- One row-block layer's result from the incidence a0 [10000,2000], the hyperedge means a1 [2000,128], the weights a2
    [128,128] and the node degrees a3 [10000,1]. -/
def node (a0 : Vec Ideal S10000x2000 .bf16) (a1 : Vec Ideal S2000x128 .bf16) (a2 : Vec Ideal S128x128 .f32) (a3 : Vec Ideal S10000x1 .f32) :
    Vec Ideal S10000x128 .f32 :=
  fun j => max (∑ d : Fin 128, Ideal.sqrt (Ideal.div (∑ e : Fin 2000, (a0 (ix2 (j 0) e) : EReal) * (a1 (ix2 e d) : EReal)) (a3 (ix2 (j 0) (0 : Fin 1)))) * (a2 (ix2 d (j 1)) : EReal)) (Ideal.ofBits .f32 0x00000000#32)

section

variable (V : (c : Dev nD) → (b : Ref sig .tc) → Buf (Elt Ideal) ((c : Thread nD τ).loc b))

/-- The printed index maps over the grid: the incidence rows, the degree rows and the result rows move with the point;
    the edge array and the weights stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point t writes back is block t of node of the arrays the call finds. -/
theorem flushed2_4_eq (c : Dev nD) (t : Fin cfg2.N) :
    (dat2 V c).flushed 4 t = ((cfg2.win 4).blk t).view.read (Elt Ideal) (node (V c main_v0) (V c main_v2_0) (V c main_arg3) (V c main_v2_1)) := by
  show (cfg2.win 4).cut (grid2.coords t) ((dat2 V c).after 4 t) = _
  rw [after2_4]
  unfold out4
  rw [View.canon_unit_zero hz]
  simp only [View.ld_unit_zero (S := S2000x2000) hz, View.ld_unit_zero (S := S2000x128) hz, View.ld_unit_zero (S := S128x128) hz, View.ld_unit_zero (S := S2000x1) hz]
  obtain ⟨e00, e01, e10, e11, e20, e21, e30, e31, e40, e41⟩ := idx_facts2 t
  funext y
  obtain ⟨p, q, rfl⟩ : ∃ (p : Fin 2000) (q : Fin 128), y = ix2 p q := ⟨y 0, y 1, eq_ix2 y⟩
  refine (Pay.pay2_1 (iblk2 V c 0 t) (iblk2 V c 1 t) (iblk2 V c 3 t) (iblk2 V c 2 t) p q).trans ?_
  show _ = node (V c main_v0) (V c main_v2_0) (V c main_arg3) (V c main_v2_1) (((cfg2.win 4).blk t).view.emb (ix2 p q))
  unfold node
  have hN : t.val < 5 := lt_of_lt_of_eq t.isLt (show cfg2.N = 5 from N_2)
  have hr0 : ∀ e : Fin 2000, iblk2 V c 0 t (ix2 p e) = V c main_v0 (ix2 ((((cfg2.win 4).blk t).view.emb (ix2 p q)) 0) e) := fun e => by
    show V c main_v0 (((cfg2.win 0).blk t).view.emb (ix2 p e)) = _
    refine congrArg _ (funext fun a => Fin.ext ?_)
    match a with
    | ⟨0, _⟩ => show win2_0.index t (0 : Fin 2) * 2000 + 1 * p.val = win2_4.index t (0 : Fin 2) * 2000 + 1 * p.val; omega
    | ⟨1, _⟩ => show win2_0.index t (1 : Fin 2) * 2000 + 1 * e.val = e.val; omega
  have hr1 : ∀ (e : Fin 2000) (d : Fin 128), iblk2 V c 1 t (ix2 e d) = V c main_v2_0 (ix2 e d) := fun e d => by
    show V c main_v2_0 (((cfg2.win 1).blk t).view.emb (ix2 e d)) = _
    refine congrArg _ (funext fun a => Fin.ext ?_)
    match a with
    | ⟨0, _⟩ => show win2_1.index t (0 : Fin 2) * 2000 + 1 * e.val = e.val; omega
    | ⟨1, _⟩ => show win2_1.index t (1 : Fin 2) * 128 + 1 * d.val = d.val; omega
  have hr2 : ∀ (d : Fin 128), iblk2 V c 2 t (ix2 d q) = V c main_arg3 (ix2 d ((((cfg2.win 4).blk t).view.emb (ix2 p q)) 1)) := fun d => by
    show V c main_arg3 (((cfg2.win 2).blk t).view.emb (ix2 d q)) = _
    refine congrArg _ (funext fun a => Fin.ext ?_)
    match a with
    | ⟨0, _⟩ => show win2_2.index t (0 : Fin 2) * 128 + 1 * d.val = d.val; omega
    | ⟨1, _⟩ => show win2_2.index t (1 : Fin 2) * 128 + 1 * q.val = win2_4.index t (1 : Fin 2) * 128 + 1 * q.val; omega
  have hr3 : iblk2 V c 3 t (ix2 p (0 : Fin 1)) = V c main_v2_1 (ix2 ((((cfg2.win 4).blk t).view.emb (ix2 p q)) 0) (0 : Fin 1)) := by
    show V c main_v2_1 (((cfg2.win 3).blk t).view.emb (ix2 p (0 : Fin 1))) = _
    refine congrArg _ (funext fun a => Fin.ext ?_)
    match a with
    | ⟨0, _⟩ => show win2_3.index t (0 : Fin 2) * 2000 + 1 * p.val = win2_4.index t (0 : Fin 2) * 2000 + 1 * p.val; omega
    | ⟨1, _⟩ => show win2_3.index t (1 : Fin 2) * 1 + 1 * 0 = 0; omega
  simp only [hr0, hr1, hr2, hr3]

/-- An index of the result is in point t's block iff its row is among the block's rows. -/
theorem mem_blk2_4 (t : Fin cfg2.N) (i : S10000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v3).slice (win2_4.rect t)).set ↔ _
  rw [View.set_slice_whole, Rect.mem_set_unit]
  exact Iff.rfl

/-- The five row blocks cover the result. -/
theorem cover2_4 (i : S10000x128.Idx) : ∃ t : Fin cfg2.N, (cfg2.win 4).flush t = true ∧ i ∈ ((cfg2.win 4).blk t).view.set := by
  have hi0 : (i 0).val < 10000 := (i 0).isLt
  have hi1 : (i 1).val < 128 := (i 1).isLt
  refine ⟨⟨(i 0).val / 2000, by rw [show cfg2.N = 5 from N_2]; omega⟩, flush2_4 _, ?_⟩
  rw [mem_blk2_4]
  obtain ⟨e00, e01, e10, e11, e20, e21, e30, e31, e40, e41⟩ := idx_facts2 ⟨(i 0).val / 2000, by rw [show cfg2.N = 5 from N_2]; omega⟩
  intro a
  match a with
  | ⟨0, _⟩ => show win2_4.index _ (0 : Fin 2) * 2000 ≤ (i 0).val ∧ (i 0).val < win2_4.index _ (0 : Fin 2) * 2000 + 2000; dsimp only at e40; omega
  | ⟨1, _⟩ => show win2_4.index _ (1 : Fin 2) * 128 ≤ (i 1).val ∧ (i 1).val < win2_4.index _ (1 : Fin 2) * 128 + 128; omega

/-- The result array after the call. -/
theorem final2_4 (c : Dev nD) :
    (dat2 V c).arrAt 4 cfg2.N = node (V c main_v0) (V c main_v2_0) (V c main_arg3) (V c main_v2_1) :=
  (dat2 V c).arrAt_eq_of_cover 4 _ (fun t _ => flushed2_4_eq V c t) cover2_4

end

end Cert.KernelIdeal.Hand

end
-- ==== Proof.IdealAssembly.lean ====
/-
  The kernel's result as the two-layer network of its four arguments.

  The cast of the incidence array changes no value at the exact reading. The first pallas_call leaves the hyperedges' means
  of the squared features and the hyperedge sizes; the second reads them and leaves, for the first layer's activations
  (never stored as an array: formed row block by row block inside the call), the hyperedges' means of their squares, and
  the node degrees; the third reads those and leaves the second layer's activations. Chaining the three calls' result
  arrays through the buffers each call finds, the result buffer ends at Spec.result of the four arguments.
-/
import proofs.«114318_g79602923864256_cont_9to1_m_37_17_alg».proof.Proof.IdealRun
import proofs.«114318_g79602923864256_cont_9to1_m_37_17_alg».proof.Proof.IdealValue0
import proofs.«114318_g79602923864256_cont_9to1_m_37_17_alg».proof.Proof.IdealValue1
import proofs.«114318_g79602923864256_cont_9to1_m_37_17_alg».proof.Proof.IdealValue2
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The four arguments, curried. -/
def incA (c : Dev nD) : Fin 10000 → Fin 2000 → EReal := fun v e => (m ((c : Thread nD τ).loc main_arg1) (ix2 v e) : EReal)
def featA (c : Dev nD) : Fin 10000 → Fin 128 → EReal := fun v d => (m ((c : Thread nD τ).loc main_arg0) (ix2 v d) : EReal)
def w1A (c : Dev nD) : Fin 128 → Fin 128 → EReal := fun d h => (m ((c : Thread nD τ).loc main_arg2) (ix2 d h) : EReal)
def w2A (c : Dev nD) : Fin 128 → Fin 128 → EReal := fun d h => (m ((c : Thread nD τ).loc main_arg3) (ix2 d h) : EReal)

/-! ## The buffers each call finds -/

/-- The cast incidence array is the incidence argument, value by value. -/
theorem W1_v0 (c : Dev nD) (i : S10000x2000.Idx) :
    (W1 m ρ c (Proc.devRef .tc main_v0) i : EReal) = (m ((c : Thread nD τ).loc main_arg1) i : EReal) := by
  have e : StableHlo.after hostOps0 (W0 m ρ c) (Proc.devRef .tc main_v0)
      = truncf (F := Ideal) (s := S10000x2000) (φ := .f32) .bf16 (m ((c : Thread nD τ).loc main_arg1)) bitsLt_bf16_f32 := by
    dsimp only [hostOps0]; after_results
  show (StableHlo.after hostOps0 (W0 m ρ c) (Proc.devRef .tc main_v0) i : EReal) = _
  rw [e]; rfl

theorem incC_V1 (c : Dev nD) : incC (V1 m ρ) c = incA m c := funext fun v => funext fun e => W1_v0 m ρ c (ix2 v e)
theorem featC_V1 (c : Dev nD) : featC (V1 m ρ) c = featA m c := funext fun v => funext fun d => by
  show (W1 m ρ c (Proc.devRef .tc main_arg0) (ix2 v d) : EReal) = _
  rw [W1_keeps m ρ c main_arg0 (by decide)]; rfl

theorem V2_v0 (c : Dev nD) : V2 m ρ c main_v0 = V1 m ρ c main_v0 :=
  (W2_arr m ρ c 1).trans (((dat0 (V1 m ρ) c).arrAt_in 1 rfl _).trans (A_eq0 (V1 m ρ) c 1))
theorem V2_v1_0 (c : Dev nD) : V2 m ρ c main_v1_0 = (fun j : S2000x128.Idx => Cert.Spec.msq (incA m c) (featA m c) (j 0) (j 1)) :=
  (W2_arr m ρ c 2).trans ((final0_2 (V1 m ρ) c).trans (by rw [incC_V1, featC_V1]))
theorem V2_v1_1 (c : Dev nD) : V2 m ρ c main_v1_1 = (fun j : S1x2000.Idx => Cert.Spec.degE (incA m c) (j 1)) :=
  (W2_arr m ρ c 3).trans ((final0_3 (V1 m ρ) c).trans (by rw [incC_V1]))
theorem V2_arg2 (c : Dev nD) (i : S128x128.Idx) : (V2 m ρ c main_arg2 i : EReal) = (m ((c : Thread nD τ).loc main_arg2) i : EReal) := by
  show (W2 m ρ c (Proc.devRef .tc main_arg2) i : EReal) = _
  rw [W2_of_ne m ρ c main_arg2 (by decide), W1_keeps m ρ c main_arg2 (by decide)]

theorem incN_V2 (c : Dev nD) (v : Fin 10000) (e : Fin 2000) : incN (V2 m ρ) c v.val e = incA m c v e := by
  unfold incN; rw [dif_pos v.isLt]
  show (V2 m ρ c main_v0 (ix2 v e) : EReal) = _
  rw [V2_v0]; exact W1_v0 m ρ c (ix2 v e)

theorem zero_word : Ideal.ofBits .f32 0x00000000#32 = (0 : EReal) := LibGenMean.zero_bits.trans EReal.coe_zero

/-- The degrees and the first layer's activations the second call forms are the network's. -/
theorem degN_V2 (c : Dev nD) (v : Fin 10000) : degN (V2 m ρ) c v.val = Cert.Spec.degV (incA m c) v := by
  unfold degN Cert.Spec.degV
  rw [zero_word, one_word, zero_add]
  exact congrArg (fun s => max s 1) (Finset.sum_congr rfl fun e _ => incN_V2 m ρ c v e)
theorem actN_V2 (c : Dev nD) (v : Fin 10000) (h : Fin 128) :
    actN (V2 m ρ) c v.val h = Cert.Spec.layer (incA m c) (featA m c) (w1A m c) v h := by
  unfold actN Cert.Spec.layer Cert.Spec.inter
  rw [zero_word, degN_V2]
  refine congrArg (fun s => max s 0) (Finset.sum_congr rfl fun d _ => ?_)
  rw [V2_arg2]
  refine congrArg (fun s => Ideal.sqrt (Ideal.div s _) * _) (Finset.sum_congr rfl fun e _ => ?_)
  rw [incN_V2, V2_v1_0]

theorem V3_v0 (c : Dev nD) : V3 m ρ c main_v0 = V2 m ρ c main_v0 :=
  (W3_arr m ρ c 0).trans (((dat1 (V2 m ρ) c).arrAt_in 0 rfl _).trans (A_eq1 (V2 m ρ) c 0))
theorem V3_v2_0 (c : Dev nD) : V3 m ρ c main_v2_0 = edgeMeans (V2 m ρ) c :=
  (W3_arr m ρ c 4).trans (final1_4 (V2 m ρ) c)
theorem V3_v2_1 (c : Dev nD) : V3 m ρ c main_v2_1 = nodeDegs (V2 m ρ) c :=
  (W3_arr m ρ c 5).trans (final1_5 (V2 m ρ) c)
theorem V3_arg3 (c : Dev nD) (i : S128x128.Idx) : (V3 m ρ c main_arg3 i : EReal) = (m ((c : Thread nD τ).loc main_arg3) i : EReal) := by
  show (W3 m ρ c (Proc.devRef .tc main_arg3) i : EReal) = _
  rw [W3_of_ne m ρ c main_arg3 (by decide), W2_of_ne m ρ c main_arg3 (by decide), W1_keeps m ρ c main_arg3 (by decide)]

/-- The second call's first result is the hyperedges' means of the squared first-layer activations. -/
theorem edgeMeans_V2 (c : Dev nD) (e : Fin 2000) (d : Fin 128) :
    edgeMeans (V2 m ρ) c (ix2 e d) = Cert.Spec.msq (incA m c) (Cert.Spec.layer (incA m c) (featA m c) (w1A m c)) e d := by
  unfold edgeMeans Cert.Spec.msq
  rw [V2_v1_1]
  refine congrArg (fun s => Ideal.div s _) (Finset.sum_congr rfl fun v _ => ?_)
  show (actN (V2 m ρ) c v.val d * actN (V2 m ρ) c v.val d) * incN (V2 m ρ) c v.val e = _
  rw [actN_V2, incN_V2]

/-! ## The result -/

/-- The third call's function read through curried arrays. -/
theorem node_eq (a0 : Vec Ideal S10000x2000 .bf16) (a1 : Vec Ideal S2000x128 .bf16) (a2 : Vec Ideal S128x128 .f32) (a3 : Vec Ideal S10000x1 .f32)
    (inc : Fin 10000 → Fin 2000 → EReal) (q : Fin 2000 → Fin 128 → EReal) (w : Fin 128 → Fin 128 → EReal) (g : Fin 10000 → EReal)
    (h0 : ∀ v e, (a0 (ix2 v e) : EReal) = inc v e) (h1 : ∀ e d, (a1 (ix2 e d) : EReal) = q e d)
    (h2 : ∀ d h, (a2 (ix2 d h) : EReal) = w d h) (h3 : ∀ v, (a3 (ix2 v (0 : Fin 1)) : EReal) = g v) (j : S10000x128.Idx) :
    node a0 a1 a2 a3 j = max (∑ d : Fin 128, Ideal.sqrt (Ideal.div (∑ e : Fin 2000, inc (j 0) e * q e d) (g (j 0))) * w d (j 1)) 0 := by
  unfold node
  rw [zero_word]
  refine congrArg (fun s => max s 0) (Finset.sum_congr rfl fun d _ => ?_)
  refine congr (congrArg HMul.hMul ?_) (h2 d (j 1))
  refine congrArg Ideal.sqrt (congr (congrArg Ideal.div (Finset.sum_congr rfl fun e _ => ?_)) (h3 (j 0)))
  exact congr (congrArg HMul.hMul (h0 (j 0) e)) (h1 e d)

/-- THE KERNEL'S VALUE: the result buffer after the run is the two-layer network of the four arguments. -/
theorem kernel_value (c : Dev nD) :
    (dat2 (V3 m ρ) c).arrAt 4 cfg2.N = (fun j : S10000x128.Idx => Cert.Spec.result (incA m c) (featA m c) (w1A m c) (w2A m c) (j 0) (j 1)) := by
  rw [final2_4]
  funext j
  refine (node_eq (V3 m ρ c main_v0) (V3 m ρ c main_v2_0) (V3 m ρ c main_arg3) (V3 m ρ c main_v2_1)
    (incA m c) (Cert.Spec.msq (incA m c) (Cert.Spec.layer (incA m c) (featA m c) (w1A m c))) (w2A m c) (Cert.Spec.degV (incA m c))
    (fun v e => ?_) (fun e d => ?_) (fun d h => ?_) (fun v => ?_) j).trans ?_
  · rw [V3_v0, V2_v0]; exact W1_v0 m ρ c (ix2 v e)
  · rw [V3_v2_0]; exact edgeMeans_V2 m ρ c e d
  · exact V3_arg3 m ρ c (ix2 d h)
  · rw [V3_v2_1]; exact degN_V2 m ρ c v
  · rfl

/-- The kernel's run with its result named. -/
theorem kernel_run : θ_run defs (onTc (τ := τ) (main (F := Ideal))) ⟨m, fun _ => 0, ρ⟩ (fun r => ∀ c : Dev nD,
      r.2.mem ((c.tc : Thread nD τ).loc main_v3) = (fun j : S10000x128.Idx => Cert.Spec.result (incA m c) (featA m c) (w1A m c) (w2A m c) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (kernel_value m ρ c), (h c).2⟩) (run_result m ρ)

end Cert.KernelIdeal.Hand

end
-- ==== Proof.SpecLaw.lean ====
/-
  The two spellings of the hypergraph layer agree on non-negative real incidences and real features.

  Take an incidence whose every entry is a non-negative real, and features and weights whose every entry is a real.
  Then every sum in the layer is a sum of reals, the sizes floored at one are positive reals, and the hyperedge sum
  Σ_v inc v e · (x v d)² is non-negative. On such values

      (x v d)^2 = x v d · x v d,      ((s/g)^(1/2))^2 = s/g,      (s/g)^(1/2) = sqrt (s/g)

  so the root-and-square spelling rlayer equals the kept-square spelling layer, entry by entry. Every entry of the
  layer is again a real (a maximum of a finite sum of products of reals with zero), so the law applies to the second
  layer as well, whose features are the first layer's outputs: rresult = result.

  Method: name the real witnesses, rewrite each argument as the coercion of a real family, push the coercion out of
  the sums, products, maxima and quotients, and compute in the reals.
-/
import proofs.«114318_g79602923864256_cont_9to1_m_37_17_alg».proof.Proof.Spec
import proofs.«114318_g79602923864256_cont_9to1_m_37_17_alg».proof.Proof.LibReals
import proofs.«114318_g79602923864256_cont_9to1_m_37_17_alg».proof.Proof.LibGenMean

noncomputable section

namespace Cert.SpecLaw

open Idealize.ShloMosaic Cert.LibReals Cert.LibGenMean Cert.Spec

variable {n ne dd dh : ℕ}

/-- x is a non-negative real number. -/
def IsNN (x : EReal) : Prop := ∃ a : ℝ, 0 ≤ a ∧ x = (a : EReal)

theorem IsNN.isR {x : EReal} (h : IsNN x) : IsR x := let ⟨a, _, e⟩ := h; ⟨a, e⟩

/-- The hyperedge size floored at one, of a real incidence, is the coercion of the real floored sum. -/
theorem degE_coe (A : Fin n → Fin ne → ℝ) (e : Fin ne) :
    degE (fun v e => ((A v e : ℝ) : EReal)) e = ((max (∑ v, A v e) 1 : ℝ) : EReal) := by
  unfold degE
  rw [← coe_sum, ← EReal.coe_one, ← coe_max]

/-- The node degree floored at one, of a real incidence, is the coercion of the real floored sum. -/
theorem degV_coe (A : Fin n → Fin ne → ℝ) (v : Fin n) :
    degV (fun v e => ((A v e : ℝ) : EReal)) v = ((max (∑ e, A v e) 1 : ℝ) : EReal) := by
  unfold degV
  rw [← coe_sum, ← EReal.coe_one, ← coe_max]

/-- The real mean of squares over a hyperedge. -/
def rmsq (A : Fin n → Fin ne → ℝ) (X : Fin n → Fin dd → ℝ) (e : Fin ne) (d : Fin dd) : ℝ :=
  (∑ v, A v e * (X v d * X v d)) / max (∑ v, A v e) 1

theorem rmsq_nonneg (A : Fin n → Fin ne → ℝ) (hA : ∀ v e, 0 ≤ A v e) (X : Fin n → Fin dd → ℝ) (e : Fin ne) (d : Fin dd) :
    0 ≤ rmsq A X e d :=
  div_nonneg (sum_mul_sq_nonneg (fun v => A v e) (fun v => X v d) fun v => hA v e) (floor_one_pos _).le

/-- The kept mean of squares of real arguments is the coercion of the real mean of squares. -/
theorem msq_coe (A : Fin n → Fin ne → ℝ) (X : Fin n → Fin dd → ℝ) (e : Fin ne) (d : Fin dd) :
    msq (fun v e => ((A v e : ℝ) : EReal)) (fun v d => ((X v d : ℝ) : EReal)) e d = ((rmsq A X e d : ℝ) : EReal) := by
  unfold msq rmsq
  rw [degE_coe]
  have h : (∑ v : Fin n, ((X v d : ℝ) : EReal) * ((X v d : ℝ) : EReal) * ((A v e : ℝ) : EReal))
      = ((∑ v, A v e * (X v d * X v d) : ℝ) : EReal) := by
    rw [coe_sum]
    refine Finset.sum_congr rfl fun v _ => ?_
    rw [← EReal.coe_mul, ← EReal.coe_mul, mul_comm]
  rw [h, div_coe_coe _ (floor_one_pos _).ne']

/-- The hyperedge's root, squared again, is the kept mean of squares. -/
theorem rintra_sq (A : Fin n → Fin ne → ℝ) (hA : ∀ v e, 0 ≤ A v e) (X : Fin n → Fin dd → ℝ) (e : Fin ne) (d : Fin dd) :
    Ideal.pow (rintra (fun v e => ((A v e : ℝ) : EReal)) (fun v d => ((X v d : ℝ) : EReal)) e d) ((2 : ℝ) : EReal)
      = ((rmsq A X e d : ℝ) : EReal) := by
  unfold rintra rmsq
  rw [degE_coe]
  have h : (∑ v : Fin n, ((A v e : ℝ) : EReal) * Ideal.pow ((X v d : ℝ) : EReal) ((2 : ℝ) : EReal))
      = ((∑ v, A v e * (X v d * X v d) : ℝ) : EReal) := by
    rw [coe_sum]
    refine Finset.sum_congr rfl fun v _ => ?_
    rw [pow_two, ← EReal.coe_mul]
  rw [h, root_sq (sum_mul_sq_nonneg (fun v => A v e) (fun v => X v d) fun v => hA v e) (floor_one_pos _),
    div_coe_coe _ (floor_one_pos _).ne']

/-- The real mean over a node's hyperedges of the hyperedges' means of squares. -/
def rnode (A : Fin n → Fin ne → ℝ) (X : Fin n → Fin dd → ℝ) (v : Fin n) (d : Fin dd) : ℝ :=
  (∑ e, A v e * rmsq A X e d) / max (∑ e, A v e) 1

theorem rnode_nonneg (A : Fin n → Fin ne → ℝ) (hA : ∀ v e, 0 ≤ A v e) (X : Fin n → Fin dd → ℝ) (v : Fin n) (d : Fin dd) :
    0 ≤ rnode A X v d :=
  div_nonneg (Finset.sum_nonneg fun e _ => mul_nonneg (hA v e) (rmsq_nonneg A hA X e d)) (floor_one_pos _).le

/-- The kept-square node value of real arguments is the coercion of a real square root. -/
theorem inter_coe (A : Fin n → Fin ne → ℝ) (hA : ∀ v e, 0 ≤ A v e) (X : Fin n → Fin dd → ℝ) (v : Fin n) (d : Fin dd) :
    inter (fun v e => ((A v e : ℝ) : EReal)) (fun v d => ((X v d : ℝ) : EReal)) v d
      = ((Real.sqrt (rnode A X v d) : ℝ) : EReal) := by
  unfold inter rnode
  rw [degV_coe]
  have h : (∑ e : Fin ne, ((A v e : ℝ) : EReal)
        * msq (fun v e => ((A v e : ℝ) : EReal)) (fun v d => ((X v d : ℝ) : EReal)) e d)
      = ((∑ e, A v e * rmsq A X e d : ℝ) : EReal) := by
    rw [coe_sum]
    refine Finset.sum_congr rfl fun e _ => ?_
    rw [msq_coe, ← EReal.coe_mul]
  rw [h, div_coe_coe _ (floor_one_pos _).ne']
  exact sqrt_coe_of_nonneg (rnode_nonneg A hA X v d)

/-- The root-and-square node value of real arguments is the same real square root. -/
theorem rinter_coe (A : Fin n → Fin ne → ℝ) (hA : ∀ v e, 0 ≤ A v e) (X : Fin n → Fin dd → ℝ) (v : Fin n) (d : Fin dd) :
    rinter (fun v e => ((A v e : ℝ) : EReal)) (fun v d => ((X v d : ℝ) : EReal)) v d
      = ((Real.sqrt (rnode A X v d) : ℝ) : EReal) := by
  unfold rinter rnode
  rw [degV_coe]
  have h : (∑ e : Fin ne, ((A v e : ℝ) : EReal)
        * Ideal.pow (rintra (fun v e => ((A v e : ℝ) : EReal)) (fun v d => ((X v d : ℝ) : EReal)) e d) ((2 : ℝ) : EReal))
      = ((∑ e, A v e * rmsq A X e d : ℝ) : EReal) := by
    rw [coe_sum]
    refine Finset.sum_congr rfl fun e _ => ?_
    rw [rintra_sq A hA, ← EReal.coe_mul]
  rw [h, div_coe_coe _ (floor_one_pos _).ne']
  exact pow_half (rnode_nonneg A hA X v d)

/-- Name the real witnesses of a family of non-negative reals. -/
theorem exists_nn_family {α β : Type} (f : α → β → EReal) (h : ∀ a b, ∃ r : ℝ, 0 ≤ r ∧ f a b = (r : EReal)) :
    ∃ A : α → β → ℝ, (∀ a b, 0 ≤ A a b) ∧ f = fun a b => ((A a b : ℝ) : EReal) := by
  choose A hA0 hA using h
  exact ⟨A, hA0, funext fun a => funext fun b => hA a b⟩

/-- Name the real witnesses of a family of reals. -/
theorem exists_real_family {α β : Type} (f : α → β → EReal) (h : ∀ a b, IsR (f a b)) :
    ∃ X : α → β → ℝ, f = fun a b => ((X a b : ℝ) : EReal) := by
  choose X hX using h
  exact ⟨X, funext fun a => funext fun b => hX a b⟩

/-- The node values of the two spellings agree. -/
theorem rinter_eq_inter (inc : Fin n → Fin ne → EReal) (x : Fin n → Fin dd → EReal)
    (hinc : ∀ v e, ∃ a : ℝ, 0 ≤ a ∧ inc v e = (a : EReal)) (hx : ∀ v d, IsR (x v d)) (v : Fin n) (d : Fin dd) :
    rinter inc x v d = inter inc x v d := by
  obtain ⟨A, hA, rfl⟩ := exists_nn_family inc hinc
  obtain ⟨X, rfl⟩ := exists_real_family x hx
  rw [rinter_coe A hA, inter_coe A hA]

/-- The node values are reals. -/
theorem isR_inter (inc : Fin n → Fin ne → EReal) (x : Fin n → Fin dd → EReal)
    (hinc : ∀ v e, ∃ a : ℝ, 0 ≤ a ∧ inc v e = (a : EReal)) (hx : ∀ v d, IsR (x v d)) (v : Fin n) (d : Fin dd) :
    IsR (inter inc x v d) := by
  obtain ⟨A, hA, rfl⟩ := exists_nn_family inc hinc
  obtain ⟨X, rfl⟩ := exists_real_family x hx
  exact ⟨_, inter_coe A hA X v d⟩

/-- One layer: the root-and-square spelling equals the kept-square spelling. -/
theorem rlayer_eq_layer (inc : Fin n → Fin ne → EReal) (x : Fin n → Fin dd → EReal) (W : Fin dd → Fin dh → EReal)
    (hinc : ∀ v e, ∃ a : ℝ, 0 ≤ a ∧ inc v e = (a : EReal)) (hx : ∀ v d, IsR (x v d)) :
    rlayer inc x W = layer inc x W := by
  funext v h
  unfold rlayer layer
  exact congrArg (fun s => max s 0) (Finset.sum_congr rfl fun d _ => by rw [rinter_eq_inter inc x hinc hx])

/-- Every entry of a layer of real arguments is a real. -/
theorem isR_layer (inc : Fin n → Fin ne → EReal) (x : Fin n → Fin dd → EReal) (W : Fin dd → Fin dh → EReal)
    (hinc : ∀ v e, ∃ a : ℝ, 0 ≤ a ∧ inc v e = (a : EReal)) (hx : ∀ v d, IsR (x v d)) (hW : ∀ d h, IsR (W d h))
    (v : Fin n) (h : Fin dh) : IsR (layer inc x W v h) := by
  unfold layer
  exact isR_max (isR_sum _ fun d => isR_mul (isR_inter inc x hinc hx v d) (hW d h)) isR_zero

/-- The two-layer network: the root-and-square spelling equals the kept-square spelling. -/
theorem rresult_eq_result (inc : Fin n → Fin ne → EReal) (x : Fin n → Fin dd → EReal)
    (W1 : Fin dd → Fin dh → EReal) (W2 : Fin dh → Fin dh → EReal)
    (hinc : ∀ v e, ∃ a : ℝ, 0 ≤ a ∧ inc v e = (a : EReal)) (hx : ∀ v d, IsR (x v d)) (hW1 : ∀ d h, IsR (W1 d h)) :
    rresult inc x W1 W2 = result inc x W1 W2 := by
  unfold rresult result
  rw [rlayer_eq_layer inc x W1 hinc hx]
  exact rlayer_eq_layer inc (layer inc x W1) W2 hinc (isR_layer inc x W1 hinc hx hW1)

end Cert.SpecLaw

end
-- ==== Proof.LibFiniteEntry.lean ====
/-
  GENERAL LEMMAS. From "the absolute value is below +∞" to "is a real", one entry at a time.

  A finiteness precondition compares, entry by entry, the absolute value of a float array with the splat of the
  word of +∞ and asks every answer to be 1. At the exact values the absolute value is `max x (-x)`, the word
  `0x7F800000` is `⊤`, and an ordered "less than" answers 1 only when it holds; an extended real with
  `max x (-x) < ⊤` is neither infinity, so it is a real. Generic in the array's shape.
-/
import proofs.«114318_g79602923864256_cont_9to1_m_37_17_alg».proof.Proof.LibReals
import Idealize.ShloMosaic.Lib.ValueIdx
import Idealize.ShloMosaic.Lib.Pipeline.Value
import Idealize.ShloMosaic.PureOps.Ideal.Laws

noncomputable section

namespace Cert.LibFiniteEntry

open Idealize.ShloMosaic Cert.LibReals

/-- GENERAL LEMMA. The f32 word of +∞ is `⊤`. -/
theorem inf_word : Ideal.ofBits .f32 0x7F800000#32 = ⊤ := by simp [Ideal.ofBits, Ideal.ieee]

/-- GENERAL LEMMA. An extended real whose absolute value is below +∞ is a real. -/
theorem isR_of_abs_lt_top {x : EReal} (h : max x (-x) < ⊤) : IsR x := by
  induction x using EReal.rec with
  | bot => simp at h
  | top => simp at h
  | coe r => exact ⟨r, rfl⟩

/-- GENERAL LEMMA. An ordered "less than" that answers 1 holds. -/
theorem lt_of_cmp_olt {a b : EReal} (h : Ideal.cmp .olt a b = 1#1) : a < b := by
  by_contra hn
  have h0 : Ideal.cmp .olt a b = 0#1 := by
    show BitVec.ofBool (decide (a < b)) = 0#1
    rw [decide_eq_false hn]; rfl
  rw [h0] at h
  exact absurd h (by decide)

/-- GENERAL LEMMA. One entry of an array of any shape `s`: when the comparison of its absolute value (the host's
    `abs`) with the scalar word of +∞ broadcast to `s` answers 1 there, the entry is a real. -/
theorem entry_isR {s : Shape} (x : FVec Ideal s .f32)
    (hb : (⟨0, ![]⟩ : Shape).BroadcastsInDim s (![] : Fin 0 → Fin s.rank)) (i : s.Idx)
    (h : cmpf .olt (Host.absf x)
      (broadcastInDim s ![] hb (constant (F := Ideal) (⟨0, ![]⟩ : Shape) .f32 0x7F800000#32)) i = 1#1) :
    IsR (x i) := by
  have hb' : broadcastInDim s ![] hb (constant (F := Ideal) (⟨0, ![]⟩ : Shape) .f32 0x7F800000#32) i = (⊤ : EReal) :=
    (broadcastInDim_apply _ hb _ i (fun a => a.elim0) (fun a => a.elim0)).trans inf_word
  have h' : Ideal.cmp .olt (max (x i) (-(x i)))
      (broadcastInDim s ![] hb (constant (F := Ideal) (⟨0, ![]⟩ : Shape) .f32 0x7F800000#32) i) = 1#1 := h
  rw [hb'] at h'
  exact isR_of_abs_lt_top (lt_of_cmp_olt h')

end Cert.LibFiniteEntry

end
-- ==== Proof.PreSide.lean ====
/-
  From the finiteness precondition to real entries, and a non-negative incidence.

  The precondition is a conjunction of five tests, each "every entry passes" (a reduction by "and" over all axes,
  asked to be 1): the absolute value of every entry of the features, of the incidence and of the two weight
  matrices is below +∞, and every entry of the incidence is at least 0. At the exact values an entry whose
  absolute value is below +∞ is a real number, and a real number that is at least 0 is a non-negative real.
-/
import proofs.«114318_g79602923864256_cont_9to1_m_37_17_alg».proof.Pre_finite_inputs
import proofs.«114318_g79602923864256_cont_9to1_m_37_17_alg».proof.Proof.LibReals
import proofs.«114318_g79602923864256_cont_9to1_m_37_17_alg».proof.Proof.LibFiniteEntry
import Idealize.ShloMosaic.Lib.ReduceAll
import Idealize.ShloMosaic.Lib.Affine

noncomputable section

namespace Cert.PreSide

open Idealize.ShloMosaic Cert.LibReals Cert.LibFiniteEntry Cert.Pre_finite_inputs

/-- The scalar shape has one index. -/
instance : Subsingleton S_.Idx := ⟨fun a b => funext fun d => d.elim0⟩

/-- An ordered "at least" that answers 1 holds. -/
theorem le_of_cmp_oge {a b : EReal} (h : Ideal.cmp .oge a b = 1#1) : b ≤ a := by
  by_contra hn
  have h0 : Ideal.cmp .oge a b = 0#1 := by
    show BitVec.ofBool (decide (b ≤ a)) = 0#1
    rw [decide_eq_false hn]; rfl
  rw [h0] at h
  exact absurd h (by decide)

/-- One entry of an array of any shape: when its comparison "at least" with the scalar word of 0 broadcast to the
    shape answers 1 there, the entry is at least 0. -/
theorem entry_nonneg {s : Shape} (x : FVec Ideal s .f32)
    (hb : (⟨0, ![]⟩ : Shape).BroadcastsInDim s (![] : Fin 0 → Fin s.rank)) (i : s.Idx)
    (h : cmpf .oge x (broadcastInDim s ![] hb (constant (F := Ideal) (⟨0, ![]⟩ : Shape) .f32 0x00000000#32)) i = 1#1) :
    0 ≤ x i := by
  have hb' : broadcastInDim s ![] hb (constant (F := Ideal) (⟨0, ![]⟩ : Shape) .f32 0x00000000#32) i = (0 : EReal) :=
    (broadcastInDim_apply _ hb _ i (fun a => a.elim0) (fun a => a.elim0)).trans Ideal.ofBits_zero_f32
  have h' : Ideal.cmp .oge (x i)
      (broadcastInDim s ![] hb (constant (F := Ideal) (⟨0, ![]⟩ : Shape) .f32 0x00000000#32) i) = 1#1 := h
  rw [hb'] at h'
  exact le_of_cmp_oge h'

/-- A real that is at least 0 is a non-negative real. -/
theorem nn_of_isR_of_nonneg {x : EReal} (hx : IsR x) (h0 : 0 ≤ x) : ∃ a : ℝ, 0 ≤ a ∧ x = (a : EReal) := by
  obtain ⟨a, rfl⟩ := hx
  exact ⟨a, EReal.coe_nonneg.1 h0, rfl⟩

variable [Facts]

/-- What the precondition says of the four arrays, entry by entry. -/
theorem entries (a0 : FVec Ideal S10000x128 .f32) (a1 : FVec Ideal S10000x2000 .f32) (a2 a3 : FVec Ideal S128x128 .f32)
    (h : fn (F := Ideal) a0 a1 a2 a3 = (fun _ => 1#1)) :
    (∀ i, IsR (a0 i)) ∧ (∀ i, ∃ a : ℝ, 0 ≤ a ∧ a1 i = (a : EReal)) ∧ (∀ i, IsR (a2 i)) ∧ (∀ i, IsR (a3 i)) := by
  have h0 := congrFun h ValueIdx.ix0
  dsimp only [fn, fn_part1] at h0
  obtain ⟨h18, h21⟩ := IntOp.andi_eq_one.1 h0
  obtain ⟨h13, h17⟩ := IntOp.andi_eq_one.1 h18
  obtain ⟨h8, h12⟩ := IntOp.andi_eq_one.1 h13
  obtain ⟨h3, h7⟩ := IntOp.andi_eq_one.1 h8
  have r1 : ∀ i, IsR (a1 i) := fun i => entry_isR a1 Facts.bcast_S_S10000x2000 i (Host.reduce_andi_all _ _ _ _ _ h7 i)
  refine ⟨fun i => entry_isR a0 Facts.bcast_S_S10000x128 i (Host.reduce_andi_all _ _ _ _ _ h3 i),
    fun i => nn_of_isR_of_nonneg (r1 i) (entry_nonneg a1 Facts.bcast_S_S10000x2000 i (Host.reduce_andi_all _ _ _ _ _ h21 i)),
    fun i => entry_isR a2 Facts.bcast_S_S128x128 i (Host.reduce_andi_all _ _ _ _ _ h12 i),
    fun i => entry_isR a3 Facts.bcast_S_S128x128 i (Host.reduce_andi_all _ _ _ _ _ h17 i)⟩

end Cert.PreSide

end
-- ==== Proof.RefSide.lean ====
/-
  The reference program's result is the two-layer network in the root-and-square spelling.

  Read one operation at a time, the reference computes, for an incidence inc (node, hyperedge), features y (node, d)
  and weights w (d, h):

      the hyperedge sizes  max (0 + Σ_v inc v e) 1  and the node degrees  max (0 + Σ_e inc v e) 1,
      the hyperedge value  ((Σ_v inc v e · (y v d)^2) / size e)^(1/2)     (transpose, power, contraction, quotient, power),
      the node value       ((Σ_e inc v e · (hyperedge value e d)^2) / degree v)^(1/2),
      the layer            max (Σ_d node value v d · w d h) 0,

  which is Spec's rlayer, entry by entry: the float words 2, 1/2, 1 and 0 are those reals, and 0 + s = s. The second
  layer is the same thirty-five operations applied to the first layer's result and the other weights, so the whole
  program is rlayer of rlayer, Spec's rresult.
-/
import proofs.«114318_g79602923864256_cont_9to1_m_37_17_alg».proof.Proof.Gen.ReferenceIdeal.Read
import proofs.«114318_g79602923864256_cont_9to1_m_37_17_alg».proof.Proof.Spec
import proofs.«114318_g79602923864256_cont_9to1_m_37_17_alg».proof.Proof.LibGenMean

noncomputable section

namespace Cert.ReferenceIdeal.RefValue

open Cert.ReferenceIdeal Cert.ReferenceIdeal.Gen Cert.ReferenceIdeal.Read Idealize.ShloMosaic Idealize.ShloMosaic.ValueIdx
  Cert.Spec Cert.LibGenMean

/-- The incidence, features and weights as functions of two coordinates. -/
abbrev incOf (x1 : (⟨S10000x2000, .f32⟩ : BufTy).Contents (Elt Ideal)) : Fin 10000 → Fin 2000 → EReal := fun v e => x1 (ix2 v e)
abbrev featOf (y : (⟨S10000x128, .f32⟩ : BufTy).Contents (Elt Ideal)) : Fin 10000 → Fin 128 → EReal := fun v d => y (ix2 v d)
abbrev wOf (w : (⟨S128x128, .f32⟩ : BufTy).Contents (Elt Ideal)) : Fin 128 → Fin 128 → EReal := fun d h => w (ix2 d h)

/-- The hyperedge sizes floored at one. -/
theorem read_degE (x1 : (⟨S10000x2000, .f32⟩ : BufTy).Contents (Elt Ideal)) (q : S2000.Idx) :
    val_main_v2 (F := Ideal) x1 q = degE (incOf x1) (q 0) := by
  rw [val_main_v2_apply, val_main_v0_apply, val_main_v1_apply, val_main_cst_0_apply, val_main_cst_apply]
  simp only [Ideal.maximumf_def, Ideal.ofBits_def, zero_bits, one_bits, EReal.coe_zero, EReal.coe_one, zero_add]
  unfold degE
  refine congrArg (fun s => max s 1) (Finset.sum_congr rfl fun k _ => congrArg x1 ?_)
  exact funext fun a => Fin.ext (by match a with | ⟨0, _⟩ => rfl | ⟨1, _⟩ => rfl)

/-- The node degrees floored at one. -/
theorem read_degV (x1 : (⟨S10000x2000, .f32⟩ : BufTy).Contents (Elt Ideal)) (q : S10000.Idx) :
    val_main_v14 (F := Ideal) x1 q = degV (incOf x1) (q 0) := by
  rw [val_main_v14_apply, val_main_v12_apply, val_main_v13_apply, val_main_cst_4_apply, val_main_cst_3_apply]
  simp only [Ideal.maximumf_def, Ideal.ofBits_def, zero_bits, one_bits, EReal.coe_zero, EReal.coe_one, zero_add]
  unfold degV
  refine congrArg (fun s => max s 1) (Finset.sum_congr rfl fun k _ => congrArg x1 ?_)
  exact funext fun a => Fin.ext (by match a with | ⟨0, _⟩ => rfl | ⟨1, _⟩ => rfl)

/-- The hyperedge value: the power 1/2 of the mean of the members' squared features. -/
theorem read_rintra (y : (⟨S10000x128, .f32⟩ : BufTy).Contents (Elt Ideal)) (x1 : (⟨S10000x2000, .f32⟩ : BufTy).Contents (Elt Ideal))
    (m : S2000x128.Idx) :
    val_main_v11 (F := Ideal) y x1 m = rintra (incOf x1) (featOf y) (m 0) (m 1) := by
  rw [val_main_v11_apply, val_main_v9_apply, val_main_v10_apply, val_main_cst_2_apply, val_main_v8_apply, val_main_v7_apply,
    read_degE, val_main_v6_apply]
  simp only [val_main_v3_apply, val_main_v5_apply, val_main_v4_apply, val_main_cst_1_apply,
    Ideal.hostPowf_def, Ideal.hostDivf_def, Ideal.ofBits_def, two_bits, half_bits]
  unfold rintra
  refine congrArg (fun s => Ideal.pow (Ideal.div s _) _) (Finset.sum_congr rfl fun k _ => ?_)
  refine congrArg₂ (fun a b => a * Ideal.pow b _) (congrArg x1 ?_) (congrArg y ?_)
  · exact funext fun a => Fin.ext (by match a with | ⟨0, _⟩ => rfl | ⟨1, _⟩ => rfl)
  · exact funext fun a => Fin.ext (by match a with | ⟨0, _⟩ => rfl | ⟨1, _⟩ => rfl)

/-- The node value: the power 1/2 of the mean, over the node's hyperedges, of the squared hyperedge values. -/
theorem read_rinter (y : (⟨S10000x128, .f32⟩ : BufTy).Contents (Elt Ideal)) (x1 : (⟨S10000x2000, .f32⟩ : BufTy).Contents (Elt Ideal))
    (j : S10000x128.Idx) :
    val_main_v22 (F := Ideal) y x1 j = rinter (incOf x1) (featOf y) (j 0) (j 1) := by
  rw [val_main_v22_apply, val_main_v20_apply, val_main_v21_apply, val_main_cst_6_apply, val_main_v19_apply, val_main_v18_apply,
    read_degV, val_main_v17_apply]
  simp only [val_main_v16_apply, val_main_v15_apply, val_main_cst_5_apply, read_rintra,
    Ideal.hostPowf_def, Ideal.hostDivf_def, Ideal.ofBits_def, two_bits, half_bits]
  unfold rinter
  refine congrArg (fun s => Ideal.pow (Ideal.div s _) _) (Finset.sum_congr rfl fun k _ => ?_)
  refine congrArg (fun a => a * _) (congrArg x1 ?_)
  exact funext fun a => Fin.ext (by match a with | ⟨0, _⟩ => rfl | ⟨1, _⟩ => rfl)

/-- One layer of the reference, as a function of the incidence, the features it is given and the weights. -/
theorem read_rlayer (y : (⟨S10000x128, .f32⟩ : BufTy).Contents (Elt Ideal)) (x1 : (⟨S10000x2000, .f32⟩ : BufTy).Contents (Elt Ideal))
    (w : (⟨S128x128, .f32⟩ : BufTy).Contents (Elt Ideal)) (j : S10000x128.Idx) :
    val_main_v24 (F := Ideal) y x1 w j = rlayer (incOf x1) (featOf y) (wOf w) (j 0) (j 1) := by
  rw [val_main_v24_apply, val_main_call0_v0_apply, val_main_call0_cst_apply, val_main_v23_apply]
  simp only [read_rinter, Ideal.maximumf_def, Ideal.ofBits_def, zero_bits, EReal.coe_zero]
  unfold rlayer
  refine congrArg (fun s => max s 0) (Finset.sum_congr rfl fun k _ => ?_)
  refine congrArg (fun a => _ * a) (congrArg w ?_)
  exact funext fun a => Fin.ext (by match a with | ⟨0, _⟩ => rfl | ⟨1, _⟩ => rfl)

/-- The second layer is the first layer's operations again, on the first layer's result and the other weights. -/
theorem second_layer (x0 : (⟨S10000x128, .f32⟩ : BufTy).Contents (Elt Ideal)) (x1 : (⟨S10000x2000, .f32⟩ : BufTy).Contents (Elt Ideal))
    (x2 x3 : (⟨S128x128, .f32⟩ : BufTy).Contents (Elt Ideal)) :
    val_main_v49 (F := Ideal) x0 x1 x2 x3 = val_main_v24 (F := Ideal) (val_main_v24 (F := Ideal) x0 x1 x2) x1 x3 := rfl

/-- The reference's result is the two-layer network in the root-and-square spelling. -/
theorem reference_is_rresult (x0 : (⟨S10000x128, .f32⟩ : BufTy).Contents (Elt Ideal)) (x1 : (⟨S10000x2000, .f32⟩ : BufTy).Contents (Elt Ideal))
    (x2 x3 : (⟨S128x128, .f32⟩ : BufTy).Contents (Elt Ideal)) :
    val_main_v49 (F := Ideal) x0 x1 x2 x3
      = fun j => rresult (fun v e => x1 (ix2 v e)) (fun v d => x0 (ix2 v d)) (fun d h => x2 (ix2 d h)) (fun d h => x3 (ix2 d h)) (j 0) (j 1) := by
  funext j
  rw [second_layer, read_rlayer]
  unfold rresult
  refine congrArg (fun f => rlayer _ f _ (j 0) (j 1)) ?_
  funext v d
  exact read_rlayer x0 x1 x2 (ix2 v d)

end Cert.ReferenceIdeal.RefValue

end
-- ==== Proof.RefAssembly.lean ====
/-
  The reference's result under the precondition is the two-layer network in the kept-square spelling.

  The reference computes the root-and-square spelling of the network, whatever its arguments. Under the precondition
  every entry of the features and of the weights is a real and every entry of the incidence is a non-negative real,
  and there the two spellings agree. So the reference's result array is, index by index, the kept-square network of
  its four argument arrays; and every weakly fair run of the reference ends with its result at that function of the
  arguments, the arguments unchanged.
-/
import proofs.«114318_g79602923864256_cont_9to1_m_37_17_alg».proof.Proof.Gen.ReferenceIdeal.Read
import proofs.«114318_g79602923864256_cont_9to1_m_37_17_alg».proof.Proof.Gen.Pre_finite_inputs
import proofs.«114318_g79602923864256_cont_9to1_m_37_17_alg».proof.Proof.Spec
import proofs.«114318_g79602923864256_cont_9to1_m_37_17_alg».proof.Proof.SpecLaw
import proofs.«114318_g79602923864256_cont_9to1_m_37_17_alg».proof.Proof.PreSide
import proofs.«114318_g79602923864256_cont_9to1_m_37_17_alg».proof.Proof.RefSide

noncomputable section

namespace Cert.ReferenceIdeal.RefValue

open Cert.ReferenceIdeal Cert.ReferenceIdeal.Gen Cert.ReferenceIdeal.Read Idealize.ShloMosaic Idealize.ShloMosaic.ValueIdx
  Idealize.ShloMosaic.TcCoe Idealize.SL.Sem Cert.Spec Cert.LibReals

variable [Cert.Pre_finite_inputs.Facts]

/-- The network, in the kept-square spelling, of four argument arrays, index by index. -/
abbrev G (a0 : (⟨S10000x128, .f32⟩ : BufTy).Contents (Elt Ideal)) (a1 : (⟨S10000x2000, .f32⟩ : BufTy).Contents (Elt Ideal))
    (a2 a3 : (⟨S128x128, .f32⟩ : BufTy).Contents (Elt Ideal)) : (⟨S10000x128, .f32⟩ : BufTy).Contents (Elt Ideal) :=
  fun j => Cert.Spec.result (fun v e => a1 (ix2 v e)) (fun v d => a0 (ix2 v d)) (fun d h => a2 (ix2 d h)) (fun d h => a3 (ix2 d h)) (j 0) (j 1)

/-- Under the precondition the reference's last stage is the kept-square network of the arguments. -/
theorem reference_result (a0 : (⟨S10000x128, .f32⟩ : BufTy).Contents (Elt Ideal)) (a1 : (⟨S10000x2000, .f32⟩ : BufTy).Contents (Elt Ideal))
    (a2 a3 : (⟨S128x128, .f32⟩ : BufTy).Contents (Elt Ideal))
    (hpre : Cert.Pre_finite_inputs.fn (F := Ideal) a0 a1 a2 a3 = (fun _ => 1#1)) :
    val_main_v49 (F := Ideal) a0 a1 a2 a3
      = fun j => Cert.Spec.result (fun v e => a1 (ix2 v e)) (fun v d => a0 (ix2 v d)) (fun d h => a2 (ix2 d h)) (fun d h => a3 (ix2 d h)) (j 0) (j 1) := by
  obtain ⟨h0, h1, h2, _⟩ := Cert.PreSide.entries a0 a1 a2 a3 hpre
  rw [reference_is_rresult]
  funext j
  exact congrFun (congrFun (Cert.SpecLaw.rresult_eq_result _ _ _ _ (fun v e => h1 (ix2 v e)) (fun v d => h0 (ix2 v d))
    (fun d h => h2 (ix2 d h))) (j 0)) (j 1)

/-- Every weakly fair run of the reference, from a memory whose arguments pass the precondition on every device, ends
    with its result at the kept-square network of the arguments, and the arguments unchanged. -/
theorem reference_run (m : (ℓ : Loc nD τ sig) → Buf (Elt Ideal) ℓ) (ρ : Dev nD → PrngReg)
    (hpre : ∀ c : Dev nD, Cert.Pre_finite_inputs.fn (F := Ideal) (m ((c.tc : Thread nD τ).loc main_arg0))
      (m ((c.tc : Thread nD τ).loc main_arg1)) (m ((c.tc : Thread nD τ).loc main_arg2)) (m ((c.tc : Thread nD τ).loc main_arg3))
        = (fun _ => 1#1)) :
    θ_run (defs (F := Ideal)) (onTc (τ := τ) (main (F := Ideal))) ⟨m, fun _ => 0, ρ⟩ fun r => ∀ c : Dev nD,
      r.2.mem ((c.tc : Thread nD τ).loc main_v49)
          = G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨by rw [(h c).1, val_main_v49_eq]; exact reference_result _ _ _ _ (hpre c), (h c).2⟩)
    (Cert.ReferenceIdeal.Value.run (F := Ideal) m ρ)

end Cert.ReferenceIdeal.RefValue

end
-- ==== Proof.lean ====
/-
  Two hypergraph layers of the power-2 generalised mean, as a kernel of three pallas_calls and as a jnp reference.

  Per layer the reference takes, for every hyperedge, the mean s/g of its members' squared features (g the hyperedge's size
  floored at one), its root (s/g)^(1/2), squares that again, takes per node the mean over the node's hyperedges and its root,
  multiplies by the weights and keeps the positive part. The kernel keeps s/g between the two aggregations (no root, no
  square), squares by x·x and takes the one root by sqrt; it accumulates the hyperedge sums over five blocks of 2000 nodes
  in scratch buffers, and never stores the first layer's activations: the second call forms them block by block and feeds
  their squares straight into the second layer's hyperedge sums.

  On the extended reals the two spellings are one function where every feature and weight is a real and every entry of the
  incidence is a non-negative real: then s ≥ 0 and g ≥ 1, so ((s/g)^(1/2))^2 = s/g and sqrt = the power 1/2, and every value
  formed is again a real, so the law carries through both layers. (For a negative incidence entry the claim fails: the
  power 1/2 of a negative mean is 0 while the kernel keeps the negative mean; the precondition therefore asks the incidence
  to be non-negative, where the reference's root is defined.) The kernel's result is shown equal to the network in the
  kept-square spelling with no hypothesis (sums regrouped by blocks, a sum onto the zero word, casts the identity); the
  reference's under the precondition.

  The frames: each program runs to the end and leaves its four arguments as launched. The reference's is its run with the
  result dropped; the kernel's two (at the word level and at the exact reading) are the run of its cast and its three calls
  one after the other, each call from its own proof data: what the scratch buffers and the outputs hold after each grid
  point, the body run once per case of its conditionals.
-/
import proofs.«114318_g79602923864256_cont_9to1_m_37_17_alg».proof.Defs
import proofs.«114318_g79602923864256_cont_9to1_m_37_17_alg».proof.Proof.Gen.Kernel
import proofs.«114318_g79602923864256_cont_9to1_m_37_17_alg».proof.Proof.Gen.KernelIdeal
import proofs.«114318_g79602923864256_cont_9to1_m_37_17_alg».proof.Proof.Gen.ReferenceIdeal
import proofs.«114318_g79602923864256_cont_9to1_m_37_17_alg».proof.Proof.Gen.Pre_finite_inputs
import proofs.«114318_g79602923864256_cont_9to1_m_37_17_alg».proof.Proof.Gen.ReferenceIdeal.Run
import proofs.«114318_g79602923864256_cont_9to1_m_37_17_alg».proof.Proof.Gen.ReferenceIdeal.Read
import proofs.«114318_g79602923864256_cont_9to1_m_37_17_alg».proof.Proof.BitsRun
import proofs.«114318_g79602923864256_cont_9to1_m_37_17_alg».proof.Proof.IdealAssembly
import proofs.«114318_g79602923864256_cont_9to1_m_37_17_alg».proof.Proof.RefAssembly
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the two-layer network, in the kept-square spelling, of arguments that agree. -/
theorem algebraic : Cert.algebraic_KernelIdeal_ReferenceIdeal := by
  intro m ρ m' ρ' hpre hagree
  refine ⟨fun c => Cert.ReferenceIdeal.RefValue.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Hand.kernel_run m ρ, ?_⟩
  have hpre' : ∀ c : Dev Cert.ReferenceIdeal.nD, Cert.Pre_finite_inputs.fn (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = (fun _ => 1#1) := fun c => by
    rw [(hagree c).1, (hagree c).2.1, (hagree c).2.2.1, (hagree c).2.2.2]; exact hpre c
  refine (θ_run Cert.ReferenceIdeal.defs _ _).mono (fun _ h c => ⟨(h c).1.trans ?_, (h c).2⟩)
    (Cert.ReferenceIdeal.RefValue.reference_run m' ρ' hpre')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
